-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S200000x80 : Shape := ⟨2, ![200000, 80]⟩
abbrev S20x16 : Shape := ⟨2, ![20, 16]⟩
abbrev S80x80 : Shape := ⟨2, ![80, 80]⟩
abbrev S80 : Shape := ⟨1, ![80]⟩
abbrev S80x64 : Shape := ⟨2, ![80, 64]⟩
abbrev S64 : Shape := ⟨1, ![64]⟩
abbrev S64x64 : Shape := ⟨2, ![64, 64]⟩
abbrev S16x64 : Shape := ⟨2, ![16, 64]⟩
abbrev S400000 : Shape := ⟨1, ![400000]⟩
abbrev S2000000 : Shape := ⟨1, ![2000000]⟩
abbrev S2x2000000 : Shape := ⟨2, ![2, 2000000]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S200000x80 : S_.BroadcastsInDim S200000x80 (![] : Fin 0 → Fin S200000x80.rank)
  reducesTo_S200000x80_S_d0_1 : S200000x80.ReducesTo [0, 1] S_
  bcast_S_S20x16 : S_.BroadcastsInDim S20x16 (![] : Fin 0 → Fin S20x16.rank)
  reducesTo_S20x16_S_d0_1 : S20x16.ReducesTo [0, 1] S_
  bcast_S_S80x80 : S_.BroadcastsInDim S80x80 (![] : Fin 0 → Fin S80x80.rank)
  reducesTo_S80x80_S_d0_1 : S80x80.ReducesTo [0, 1] S_
  bcast_S_S80 : S_.BroadcastsInDim S80 (![] : Fin 0 → Fin S80.rank)
  reducesTo_S80_S_d0 : S80.ReducesTo [0] S_
  bcast_S_S80x64 : S_.BroadcastsInDim S80x64 (![] : Fin 0 → Fin S80x64.rank)
  reducesTo_S80x64_S_d0_1 : S80x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_

variable [Facts]

def fn_part8 {F : FTy → Type} [FloatOps F] (main_arg28 : FVec F S64 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64 .f32 := Host.absf main_arg28
  let main_cst_54 : FVec F S_ .f32 := constant S_ .f32 0x7F800000#32
  let main_v140 : FVec F S64 .f32 := broadcastInDim S64 ![] bcast_S_S64 main_cst_54
  let main_v141 : IVec S64 1 := cmpf .olt main_v139 main_v140
  let main_c_55 : IVec S_ 1 := constantI S_ 1 1#1
  let main_v142 : IVec S_ 1 := (fun x v => Host.reduce IntOp.andi x v reducesTo_S64_S_d0 h_S_) main_v141 main_c_55
  let main_v143 : IVec S_ 1 := andi main_v138 main_v142
  main_v143

def fn_part7 {F : FTy → Type} [FloatOps F] (main_arg25 : FVec F S64x64 .f32) (main_arg26 : FVec F S64 .f32) (main_arg27 : FVec F S64 .f32) (main_arg28 : FVec F S64 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64x64 .f32 := Host.absf main_arg25
  let main_cst_48 : FVec F S_ .f32 := constant S_ .f32 0x7F800000#32
  let main_v125 : FVec F S64x64 .f32 := broadcastInDim S64x64 ![] bcast_S_S64x64 main_cst_48
  let main_v126 : IVec S64x64 1 := cmpf .olt main_v124 main_v125
  let main_c_49 : IVec S_ 1 := constantI S_ 1 1#1
  let main_v127 : IVec S_ 1 := (fun x v => Host.reduce IntOp.andi x v reducesTo_S64x64_S_d0_1 h_S_) main_v126 main_c_49
  let main_v128 : IVec S_ 1 := andi main_v123 main_v127
  let main_v129 : FVec F S64 .f32 := Host.absf main_arg26
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S64 .f32 := Host.absf main_arg27
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg28 main_v133 main_v136

def fn_part6 {F : FTy → Type} [FloatOps F] (main_arg21 : FVec F S16x64 .f32) (main_arg22 : FVec F S64 .f32) (main_arg23 : FVec F S16x64 .f32) (main_arg24 : FVec F S64 .f32) (main_arg25 : FVec F S64x64 .f32) (main_arg26 : FVec F S64 .f32) (main_arg27 : FVec F S64 .f32) (main_arg28 : FVec F S64 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S16x64 .f32 := Host.absf main_arg21
  let main_cst_40 : FVec F S_ .f32 := constant S_ .f32 0x7F800000#32
  let main_v105 : FVec F S16x64 .f32 := broadcastInDim S16x64 ![] bcast_S_S16x64 main_cst_40
  let main_v106 : IVec S16x64 1 := cmpf .olt main_v104 main_v105
  let main_c_41 : IVec S_ 1 := constantI S_ 1 1#1
  let main_v107 : IVec S_ 1 := (fun x v => Host.reduce IntOp.andi x v reducesTo_S16x64_S_d0_1 h_S_) main_v106 main_c_41
  let main_v108 : IVec S_ 1 := andi main_v103 main_v107
  let main_v109 : FVec F S64 .f32 := Host.absf main_arg22
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S16x64 .f32 := Host.absf main_arg23
  let main_cst_44 : FVec F S_ .f32 := constant S_ .f32 0x7F800000#32
  let main_v115 : FVec F S16x64 .f32 := broadcastInDim S16x64 ![] bcast_S_S16x64 main_cst_44
  let main_v116 : IVec S16x64 1 := cmpf .olt main_v114 main_v115
  let main_c_45 : IVec S_ 1 := constantI S_ 1 1#1
  let main_v117 : IVec S_ 1 := (fun x v => Host.reduce IntOp.andi x v reducesTo_S16x64_S_d0_1 h_S_) main_v116 main_c_45
  let main_v118 : IVec S_ 1 := andi main_v113 main_v117
  let main_v119 : FVec F S64 .f32 := Host.absf main_arg24
  fn_part7 (F := F) main_arg25 main_arg26 main_arg27 main_arg28 main_v118 main_v119

def fn_part5 {F : FTy → Type} [FloatOps F] (main_arg18 : FVec F S64 .f32) (main_arg19 : FVec F S16x64 .f32) (main_arg20 : FVec F S64 .f32) (main_arg21 : FVec F S16x64 .f32) (main_arg22 : FVec F S64 .f32) (main_arg23 : FVec F S16x64 .f32) (main_arg24 : FVec F S64 .f32) (main_arg25 : FVec F S64x64 .f32) (main_arg26 : FVec F S64 .f32) (main_arg27 : FVec F S64 .f32) (main_arg28 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S16x64 .f32 := Host.absf main_arg19
  let main_cst_36 : FVec F S_ .f32 := constant S_ .f32 0x7F800000#32
  let main_v95 : FVec F S16x64 .f32 := broadcastInDim S16x64 ![] bcast_S_S16x64 main_cst_36
  let main_v96 : IVec S16x64 1 := cmpf .olt main_v94 main_v95
  let main_c_37 : IVec S_ 1 := constantI S_ 1 1#1
  let main_v97 : IVec S_ 1 := (fun x v => Host.reduce IntOp.andi x v reducesTo_S16x64_S_d0_1 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg21 main_arg22 main_arg23 main_arg24 main_arg25 main_arg26 main_arg27 main_arg28 main_v98 main_v101 main_c_39

def fn_part4 {F : FTy → Type} [FloatOps F] (main_arg14 : FVec F S64 .f32) (main_arg15 : FVec F S64x64 .f32) (main_arg16 : FVec F S64 .f32) (main_arg17 : FVec F S64 .f32) (main_arg18 : FVec F S64 .f32) (main_arg19 : FVec F S16x64 .f32) (main_arg20 : FVec F S64 .f32) (main_arg21 : FVec F S16x64 .f32) (main_arg22 : FVec F S64 .f32) (main_arg23 : FVec F S16x64 .f32) (main_arg24 : FVec F S64 .f32) (main_arg25 : FVec F S64x64 .f32) (main_arg26 : FVec F S64 .f32) (main_arg27 : FVec F S64 .f32) (main_arg28 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_v83 main_v84 main_cst_32

def fn_part3 {F : FTy → Type} [FloatOps F] (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S16x64 .f32) (main_arg20 : FVec F S64 .f32) (main_arg21 : FVec F S16x64 .f32) (main_arg22 : FVec F S64 .f32) (main_arg23 : FVec F S16x64 .f32) (main_arg24 : FVec F S64 .f32) (main_arg25 : FVec F S64x64 .f32) (main_arg26 : FVec F S64 .f32) (main_arg27 : FVec F S64 .f32) (main_arg28 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_v63 main_v67

def fn_part2 {F : FTy → Type} [FloatOps F] (main_arg7 : FVec F S80 .f32) (main_arg8 : FVec F S80 .f32) (main_arg9 : FVec F S80x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S16x64 .f32) (main_arg20 : FVec F S64 .f32) (main_arg21 : FVec F S16x64 .f32) (main_arg22 : FVec F S64 .f32) (main_arg23 : FVec F S16x64 .f32) (main_arg24 : FVec F S64 .f32) (main_arg25 : FVec F S64x64 .f32) (main_arg26 : FVec F S64 .f32) (main_arg27 : FVec F S64 .f32) (main_arg28 : FVec F S64 .f32) (main_v33 : IVec S_ 1) : IVec S_ 1 :=
  let main_v34 : FVec F S80 .f32 := Host.absf main_arg7
  let main_cst_12 : FVec F S_ .f32 := constant S_ .f32 0x7F800000#32
  let main_v35 : FVec F S80 .f32 := broadcastInDim S80 ![] bcast_S_S80 main_cst_12
  let main_v36 : IVec S80 1 := cmpf .olt main_v34 main_v35
  let main_c_13 : IVec S_ 1 := constantI S_ 1 1#1
  let main_v37 : IVec S_ 1 := (fun x v => Host.reduce IntOp.andi x v reducesTo_S80_S_d0 h_S_) main_v36 main_c_13
  let main_v38 : IVec S_ 1 := andi main_v33 main_v37
  let main_v39 : FVec F S80 .f32 := Host.absf main_arg8
  let main_cst_14 : FVec F S_ .f32 := constant S_ .f32 0x7F800000#32
  let main_v40 : FVec F S80 .f32 := broadcastInDim S80 ![] bcast_S_S80 main_cst_14
  let main_v41 : IVec S80 1 := cmpf .olt main_v39 main_v40
  let main_c_15 : IVec S_ 1 := constantI S_ 1 1#1
  let main_v42 : IVec S_ 1 := (fun x v => Host.reduce IntOp.andi x v reducesTo_S80_S_d0 h_S_) main_v41 main_c_15
  let main_v43 : IVec S_ 1 := andi main_v38 main_v42
  let main_v44 : FVec F S80x64 .f32 := Host.absf main_arg9
  let main_cst_16 : FVec F S_ .f32 := constant S_ .f32 0x7F800000#32
  let main_v45 : FVec F S80x64 .f32 := broadcastInDim S80x64 ![] bcast_S_S80x64 main_cst_16
  let main_v46 : IVec S80x64 1 := cmpf .olt main_v44 main_v45
  let main_c_17 : IVec S_ 1 := constantI S_ 1 1#1
  let main_v47 : IVec S_ 1 := (fun x v => Host.reduce IntOp.andi x v reducesTo_S80x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : FVec F S80 .f32) (main_arg5 : FVec F S80 .f32) (main_arg6 : FVec F S80x80 .f32) (main_arg7 : FVec F S80 .f32) (main_arg8 : FVec F S80 .f32) (main_arg9 : FVec F S80x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S16x64 .f32) (main_arg20 : FVec F S64 .f32) (main_arg21 : FVec F S16x64 .f32) (main_arg22 : FVec F S64 .f32) (main_arg23 : FVec F S16x64 .f32) (main_arg24 : FVec F S64 .f32) (main_arg25 : FVec F S64x64 .f32) (main_arg26 : FVec F S64 .f32) (main_arg27 : FVec F S64 .f32) (main_arg28 : FVec F S64 .f32) (main_v13 : IVec S_ 1) (main_v16 : IVec S80x80 1) : IVec S_ 1 :=
  let main_c_5 : IVec S_ 1 := constantI S_ 1 1#1
  let main_v17 : IVec S_ 1 := (fun x v => Host.reduce IntOp.andi x v reducesTo_S80x80_S_d0_1 h_S_) main_v16 main_c_5
  let main_v18 : IVec S_ 1 := andi main_v13 main_v17
  let main_v19 : FVec F S80 .f32 := Host.absf main_arg4
  let main_cst_6 : FVec F S_ .f32 := constant S_ .f32 0x7F800000#32
  let main_v20 : FVec F S80 .f32 := broadcastInDim S80 ![] bcast_S_S80 main_cst_6
  let main_v21 : IVec S80 1 := cmpf .olt main_v19 main_v20
  let main_c_7 : IVec S_ 1 := constantI S_ 1 1#1
  let main_v22 : IVec S_ 1 := (fun x v => Host.reduce IntOp.andi x v reducesTo_S80_S_d0 h_S_) main_v21 main_c_7
  let main_v23 : IVec S_ 1 := andi main_v18 main_v22
  let main_v24 : FVec F S80 .f32 := Host.absf main_arg5
  let main_cst_8 : FVec F S_ .f32 := constant S_ .f32 0x7F800000#32
  let main_v25 : FVec F S80 .f32 := broadcastInDim S80 ![] bcast_S_S80 main_cst_8
  let main_v26 : IVec S80 1 := cmpf .olt main_v24 main_v25
  let main_c_9 : IVec S_ 1 := constantI S_ 1 1#1
  let main_v27 : IVec S_ 1 := (fun x v => Host.reduce IntOp.andi x v reducesTo_S80_S_d0 h_S_) main_v26 main_c_9
  let main_v28 : IVec S_ 1 := andi main_v23 main_v27
  let main_v29 : FVec F S80x80 .f32 := Host.absf main_arg6
  let main_cst_10 : FVec F S_ .f32 := constant S_ .f32 0x7F800000#32
  let main_v30 : FVec F S80x80 .f32 := broadcastInDim S80x80 ![] bcast_S_S80x80 main_cst_10
  let main_v31 : IVec S80x80 1 := cmpf .olt main_v29 main_v30
  let main_c_11 : IVec S_ 1 := constantI S_ 1 1#1
  let main_v32 : IVec S_ 1 := (fun x v => Host.reduce IntOp.andi x v reducesTo_S80x80_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S20000x64 .f32) (main_arg1 : FVec F S200000x80 .f32) (main_arg2 : FVec F S20x16 .f32) (main_arg3 : FVec F S80x80 .f32) (main_arg4 : FVec F S80 .f32) (main_arg5 : FVec F S80 .f32) (main_arg6 : FVec F S80x80 .f32) (main_arg7 : FVec F S80 .f32) (main_arg8 : FVec F S80 .f32) (main_arg9 : FVec F S80x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S16x64 .f32) (main_arg20 : FVec F S64 .f32) (main_arg21 : FVec F S16x64 .f32) (main_arg22 : FVec F S64 .f32) (main_arg23 : FVec F S16x64 .f32) (main_arg24 : FVec F S64 .f32) (main_arg25 : FVec F S64x64 .f32) (main_arg26 : FVec F S64 .f32) (main_arg27 : FVec F S64 .f32) (main_arg28 : FVec F S64 .f32) (main_arg29 : IVec S400000 32) (main_arg30 : IVec S2000000 32) (main_arg31 : IVec S2x2000000 32) (main_arg32 : IVec S400000 32) (main_arg33 : IVec S400000 32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S200000x80 .f32 := Host.absf main_arg1
  let main_cst_0 : FVec F S_ .f32 := constant S_ .f32 0x7F800000#32
  let main_v5 : FVec F S200000x80 .f32 := broadcastInDim S200000x80 ![] bcast_S_S200000x80 main_cst_0
  let main_v6 : IVec S200000x80 1 := cmpf .olt main_v4 main_v5
  let main_c_1 : IVec S_ 1 := constantI S_ 1 1#1
  let main_v7 : IVec S_ 1 := (fun x v => Host.reduce IntOp.andi x v reducesTo_S200000x80_S_d0_1 h_S_) main_v6 main_c_1
  let main_v8 : IVec S_ 1 := andi main_v3 main_v7
  let main_v9 : FVec F S20x16 .f32 := Host.absf main_arg2
  let main_cst_2 : FVec F S_ .f32 := constant S_ .f32 0x7F800000#32
  let main_v10 : FVec F S20x16 .f32 := broadcastInDim S20x16 ![] bcast_S_S20x16 main_cst_2
  let main_v11 : IVec S20x16 1 := cmpf .olt main_v9 main_v10
  let main_c_3 : IVec S_ 1 := constantI S_ 1 1#1
  let main_v12 : IVec S_ 1 := (fun x v => Host.reduce IntOp.andi x v reducesTo_S20x16_S_d0_1 h_S_) main_v11 main_c_3
  let main_v13 : IVec S_ 1 := andi main_v8 main_v12
  let main_v14 : FVec F S80x80 .f32 := Host.absf main_arg3
  let main_cst_4 : FVec F S_ .f32 := constant S_ .f32 0x7F800000#32
  let main_v15 : FVec F S80x80 .f32 := broadcastInDim S80x80 ![] bcast_S_S80x80 main_cst_4
  let main_v16 : IVec S80x80 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S20000x64 : Shape := ⟨2, ![20000, 64]⟩
abbrev S200000x80 : Shape := ⟨2, ![200000, 80]⟩
abbrev S20x16 : Shape := ⟨2, ![20, 16]⟩
abbrev S80x80 : Shape := ⟨2, ![80, 80]⟩
abbrev S80 : Shape := ⟨1, ![80]⟩
abbrev S80x64 : Shape := ⟨2, ![80, 64]⟩
abbrev S64 : Shape := ⟨1, ![64]⟩
abbrev S64x64 : Shape := ⟨2, ![64, 64]⟩
abbrev S16x64 : Shape := ⟨2, ![16, 64]⟩
abbrev S400000 : Shape := ⟨1, ![400000]⟩
abbrev S2000000 : Shape := ⟨1, ![2000000]⟩
abbrev S2x2000000 : Shape := ⟨2, ![2, 2000000]⟩
abbrev S_ : Shape := ⟨0, ![]⟩
abbrev S400000x1 : Shape := ⟨2, ![400000, 1]⟩
abbrev S400000x16 : Shape := ⟨2, ![400000, 16]⟩
abbrev S400000x64 : Shape := ⟨2, ![400000, 64]⟩
abbrev S400000x80 : Shape := ⟨2, ![400000, 80]⟩
abbrev S2000000x1 : Shape := ⟨2, ![2000000, 1]⟩
abbrev S2000000x80 : Shape := ⟨2, ![2000000, 80]⟩
abbrev S1x2000000 : Shape := ⟨2, ![1, 2000000]⟩
abbrev S10000x80 : Shape := ⟨2, ![10000, 80]⟩
abbrev S1x80 : Shape := ⟨2, ![1, 80]⟩
abbrev S1x64 : Shape := ⟨2, ![1, 64]⟩
abbrev S5000x80 : Shape := ⟨2, ![5000, 80]⟩
abbrev S5000x16 : Shape := ⟨2, ![5000, 16]⟩
abbrev S5000x1 : Shape := ⟨2, ![5000, 1]⟩
abbrev S5000x64 : Shape := ⟨2, ![5000, 64]⟩
abbrev S20000 : Shape := ⟨1, ![20000]⟩
abbrev S20000x1 : Shape := ⟨2, ![20000, 1]⟩
abbrev S4000x64 : Shape := ⟨2, ![4000, 64]⟩
abbrev S4000x1 : Shape := ⟨2, ![4000, 1]⟩

abbrev nBuf : Space → Nat
  | .hbm => 155
  | .vmem => 74
  | .smem => 0
  | _ => 0

abbrev hbmTy0_0 (i : Nat) : BufTy := match i % 128 with
  | 0 => ⟨S20000x64, .f32⟩
  | 1 => ⟨S200000x80, .f32⟩
  | 2 => ⟨S20x16, .f32⟩
  | 3 => ⟨S80x80, .f32⟩
  | 4 => ⟨S80, .f32⟩
  | 5 => ⟨S80, .f32⟩
  | 6 => ⟨S80x80, .f32⟩
  | 7 => ⟨S80, .f32⟩
  | 8 => ⟨S80, .f32⟩
  | 9 => ⟨S80x64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S16x64, .f32⟩
  | 20 => ⟨S64, .f32⟩
  | 21 => ⟨S16x64, .f32⟩
  | 22 => ⟨S64, .f32⟩
  | 23 => ⟨S16x64, .f32⟩
  | 24 => ⟨S64, .f32⟩
  | 25 => ⟨S64x64, .f32⟩
  | 26 => ⟨S64, .f32⟩
  | 27 => ⟨S64, .f32⟩
  | 28 => ⟨S64, .f32⟩
  | 29 => ⟨S400000, .i32⟩
  | 30 => ⟨S2000000, .i32⟩
  | 31 => ⟨S2x2000000, .i32⟩
  | 32 => ⟨S400000, .i32⟩
  | 33 => ⟨S400000, .i32⟩
  | 34 => ⟨S_, .i32⟩
  | 35 => ⟨S400000, .i32⟩
  | 36 => ⟨S400000, .i32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S400000x16, .f32⟩
  | 46 => ⟨S_, .i32⟩
  | 47 => ⟨S400000, .i32⟩
  | 48 => ⟨S400000, .i1⟩
  | 49 => ⟨S_, .i32⟩
  | 50 => ⟨S400000, .i32⟩
  | 51 => ⟨S400000, .i32⟩
  | 52 => ⟨S400000, .i32⟩
  | 53 => ⟨S400000x1, .i32⟩
  | 54 => ⟨S400000x64, .f32⟩
  | 55 => ⟨S400000x80, .f32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S2000000x80, .f32⟩
  | 65 => ⟨S1x2000000, .i32⟩
  | 66 => ⟨S2000000, .i32⟩
  | 67 => ⟨S1x2000000, .i32⟩
  | 68 => ⟨S2000000, .i32⟩
  | 69 => ⟨S_, .i32⟩
  | 70 => ⟨S2000000, .i32⟩
  | 71 => ⟨S2000000, .i1⟩
  | 72 => ⟨S_, .i32⟩
  | 73 => ⟨S2000000, .i32⟩
  | 74 => ⟨S2000000, .i32⟩
  | 75 => ⟨S2000000, .i32⟩
  | 76 => ⟨S2000000x1, .i32⟩
  | 77 => ⟨S2000000x80, .f32⟩
  | 78 => ⟨S2000000x80, .f32⟩
  | 79 => ⟨S_, .f32⟩
  | 80 => ⟨S400000x80, .f32⟩
  | 81 => ⟨S2000000x1, .i32⟩
  | 82 => ⟨S400000x80, .f32⟩
  | 83 => ⟨S1x80, .f32⟩
  | 84 => ⟨S1x80, .f32⟩
  | 85 => ⟨S400000x80, .f32⟩
  | 86 => ⟨S_, .i32⟩
  | 87 => ⟨S2000000, .i32⟩
  | 88 => ⟨S2000000, .i1⟩
  | 89 => ⟨S_, .i32⟩
  | 90 => ⟨S2000000, .i32⟩
  | 91 => ⟨S2000000, .i32⟩
  | 92 => ⟨S2000000, .i32⟩
  | 93 => ⟨S2000000x1, .i32⟩
  | 94 => ⟨S2000000x80, .f32⟩
  | 95 => ⟨S2000000x80, .f32⟩
  | 96 => ⟨S_, .f32⟩
  | 97 => ⟨S400000x80, .f32⟩
  | 98 => ⟨S2000000x1, .i32⟩
  | 99 => ⟨S400000x80, .f32⟩
  | 100 => ⟨S1x80, .f32⟩
  | 101 => ⟨S1x80, .f32⟩
  | 102 => ⟨S400000x80, .f32⟩
  | 103 => ⟨S400000, .i1⟩
  | 104 => ⟨S400000, .f32⟩
  | 105 => ⟨S400000x1, .f32⟩
  | 106 => ⟨S1x64, .f32⟩
  | 107 => ⟨S1x64, .f32⟩
  | 108 => ⟨S1x64, .f32⟩
  | 109 => ⟨S1x64, .f32⟩
  | 110 => ⟨S1x64, .f32⟩
  | 111 => ⟨S1x64, .f32⟩
  | 112 => ⟨S1x64, .f32⟩
  | 113 => ⟨S1x64, .f32⟩
  | 114 => ⟨S1x64, .f32⟩
  | 115 => ⟨S1x64, .f32⟩
  | 116 => ⟨S400000x64, .f32⟩
  | 117 => ⟨S400000x64, .f32⟩
  | 118 => ⟨S400000x64, .f32⟩
  | 119 => ⟨S_, .f32⟩
  | 120 => ⟨S20000x64, .f32⟩
  | 121 => ⟨S400000x1, .i32⟩
  | 122 => ⟨S20000x64, .f32⟩
  | 123 => ⟨S_, .f32⟩
  | 124 => ⟨S400000, .f32⟩
  | 125 => ⟨S_, .f32⟩
  | 126 => ⟨S20000, .f32⟩
  | 127 => ⟨S400000x1, .i32⟩
  | _ => ⟨S20000x64, .f32⟩

abbrev hbmTy0_1 (i : Nat) : BufTy := match i % 128 with
  | 0 => ⟨S20000, .f32⟩
  | 1 => ⟨S_, .f32⟩
  | 2 => ⟨S_, .f32⟩
  | 3 => ⟨S20000, .f32⟩
  | 4 => ⟨S20000, .f32⟩
  | 5 => ⟨S_, .f32⟩
  | 6 => ⟨S20000, .f32⟩
  | 7 => ⟨S400000x1, .i32⟩
  | 8 => ⟨S20000, .f32⟩
  | 9 => ⟨S_, .f32⟩
  | 10 => ⟨S_, .f32⟩
  | 11 => ⟨S20000, .f32⟩
  | 12 => ⟨S20000, .f32⟩
  | 13 => ⟨S_, .f32⟩
  | 14 => ⟨S20000x64, .f32⟩
  | 15 => ⟨S400000x1, .i32⟩
  | 16 => ⟨S20000x64, .f32⟩
  | 17 => ⟨S_, .f32⟩
  | 18 => ⟨S20000x64, .f32⟩
  | 19 => ⟨S400000x1, .i32⟩
  | 20 => ⟨S20000x64, .f32⟩
  | 21 => ⟨S20000x1, .f32⟩
  | 22 => ⟨S20000x1, .f32⟩
  | 23 => ⟨S1x64, .f32⟩
  | 24 => ⟨S1x64, .f32⟩
  | 25 => ⟨S1x64, .f32⟩
  | 26 => ⟨S20000x64, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | .local _ .vmem, ⟨0, _⟩ => ⟨S10000x80, .f32⟩
  | .local _ .vmem, ⟨1, _⟩ => ⟨S10000x80, .f32⟩
  | .local _ .vmem, ⟨2, _⟩ => ⟨S10000x80, .f32⟩
  | .local _ .vmem, ⟨3, _⟩ => ⟨S10000x80, .f32⟩
  | .local _ .vmem, ⟨4, _⟩ => ⟨S10000x80, .f32⟩
  | .local _ .vmem, ⟨5, _⟩ => ⟨S10000x80, .f32⟩
  | .local _ .vmem, ⟨6, _⟩ => ⟨S10000x80, .f32⟩
  | .local _ .vmem, ⟨7, _⟩ => ⟨S10000x80, .f32⟩
  | .local _ .vmem, ⟨8, _⟩ => ⟨S10000x80, .f32⟩
  | .local _ .vmem, ⟨9, _⟩ => ⟨S10000x80, .f32⟩
  | .local _ .vmem, ⟨10, _⟩ => ⟨S80x80, .f32⟩
  | .local _ .vmem, ⟨11, _⟩ => ⟨S1x80, .f32⟩
  | .local _ .vmem, ⟨12, _⟩ => ⟨S1x80, .f32⟩
  | .local _ .vmem, ⟨13, _⟩ => ⟨S10000x80, .f32⟩
  | .local _ .vmem, ⟨14, _⟩ => ⟨S10000x80, .f32⟩
  | .local _ .vmem, ⟨15, _⟩ => ⟨S10000x80, .f32⟩
  | .local _ .vmem, ⟨16, _⟩ => ⟨S10000x80, .f32⟩
  | .local _ .vmem, ⟨17, _⟩ => ⟨S10000x80, .f32⟩
  | .local _ .vmem, ⟨18, _⟩ => ⟨S10000x80, .f32⟩
  | .local _ .vmem, ⟨19, _⟩ => ⟨S10000x80, .f32⟩
  | .local _ .vmem, ⟨20, _⟩ => ⟨S10000x80, .f32⟩
  | .local _ .vmem, ⟨21, _⟩ => ⟨S10000x80, .f32⟩
  | .local _ .vmem, ⟨22, _⟩ => ⟨S10000x80, .f32⟩
  | .local _ .vmem, ⟨23, _⟩ => ⟨S10000x80, .f32⟩
  | .local _ .vmem, ⟨24, _⟩ => ⟨S10000x80, .f32⟩
  | .local _ .vmem, ⟨25, _⟩ => ⟨S80x80, .f32⟩
  | .local _ .vmem, ⟨26, _⟩ => ⟨S1x80, .f32⟩
  | .local _ .vmem, ⟨27, _⟩ => ⟨S1x80, .f32⟩
  | .local _ .vmem, ⟨28, _⟩ => ⟨S10000x80, .f32⟩
  | .local _ .vmem, ⟨29, _⟩ => ⟨S10000x80, .f32⟩
  | .local _ .vmem, ⟨30, _⟩ => ⟨S5000x80, .f32⟩
  | .local _ .vmem, ⟨31, _⟩ => ⟨S5000x80, .f32⟩
  | .local _ .vmem, ⟨32, _⟩ => ⟨S5000x16, .f32⟩
  | .local _ .vmem, ⟨33, _⟩ => ⟨S5000x16, .f32⟩
  | .local _ .vmem, ⟨34, _⟩ => ⟨S5000x1, .f32⟩
  | .local _ .vmem, ⟨35, _⟩ => ⟨S5000x1, .f32⟩
  | .local _ .vmem, ⟨36, _⟩ => ⟨S80x64, .f32⟩
  | .local _ .vmem, ⟨37, _⟩ => ⟨S1x64, .f32⟩
  | .local _ .vmem, ⟨38, _⟩ => ⟨S16x64, .f32⟩
  | .local _ .vmem, ⟨39, _⟩ => ⟨S1x64, .f32⟩
  | .local _ .vmem, ⟨40, _⟩ => ⟨S16x64, .f32⟩
  | .local _ .vmem, ⟨41, _⟩ => ⟨S1x64, .f32⟩
  | .local _ .vmem, ⟨42, _⟩ => ⟨S16x64, .f32⟩
  | .local _ .vmem, ⟨43, _⟩ => ⟨S1x64, .f32⟩
  | .local _ .vmem, ⟨44, _⟩ => ⟨S64x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S64x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S4000x64, .f32⟩
  | .local _ .vmem, ⟨59, _⟩ => ⟨S4000x64, .f32⟩
  | .local _ .vmem, ⟨60, _⟩ => ⟨S4000x64, .f32⟩
  | .local _ .vmem, ⟨61, _⟩ => ⟨S4000x64, .f32⟩
  | .local _ .vmem, ⟨62, _⟩ => ⟨S4000x1, .f32⟩
  | .local _ .vmem, ⟨63, _⟩ => ⟨S4000x1, .f32⟩
  | .local _ .vmem, ⟨64, _⟩ => ⟨S4000x64, .f32⟩
  | .local _ .vmem, ⟨65, _⟩ => ⟨S4000x64, .f32⟩
  | .local _ .vmem, ⟨66, _⟩ => ⟨S4000x1, .f32⟩
  | .local _ .vmem, ⟨67, _⟩ => ⟨S4000x1, .f32⟩
  | .local _ .vmem, ⟨68, _⟩ => ⟨S64x64, .f32⟩
  | .local _ .vmem, ⟨69, _⟩ => ⟨S1x64, .f32⟩
  | .local _ .vmem, ⟨70, _⟩ => ⟨S1x64, .f32⟩
  | .local _ .vmem, ⟨71, _⟩ => ⟨S1x64, .f32⟩
  | .local _ .vmem, ⟨72, _⟩ => ⟨S4000x64, .f32⟩
  | .local _ .vmem, ⟨73, _⟩ => ⟨S4000x64, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_c : Ref sig .tc := ⟨.hbm, 34, rfl⟩
abbrev main_v0 : Ref sig .tc := ⟨.hbm, 35, rfl⟩
abbrev main_v1 : Ref sig .tc := ⟨.hbm, 36, rfl⟩
abbrev main_c_0 : Ref sig .tc := ⟨.hbm, 37, rfl⟩
abbrev main_v2 : Ref sig .tc := ⟨.hbm, 38, rfl⟩
abbrev main_v3 : Ref sig .tc := ⟨.hbm, 39, rfl⟩
abbrev main_c_1 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_c_2 : Ref sig .tc := ⟨.hbm, 46, rfl⟩
abbrev main_v9 : Ref sig .tc := ⟨.hbm, 47, rfl⟩
abbrev main_v10 : Ref sig .tc := ⟨.hbm, 48, rfl⟩
abbrev main_c_3 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_c_4 : Ref sig .tc := ⟨.hbm, 56, rfl⟩
abbrev main_v17 : Ref sig .tc := ⟨.hbm, 57, rfl⟩
abbrev main_v18 : Ref sig .tc := ⟨.hbm, 58, rfl⟩
abbrev main_c_5 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_c_6 : Ref sig .tc := ⟨.hbm, 69, rfl⟩
abbrev main_v28 : Ref sig .tc := ⟨.hbm, 70, rfl⟩
abbrev main_v29 : Ref sig .tc := ⟨.hbm, 71, rfl⟩
abbrev main_c_7 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_c_8 : Ref sig .tc := ⟨.hbm, 86, rfl⟩
abbrev main_v42 : Ref sig .tc := ⟨.hbm, 87, rfl⟩
abbrev main_v43 : Ref sig .tc := ⟨.hbm, 88, rfl⟩
abbrev main_c_9 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_10 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69_0 : Ref sig .tc := ⟨.hbm, 116, rfl⟩
abbrev main_v69_1 : Ref sig .tc := ⟨.hbm, 117, rfl⟩
abbrev main_v69_2 : Ref sig .tc := ⟨.hbm, 118, rfl⟩
abbrev main_cst_11 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_12 : Ref sig .tc := ⟨.hbm, 123, rfl⟩
abbrev main_v73 : Ref sig .tc := ⟨.hbm, 124, rfl⟩
abbrev main_cst_13 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_14 : Ref sig .tc := ⟨.hbm, 129, rfl⟩
abbrev main_call0_v0 : Ref sig .tc := ⟨.hbm, 130, rfl⟩
abbrev main_call0_v1 : Ref sig .tc := ⟨.hbm, 131, rfl⟩
abbrev main_v77 : Ref sig .tc := ⟨.hbm, 132, rfl⟩
abbrev main_cst_15 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_16 : Ref sig .tc := ⟨.hbm, 137, rfl⟩
abbrev main_call1_v0 : Ref sig .tc := ⟨.hbm, 138, rfl⟩
abbrev main_call1_v1 : Ref sig .tc := ⟨.hbm, 139, rfl⟩
abbrev main_v81 : Ref sig .tc := ⟨.hbm, 140, rfl⟩
abbrev main_cst_17 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_cst_18 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc4_stg8_0 : Ref sig .tc := ⟨.vmem, 41, rfl⟩
abbrev cc4_stg9_0 : Ref sig .tc := ⟨.vmem, 42, rfl⟩
abbrev cc4_stg10_0 : Ref sig .tc := ⟨.vmem, 43, rfl⟩
abbrev cc4_stg11_0 : Ref sig .tc := ⟨.vmem, 44, rfl⟩
abbrev cc4_stg12_0 : Ref sig .tc := ⟨.vmem, 45, rfl⟩
abbrev cc4_stg13_0 : Ref sig .tc := ⟨.vmem, 46, rfl⟩
abbrev cc4_stg14_0 : Ref sig .tc := ⟨.vmem, 47, rfl⟩
abbrev cc4_stg15_0 : Ref sig .tc := ⟨.vmem, 48, rfl⟩
abbrev cc4_stg16_0 : Ref sig .tc := ⟨.vmem, 49, rfl⟩
abbrev cc4_stg17_0 : Ref sig .tc := ⟨.vmem, 50, rfl⟩
abbrev cc4_stg18_0 : Ref sig .tc := ⟨.vmem, 51, rfl⟩
abbrev cc4_stg19_0 : Ref sig .tc := ⟨.vmem, 52, rfl⟩
abbrev cc4_stg19_1 : Ref sig .tc := ⟨.vmem, 53, rfl⟩
abbrev cc4_stg20_0 : Ref sig .tc := ⟨.vmem, 54, rfl⟩
abbrev cc4_stg20_1 : Ref sig .tc := ⟨.vmem, 55, rfl⟩
abbrev cc4_stg21_0 : Ref sig .tc := ⟨.vmem, 56, rfl⟩
abbrev cc4_stg21_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg1_1 : Ref sig .tc := ⟨.vmem, 61, rfl⟩
abbrev cc5_stg2_0 : Ref sig .tc := ⟨.vmem, 62, rfl⟩
abbrev cc5_stg2_1 : Ref sig .tc := ⟨.vmem, 63, rfl⟩
abbrev cc5_stg3_0 : Ref sig .tc := ⟨.vmem, 64, rfl⟩
abbrev cc5_stg3_1 : Ref sig .tc := ⟨.vmem, 65, rfl⟩
abbrev cc5_stg4_0 : Ref sig .tc := ⟨.vmem, 66, rfl⟩
abbrev cc5_stg4_1 : Ref sig .tc := ⟨.vmem, 67, rfl⟩
abbrev cc5_stg5_0 : Ref sig .tc := ⟨.vmem, 68, rfl⟩
abbrev cc5_stg6_0 : Ref sig .tc := ⟨.vmem, 69, rfl⟩
abbrev cc5_stg7_0 : Ref sig .tc := ⟨.vmem, 70, rfl⟩
abbrev cc5_stg8_0 : Ref sig .tc := ⟨.vmem, 71, rfl⟩
abbrev cc5_stg9_0 : Ref sig .tc := ⟨.vmem, 72, rfl⟩
abbrev cc5_stg9_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem4_0 : DmaSem sig := 37
abbrev cc4_sem5_0 : DmaSem sig := 38
abbrev cc4_sem6_0 : DmaSem sig := 39
abbrev cc4_sem7_0 : DmaSem sig := 40
abbrev cc4_sem8_0 : DmaSem sig := 41
abbrev cc4_sem9_0 : DmaSem sig := 42
abbrev cc4_sem10_0 : DmaSem sig := 43
abbrev cc4_sem11_0 : DmaSem sig := 44
abbrev cc4_sem12_0 : DmaSem sig := 45
abbrev cc4_sem13_0 : DmaSem sig := 46
abbrev cc4_sem14_0 : DmaSem sig := 47
abbrev cc4_sem15_0 : DmaSem sig := 48
abbrev cc4_sem16_0 : DmaSem sig := 49
abbrev cc4_sem17_0 : DmaSem sig := 50
abbrev cc4_sem18_0 : DmaSem sig := 51
abbrev cc4_sem19_0 : DmaSem sig := 52
abbrev cc4_sem19_1 : DmaSem sig := 53
abbrev cc4_sem20_0 : DmaSem sig := 54
abbrev cc4_sem20_1 : DmaSem sig := 55
abbrev cc4_sem21_0 : DmaSem sig := 56
abbrev cc4_sem21_1 : DmaSem sig := 57
abbrev cc5_sem0_0 : DmaSem sig := 58
abbrev cc5_sem0_1 : DmaSem sig := 59
abbrev cc5_sem1_0 : DmaSem sig := 60
abbrev cc5_sem1_1 : DmaSem sig := 61
abbrev cc5_sem2_0 : DmaSem sig := 62
abbrev cc5_sem2_1 : DmaSem sig := 63
abbrev cc5_sem3_0 : DmaSem sig := 64
abbrev cc5_sem3_1 : DmaSem sig := 65
abbrev cc5_sem4_0 : DmaSem sig := 66
abbrev cc5_sem4_1 : DmaSem sig := 67
abbrev cc5_sem5_0 : DmaSem sig := 68
abbrev cc5_sem6_0 : DmaSem sig := 69
abbrev cc5_sem7_0 : DmaSem sig := 70
abbrev cc5_sem8_0 : DmaSem sig := 71
abbrev cc5_sem9_0 : DmaSem sig := 72
abbrev cc5_sem9_1 : DmaSem sig := 73

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S80x80 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x80 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x80 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x80 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x80 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x80 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x80 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x80 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x80 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S80x80 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x80 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x80 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x80 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_17 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_18 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_19 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_20 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_21 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x80 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S80x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S16x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S16x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S16x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S64x64 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S1x64 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S1x64 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S64x64 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 1 → Memref sig .tc .vmem S1x64 .f32 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))
abbrev reads4_16 : Fin grid4.rank → Bool := ![false]

abbrev stage4_17 : Fin 1 → Memref sig .tc .vmem S1x64 .f32 := fun | 0 => Memref.whole cc4_stg17_0 | ⟨_ + 1, h⟩ => absurd h (Nat.not_lt.2 (Nat.le_add_left _ _))
abbrev sem4_17 : Fin 1 → DmaSem sig := fun | 0 => cc4_sem17_0 | ⟨_ + 1, h⟩ => absurd h (Nat.not_lt.2 (Nat.le_add_left _ _))
abbrev reads4_17 : Fin grid4.rank → Bool := ![false]

abbrev stage4_18 : Fin 1 → Memref sig .tc .vmem S1x64 .f32 := fun | 0 => Memref.whole cc4_stg18_0 | ⟨_ + 1, h⟩ => absurd h (Nat.not_lt.2 (Nat.le_add_left _ _))
abbrev sem4_18 : Fin 1 → DmaSem sig := fun | 0 => cc4_sem18_0 | ⟨_ + 1, h⟩ => absurd h (Nat.not_lt.2 (Nat.le_add_left _ _))
abbrev reads4_18 : Fin grid4.rank → Bool := ![false]

abbrev stage4_19 : Fin 2 → Memref sig .tc .vmem S5000x64 .f32 := fun | 0 => Memref.whole cc4_stg19_0 | 1 => Memref.whole cc4_stg19_1 | ⟨_ + 2, h⟩ => absurd h (Nat.not_lt.2 (Nat.le_add_left _ _))
abbrev sem4_19 : Fin 2 → DmaSem sig := fun | 0 => cc4_sem19_0 | 1 => cc4_sem19_1 | ⟨_ + 2, h⟩ => absurd h (Nat.not_lt.2 (Nat.le_add_left _ _))
abbrev reads4_19 : Fin grid4.rank → Bool := ![true]

abbrev stage4_20 : Fin 2 → Memref sig .tc .vmem S5000x64 .f32 := fun | 0 => Memref.whole cc4_stg20_0 | 1 => Memref.whole cc4_stg20_1 | ⟨_ + 2, h⟩ => absurd h (Nat.not_lt.2 (Nat.le_add_left _ _))
abbrev sem4_20 : Fin 2 → DmaSem sig := fun | 0 => cc4_sem20_0 | 1 => cc4_sem20_1 | ⟨_ + 2, h⟩ => absurd h (Nat.not_lt.2 (Nat.le_add_left _ _))
abbrev reads4_20 : Fin grid4.rank → Bool := ![true]

abbrev stage4_21 : Fin 2 → Memref sig .tc .vmem S5000x64 .f32 := fun | 0 => Memref.whole cc4_stg21_0 | 1 => Memref.whole cc4_stg21_1 | ⟨_ + 2, h⟩ => absurd h (Nat.not_lt.2 (Nat.le_add_left _ _))
abbrev sem4_21 : Fin 2 → DmaSem sig := fun | 0 => cc4_sem21_0 | 1 => cc4_sem21_1 | ⟨_ + 2, h⟩ => absurd h (Nat.not_lt.2 (Nat.le_add_left _ _))
abbrev reads4_21 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S4000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S4000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S4000x64 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x64_S400000x16_S400000x80_d1 : Shape.Concatenates [S400000x64, S400000x16] S400000x80 1
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  inb_S10000x80_S10000x80_0_0 : ∀ a, (![0, 0] : Fin 2 → Nat) a + S10000x80.size a ≤ S10000x80.size a
  h_S10000x80 : 0 < S10000x80.numel
  shapeCasts_S10000x80_S10000x80 : S10000x80.ShapeCasts S10000x80
  bcast_S_S400000x80 : S_.BroadcastsInDim S400000x80 (![] : Fin 0 → Fin S400000x80.rank)
  shapeCasts_S80_S1x80 : S80.ShapeCasts S1x80
  bitsLt_bf16_f32 : FTy.bits .bf16 < FTy.bits .f32
  inb_S80x80_S80x80_0_0 : ∀ a, (![0, 0] : Fin 2 → Nat) a + S80x80.size a ≤ S80x80.size a
  h_S80x80 : 0 < S80x80.numel
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S10000x80 : S1x80.Broadcasts S10000x80
  shapeCasts_S64_S1x64 : S64.ShapeCasts S1x64
  inb_S5000x80_S5000x80_0_0 : ∀ a, (![0, 0] : Fin 2 → Nat) a + S5000x80.size a ≤ S5000x80.size a
  h_S5000x80 : 0 < S5000x80.numel
  shapeCasts_S5000x80_S5000x80 : S5000x80.ShapeCasts S5000x80
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S80x64_S80x64_0_0 : ∀ a, (![0, 0] : Fin 2 → Nat) a + S80x64.size a ≤ S80x64.size a
  h_S80x64 : 0 < S80x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S16x64_S16x64_0_0 : ∀ a, (![0, 0] : Fin 2 → Nat) a + S16x64.size a ≤ S16x64.size a
  h_S16x64 : 0 < S16x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  bcast_S_S20000x64 : S_.BroadcastsInDim S20000x64 (![] : Fin 0 → Fin S20000x64.rank)
  bcast_S_S20000 : S_.BroadcastsInDim S20000 (![] : Fin 0 → Fin S20000.rank)
  bcast_S20000_S20000x1_0 : S20000.BroadcastsInDim S20000x1 (![0] : Fin 1 → Fin S20000x1.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  broadcasts_S1x64_S4000x64 : S1x64.Broadcasts S4000x64
  gather_S20x16_S400000x1_S400000x16_1_0_n_n_0_1_116_wf : GatherDims.WF S20x16 S400000x1 S400000x16 [1] [0] [] [0] [] 1 ![1, 16]
  gather_S20000x64_S400000x1_S400000x64_1_0_n_n_0_1_164_wf : GatherDims.WF S20000x64 S400000x1 S400000x64 [1] [0] [] [0] [] 1 ![1, 64]
  gather_S200000x80_S2000000x1_S2000000x80_1_0_n_n_0_1_180_wf : GatherDims.WF S200000x80 S2000000x1 S2000000x80 [1] [0] [] [0] [] 1 ![1, 80]
  gather_S400000x80_S2000000x1_S2000000x80_1_0_n_n_0_1_180_wf : GatherDims.WF S400000x80 S2000000x1 S2000000x80 [1] [0] [] [0] [] 1 ![1, 80]
  scatter_S400000x80_S2000000x1_S2000000x80_1_0_0_1_wf : ScatterDims.WF S400000x80 S2000000x1 S2000000x80 [1] [0] [0] 1
  dot_S10000x80_S80x80_S10000x80_1_0_0_1_n_n_wf : DotDims.WF S10000x80 S80x80 S10000x80 [1] [0] [0] [1] [] []
  dot_S5000x80_S80x64_S5000x64_1_0_0_1_n_n_wf : DotDims.WF S5000x80 S80x64 S5000x64 [1] [0] [0] [1] [] []
  dot_S5000x16_S16x64_S5000x64_1_0_0_1_n_n_wf : DotDims.WF S5000x16 S16x64 S5000x64 [1] [0] [0] [1] [] []
  dot_S5000x64_S64x64_S5000x64_1_0_0_1_n_n_wf : DotDims.WF S5000x64 S64x64 S5000x64 [1] [0] [0] [1] [] []
  scatter_S20000x64_S400000x1_S400000x64_1_0_0_1_wf : ScatterDims.WF S20000x64 S400000x1 S400000x64 [1] [0] [0] 1
  scatter_S20000_S400000x1_S400000_n_0_0_1_wf : ScatterDims.WF S20000 S400000x1 S400000 [] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x80.size a ≤ S2000000x80.size a
  hwx0_0 : ∀ i : grid0.Coords, EltTy.bits .f32 = 32 ∨ (Rect.block (s := S2000000x80) S10000x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x80.size a ≤ S2000000x80.size a
  hwx0_1 : ∀ i : grid0.Coords, EltTy.bits .f32 = 32 ∨ (Rect.block (s := S2000000x80) S10000x80.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x80.size a ≤ S2000000x80.size a
  hwx0_2 : ∀ i : grid0.Coords, EltTy.bits .f32 = 32 ∨ (Rect.block (s := S2000000x80) S10000x80.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x80.size a ≤ S400000x80.size a
  hwx1_0 : ∀ i : grid1.Coords, EltTy.bits .f32 = 32 ∨ (Rect.block (s := S400000x80) S10000x80.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x80.size a ≤ S400000x80.size a
  hwx1_1 : ∀ i : grid1.Coords, EltTy.bits .f32 = 32 ∨ (Rect.block (s := S400000x80) S10000x80.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S80x80.size a ≤ S80x80.size a
  hwx1_2 : ∀ i : grid1.Coords, EltTy.bits .f32 = 32 ∨ (Rect.block (s := S80x80) S80x80.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x80.size a ≤ S1x80.size a
  hwx1_3 : ∀ i : grid1.Coords, EltTy.bits .f32 = 32 ∨ (Rect.block (s := S1x80) S1x80.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x80.size a ≤ S1x80.size a
  hwx1_4 : ∀ i : grid1.Coords, EltTy.bits .f32 = 32 ∨ (Rect.block (s := S1x80) S1x80.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x80.size a ≤ S400000x80.size a
  hwx1_5 : ∀ i : grid1.Coords, EltTy.bits .f32 = 32 ∨ (Rect.block (s := S400000x80) S10000x80.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x80.size a ≤ S2000000x80.size a
  hwx2_0 : ∀ i : grid2.Coords, EltTy.bits .f32 = 32 ∨ (Rect.block (s := S2000000x80) S10000x80.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x80.size a ≤ S2000000x80.size a
  hwx2_1 : ∀ i : grid2.Coords, EltTy.bits .f32 = 32 ∨ (Rect.block (s := S2000000x80) S10000x80.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x80.size a ≤ S2000000x80.size a
  hwx2_2 : ∀ i : grid2.Coords, EltTy.bits .f32 = 32 ∨ (Rect.block (s := S2000000x80) S10000x80.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x80.size a ≤ S400000x80.size a
  hwx3_0 : ∀ i : grid3.Coords, EltTy.bits .f32 = 32 ∨ (Rect.block (s := S400000x80) S10000x80.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x80.size a ≤ S400000x80.size a
  hwx3_1 : ∀ i : grid3.Coords, EltTy.bits .f32 = 32 ∨ (Rect.block (s := S400000x80) S10000x80.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S80x80.size a ≤ S80x80.size a
  hwx3_2 : ∀ i : grid3.Coords, EltTy.bits .f32 = 32 ∨ (Rect.block (s := S80x80) S80x80.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x80.size a ≤ S1x80.size a
  hwx3_3 : ∀ i : grid3.Coords, EltTy.bits .f32 = 32 ∨ (Rect.block (s := S1x80) S1x80.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x80.size a ≤ S1x80.size a
  hwx3_4 : ∀ i : grid3.Coords, EltTy.bits .f32 = 32 ∨ (Rect.block (s := S1x80) S1x80.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x80.size a ≤ S400000x80.size a
  hwx3_5 : ∀ i : grid3.Coords, EltTy.bits .f32 = 32 ∨ (Rect.block (s := S400000x80) S10000x80.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x80.size a ≤ S400000x80.size a
  hwx4_0 : ∀ i : grid4.Coords, EltTy.bits .f32 = 32 ∨ (Rect.block (s := S400000x80) S5000x80.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x16.size a ≤ S400000x16.size a
  hwx4_1 : ∀ i : grid4.Coords, EltTy.bits .f32 = 32 ∨ (Rect.block (s := S400000x16) S5000x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S400000x1.size a
  hwx4_2 : ∀ i : grid4.Coords, EltTy.bits .f32 = 32 ∨ (Rect.block (s := S400000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S80x64.size a ≤ S80x64.size a
  hwx4_3 : ∀ i : grid4.Coords, EltTy.bits .f32 = 32 ∨ (Rect.block (s := S80x64) S80x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S16x64.size a ≤ S16x64.size a
  hwx4_5 : ∀ i : grid4.Coords, EltTy.bits .f32 = 32 ∨ (Rect.block (s := S16x64) S16x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S16x64.size a ≤ S16x64.size a
  hwx4_7 : ∀ i : grid4.Coords, EltTy.bits .f32 = 32 ∨ (Rect.block (s := S16x64) S16x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S16x64.size a ≤ S16x64.size a
  hwx4_9 : ∀ i : grid4.Coords, EltTy.bits .f32 = 32 ∨ (Rect.block (s := S16x64) S16x64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x64.size a ≤ S1x64.size a
  hwx4_10 : ∀ i : grid4.Coords, EltTy.bits .f32 = 32 ∨ (Rect.block (s := S1x64) S1x64.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S64x64.size a ≤ S64x64.size a
  hwx4_11 : ∀ i : grid4.Coords, EltTy.bits .f32 = 32 ∨ (Rect.block (s := S64x64) S64x64.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x64.size a ≤ S1x64.size a
  hwx4_12 : ∀ i : grid4.Coords, EltTy.bits .f32 = 32 ∨ (Rect.block (s := S1x64) S1x64.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S1x64.size a ≤ S1x64.size a
  hwx4_13 : ∀ i : grid4.Coords, EltTy.bits .f32 = 32 ∨ (Rect.block (s := S1x64) S1x64.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S1x64.size a ≤ S1x64.size a
  hwx4_14 : ∀ i : grid4.Coords, EltTy.bits .f32 = 32 ∨ (Rect.block (s := S1x64) S1x64.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S64x64.size a ≤ S64x64.size a
  hwx4_15 : ∀ i : grid4.Coords, EltTy.bits .f32 = 32 ∨ (Rect.block (s := S64x64) S64x64.size (cc4_transform_15 i) (hinb4_15 i)).WholeWords (EltTy.packing .f32)
  hstage4_16 : ∀ j, (stage4_16 j).IsWhole
  nbuf4_16 : grid4.bufCount reads4_16 true = 1
  hreads4_16 : ∀ i i' : grid4.Coords, (∀ a, reads4_16 a = true → i a = i' a) → cc4_transform_16 i = cc4_transform_16 i'
  hinb4_16 : ∀ (i : grid4.Coords) a, (cc4_transform_16 i a + 1) * S1x64.size a ≤ S1x64.size a
  hwx4_16 : ∀ i : grid4.Coords, EltTy.bits .f32 = 32 ∨ (Rect.block (s := S1x64) S1x64.size (cc4_transform_16 i) (hinb4_16 i)).WholeWords (EltTy.packing .f32)
  hstage4_17 : ∀ j, (stage4_17 j).IsWhole
  nbuf4_17 : grid4.bufCount reads4_17 true = 1
  hreads4_17 : ∀ i i' : grid4.Coords, (∀ a, reads4_17 a = true → i a = i' a) → cc4_transform_17 i = cc4_transform_17 i'
  hinb4_17 : ∀ (i : grid4.Coords) a, (cc4_transform_17 i a + 1) * S1x64.size a ≤ S1x64.size a
  hwx4_17 : ∀ i : grid4.Coords, EltTy.bits .f32 = 32 ∨ (Rect.block (s := S1x64) S1x64.size (cc4_transform_17 i) (hinb4_17 i)).WholeWords (EltTy.packing .f32)
  hstage4_18 : ∀ j, (stage4_18 j).IsWhole
  nbuf4_18 : grid4.bufCount reads4_18 true = 1
  hreads4_18 : ∀ i i' : grid4.Coords, (∀ a, reads4_18 a = true → i a = i' a) → cc4_transform_18 i = cc4_transform_18 i'
  hinb4_18 : ∀ (i : grid4.Coords) a, (cc4_transform_18 i a + 1) * S1x64.size a ≤ S1x64.size a
  hwx4_18 : ∀ i : grid4.Coords, EltTy.bits .f32 = 32 ∨ (Rect.block (s := S1x64) S1x64.size (cc4_transform_18 i) (hinb4_18 i)).WholeWords (EltTy.packing .f32)
  hstage4_19 : ∀ j, (stage4_19 j).IsWhole
  nbuf4_19 : grid4.bufCount reads4_19 false = 2
  hreads4_19 : ∀ i i' : grid4.Coords, (∀ a, reads4_19 a = true → i a = i' a) → cc4_transform_19 i = cc4_transform_19 i'
  hinb4_19 : ∀ (i : grid4.Coords) a, (cc4_transform_19 i a + 1) * S5000x64.size a ≤ S400000x64.size a
  hwx4_19 : ∀ i : grid4.Coords, EltTy.bits .f32 = 32 ∨ (Rect.block (s := S400000x64) S5000x64.size (cc4_transform_19 i) (hinb4_19 i)).WholeWords (EltTy.packing .f32)
  hstage4_20 : ∀ j, (stage4_20 j).IsWhole
  nbuf4_20 : grid4.bufCount reads4_20 false = 2
  hreads4_20 : ∀ i i' : grid4.Coords, (∀ a, reads4_20 a = true → i a = i' a) → cc4_transform_20 i = cc4_transform_20 i'
  hinb4_20 : ∀ (i : grid4.Coords) a, (cc4_transform_20 i a + 1) * S5000x64.size a ≤ S400000x64.size a
  hwx4_20 : ∀ i : grid4.Coords, EltTy.bits .f32 = 32 ∨ (Rect.block (s := S400000x64) S5000x64.size (cc4_transform_20 i) (hinb4_20 i)).WholeWords (EltTy.packing .f32)
  hstage4_21 : ∀ j, (stage4_21 j).IsWhole
  nbuf4_21 : grid4.bufCount reads4_21 false = 2
  hreads4_21 : ∀ i i' : grid4.Coords, (∀ a, reads4_21 a = true → i a = i' a) → cc4_transform_21 i = cc4_transform_21 i'
  hinb4_21 : ∀ (i : grid4.Coords) a, (cc4_transform_21 i a + 1) * S5000x64.size a ≤ S400000x64.size a
  hwx4_21 : ∀ i : grid4.Coords, EltTy.bits .f32 = 32 ∨ (Rect.block (s := S400000x64) S5000x64.size (cc4_transform_21 i) (hinb4_21 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S20000x64.size a
  hwx5_0 : ∀ i : grid5.Coords, EltTy.bits .f32 = 32 ∨ (Rect.block (s := S20000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x64.size a ≤ S20000x64.size a
  hwx5_1 : ∀ i : grid5.Coords, EltTy.bits .f32 = 32 ∨ (Rect.block (s := S20000x64) S4000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S20000x1.size a
  hwx5_2 : ∀ i : grid5.Coords, EltTy.bits .f32 = 32 ∨ (Rect.block (s := S20000x1) S4000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x64.size a ≤ S20000x64.size a
  hwx5_3 : ∀ i : grid5.Coords, EltTy.bits .f32 = 32 ∨ (Rect.block (s := S20000x64) S4000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x1.size a ≤ S20000x1.size a
  hwx5_4 : ∀ i : grid5.Coords, EltTy.bits .f32 = 32 ∨ (Rect.block (s := S20000x1) S4000x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x64.size a ≤ S1x64.size a
  hwx5_8 : ∀ i : grid5.Coords, EltTy.bits .f32 = 32 ∨ (Rect.block (s := S1x64) S1x64.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S4000x64.size a ≤ S20000x64.size a
  hwx5_9 : ∀ i : grid5.Coords, EltTy.bits .f32 = 32 ∨ (Rect.block (s := S20000x64) S4000x64.size (cc5_transform_9 i) (hinb5_9 i)).WholeWords (EltTy.packing .f32)

variable [Facts₀]

def gather_S20x16_S400000x1_S400000x16_1_0_n_n_0_1_116 : GatherDims S20x16 S400000x1 S400000x16 where
  offsetDims := [1]
  collapsedSliceDims := [0]
  operandBatchingDims := []
  startIndicesBatchingDims := []
  startIndexMap := [0]
  indexVectorDim := 1
  sliceSizes := ![1, 16]
  wf := gather_S20x16_S400000x1_S400000x16_1_0_n_n_0_1_116_wf
def gather_S20000x64_S400000x1_S400000x64_1_0_n_n_0_1_164 : GatherDims S20000x64 S400000x1 S400000x64 where
  offsetDims := [1]
  collapsedSliceDims := [0]
  operandBatchingDims := []
  startIndicesBatchingDims := []
  startIndexMap := [0]
  indexVectorDim := 1
  sliceSizes := ![1, 64]
  wf := gather_S20000x64_S400000x1_S400000x64_1_0_n_n_0_1_164_wf
def gather_S200000x80_S2000000x1_S2000000x80_1_0_n_n_0_1_180 : GatherDims S200000x80 S2000000x1 S2000000x80 where
  offsetDims := [1]
  collapsedSliceDims := [0]
  operandBatchingDims := []
  startIndicesBatchingDims := []
  startIndexMap := [0]
  indexVectorDim := 1
  sliceSizes := ![1, 80]
  wf := gather_S200000x80_S2000000x1_S2000000x80_1_0_n_n_0_1_180_wf
def gather_S400000x80_S2000000x1_S2000000x80_1_0_n_n_0_1_180 : GatherDims S400000x80 S2000000x1 S2000000x80 where
  offsetDims := [1]
  collapsedSliceDims := [0]
  operandBatchingDims := []
  startIndicesBatchingDims := []
  startIndexMap := [0]
  indexVectorDim := 1
  sliceSizes := ![1, 80]
  wf := gather_S400000x80_S2000000x1_S2000000x80_1_0_n_n_0_1_180_wf
def scatter_S400000x80_S2000000x1_S2000000x80_1_0_0_1 : ScatterDims S400000x80 S2000000x1 S2000000x80 where
  updateWindowDims := [1]
  insertedWindowDims := [0]
  scatterDimsToOperandDims := [0]
  indexVectorDim := 1
  wf := scatter_S400000x80_S2000000x1_S2000000x80_1_0_0_1_wf
def dot_S10000x80_S80x80_S10000x80_1_0_0_1_n_n : DotDims S10000x80 S80x80 S10000x80 where
  lhsContracting := [1]
  rhsContracting := [0]
  lhsNonContracting := [0]
  rhsNonContracting := [1]
  lhsBatch := []
  rhsBatch := []
  wf := dot_S10000x80_S80x80_S10000x80_1_0_0_1_n_n_wf
def dot_S5000x80_S80x64_S5000x64_1_0_0_1_n_n : DotDims S5000x80 S80x64 S5000x64 where
  lhsContracting := [1]
  rhsContracting := [0]
  lhsNonContracting := [0]
  rhsNonContracting := [1]
  lhsBatch := []
  rhsBatch := []
  wf := dot_S5000x80_S80x64_S5000x64_1_0_0_1_n_n_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S20000x64_S400000x1_S400000x64_1_0_0_1 : ScatterDims S20000x64 S400000x1 S400000x64 where
  updateWindowDims := [1]
  insertedWindowDims := [0]
  scatterDimsToOperandDims := [0]
  indexVectorDim := 1
  wf := scatter_S20000x64_S400000x1_S400000x64_1_0_0_1_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v34) S10000x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S10000x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x80.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S10000x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S80x80.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x80.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x80.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S10000x80.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S10000x80.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S10000x80.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S10000x80.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v41) S10000x80.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S10000x80.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S80x80.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x80.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x80.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S10000x80.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v55) S5000x80.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S5000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v58) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S80x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v59) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg19) S16x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v60) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg21) S16x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v61) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg23) S16x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v62) S1x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_arg11) S64x64.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v63) S1x64.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_v64) S1x64.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v65) S1x64.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_arg15) S64x64.size cc4_transform_15 reads4_15 false true 1 stage4_15 sem4_15
    hrank4 hreads4_15 hinb4_15 nbuf4_15 (Memref.isWhole_whole _) hwx4_15 hstage4_15

abbrev win4_16 : Pipeline.Window sig grid4 :=
  Pipeline.Window.ofSpec (Memref.whole main_v66) S1x64.size cc4_transform_16 reads4_16 false true 1 stage4_16 sem4_16
    hrank4 hreads4_16 hinb4_16 nbuf4_16 (Memref.isWhole_whole _) hwx4_16 hstage4_16

abbrev win4_17 : Pipeline.Window sig grid4 :=
  Pipeline.Window.ofSpec (Memref.whole main_v67) S1x64.size cc4_transform_17 reads4_17 false true 1 stage4_17 sem4_17
    hrank4 hreads4_17 hinb4_17 nbuf4_17 (Memref.isWhole_whole _) hwx4_17 hstage4_17

abbrev win4_18 : Pipeline.Window sig grid4 :=
  Pipeline.Window.ofSpec (Memref.whole main_v68) S1x64.size cc4_transform_18 reads4_18 false true 1 stage4_18 sem4_18
    hrank4 hreads4_18 hinb4_18 nbuf4_18 (Memref.isWhole_whole _) hwx4_18 hstage4_18

abbrev win4_19 : Pipeline.Window sig grid4 :=
  Pipeline.Window.ofSpec (Memref.whole main_v69_0) S5000x64.size cc4_transform_19 reads4_19 true false 2 stage4_19 sem4_19
    hrank4 hreads4_19 hinb4_19 nbuf4_19 (Memref.isWhole_whole _) hwx4_19 hstage4_19

abbrev win4_20 : Pipeline.Window sig grid4 :=
  Pipeline.Window.ofSpec (Memref.whole main_v69_1) S5000x64.size cc4_transform_20 reads4_20 true false 2 stage4_20 sem4_20
    hrank4 hreads4_20 hinb4_20 nbuf4_20 (Memref.isWhole_whole _) hwx4_20 hstage4_20

abbrev win4_21 : Pipeline.Window sig grid4 :=
  Pipeline.Window.ofSpec (Memref.whole main_v69_2) S5000x64.size cc4_transform_21 reads4_21 true false 2 stage4_21 sem4_21
    hrank4 hreads4_21 hinb4_21 nbuf4_21 (Memref.isWhole_whole _) hwx4_21 hstage4_21

abbrev win4 : Fin 22 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | 17 => win4_17 | 18 => win4_18 | 19 => win4_19 | 20 => win4_20 | 21 => win4_21 | ⟨_ + 22, h⟩ => absurd h (Nat.not_lt.2 (Nat.le_add_left _ _))
abbrev spec4 : Fin 22 → Pipeline.WinSpec sig grid4.rank := fun w => (win4 w).toWinSpec

abbrev win5_0 : Pipeline.Window sig grid5 :=
  Pipeline.Window.ofSpec (Memref.whole main_v72) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S4000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v88) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v87) S4000x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v89) S4000x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_arg25) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v90) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v91) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v92) S1x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v93) S4000x64.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S20000x64 : Shape := ⟨2, ![20000, 64]⟩
abbrev S200000x80 : Shape := ⟨2, ![200000, 80]⟩
abbrev S20x16 : Shape := ⟨2, ![20, 16]⟩
abbrev S80x80 : Shape := ⟨2, ![80, 80]⟩
abbrev S80 : Shape := ⟨1, ![80]⟩
abbrev S80x64 : Shape := ⟨2, ![80, 64]⟩
abbrev S64 : Shape := ⟨1, ![64]⟩
abbrev S64x64 : Shape := ⟨2, ![64, 64]⟩
abbrev S16x64 : Shape := ⟨2, ![16, 64]⟩
abbrev S400000 : Shape := ⟨1, ![400000]⟩
abbrev S2000000 : Shape := ⟨1, ![2000000]⟩
abbrev S2x2000000 : Shape := ⟨2, ![2, 2000000]⟩
abbrev S_ : Shape := ⟨0, ![]⟩
abbrev S400000x1 : Shape := ⟨2, ![400000, 1]⟩
abbrev S400000x16 : Shape := ⟨2, ![400000, 16]⟩
abbrev S400000x64 : Shape := ⟨2, ![400000, 64]⟩
abbrev S400000x80 : Shape := ⟨2, ![400000, 80]⟩
abbrev S2000000x1 : Shape := ⟨2, ![2000000, 1]⟩
abbrev S2000000x80 : Shape := ⟨2, ![2000000, 80]⟩
abbrev S1x2000000 : Shape := ⟨2, ![1, 2000000]⟩
abbrev S1x80 : Shape := ⟨2, ![1, 80]⟩
abbrev S1x64 : Shape := ⟨2, ![1, 64]⟩
abbrev S20000 : Shape := ⟨1, ![20000]⟩
abbrev S20000x1 : Shape := ⟨2, ![20000, 1]⟩

abbrev nBuf : Space → Nat
  | .hbm => 249
  | .vmem => 0
  | .smem => 0
  | _ => 0

abbrev hbmTy0_0 (i : Nat) : BufTy := match i % 128 with
  | 0 => ⟨S20000x64, .f32⟩
  | 1 => ⟨S200000x80, .f32⟩
  | 2 => ⟨S20x16, .f32⟩
  | 3 => ⟨S80x80, .f32⟩
  | 4 => ⟨S80, .f32⟩
  | 5 => ⟨S80, .f32⟩
  | 6 => ⟨S80x80, .f32⟩
  | 7 => ⟨S80, .f32⟩
  | 8 => ⟨S80, .f32⟩
  | 9 => ⟨S80x64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S16x64, .f32⟩
  | 20 => ⟨S64, .f32⟩
  | 21 => ⟨S16x64, .f32⟩
  | 22 => ⟨S64, .f32⟩
  | 23 => ⟨S16x64, .f32⟩
  | 24 => ⟨S64, .f32⟩
  | 25 => ⟨S64x64, .f32⟩
  | 26 => ⟨S64, .f32⟩
  | 27 => ⟨S64, .f32⟩
  | 28 => ⟨S64, .f32⟩
  | 29 => ⟨S400000, .i32⟩
  | 30 => ⟨S2000000, .i32⟩
  | 31 => ⟨S2x2000000, .i32⟩
  | 32 => ⟨S400000, .i32⟩
  | 33 => ⟨S400000, .i32⟩
  | 34 => ⟨S_, .i32⟩
  | 35 => ⟨S400000, .i32⟩
  | 36 => ⟨S400000, .i32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S400000x16, .f32⟩
  | 46 => ⟨S_, .i32⟩
  | 47 => ⟨S400000, .i32⟩
  | 48 => ⟨S400000, .i1⟩
  | 49 => ⟨S_, .i32⟩
  | 50 => ⟨S400000, .i32⟩
  | 51 => ⟨S400000, .i32⟩
  | 52 => ⟨S400000, .i32⟩
  | 53 => ⟨S400000x1, .i32⟩
  | 54 => ⟨S400000x64, .f32⟩
  | 55 => ⟨S400000x80, .f32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S2000000x80, .f32⟩
  | 65 => ⟨S1x2000000, .i32⟩
  | 66 => ⟨S2000000, .i32⟩
  | 67 => ⟨S1x2000000, .i32⟩
  | 68 => ⟨S2000000, .i32⟩
  | 69 => ⟨S_, .i32⟩
  | 70 => ⟨S2000000, .i32⟩
  | 71 => ⟨S2000000, .i1⟩
  | 72 => ⟨S_, .i32⟩
  | 73 => ⟨S2000000, .i32⟩
  | 74 => ⟨S2000000, .i32⟩
  | 75 => ⟨S2000000, .i32⟩
  | 76 => ⟨S2000000x1, .i32⟩
  | 77 => ⟨S2000000x80, .f32⟩
  | 78 => ⟨S2000000x80, .f32⟩
  | 79 => ⟨S_, .f32⟩
  | 80 => ⟨S2000000x80, .f32⟩
  | 81 => ⟨S2000000x80, .f32⟩
  | 82 => ⟨S_, .f32⟩
  | 83 => ⟨S400000x80, .f32⟩
  | 84 => ⟨S2000000x1, .i32⟩
  | 85 => ⟨S400000x80, .f32⟩
  | 86 => ⟨S400000x80, .f32⟩
  | 87 => ⟨S400000x80, .f32⟩
  | 88 => ⟨S1x80, .f32⟩
  | 89 => ⟨S400000x80, .f32⟩
  | 90 => ⟨S400000x80, .f32⟩
  | 91 => ⟨S1x80, .f32⟩
  | 92 => ⟨S400000x80, .f32⟩
  | 93 => ⟨S400000x80, .f32⟩
  | 94 => ⟨S_, .f32⟩
  | 95 => ⟨S400000x80, .f32⟩
  | 96 => ⟨S400000x80, .f32⟩
  | 97 => ⟨S400000x80, .f32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S2000000x80, .f32⟩
  | 107 => ⟨S2000000x80, .f32⟩
  | 108 => ⟨S_, .f32⟩
  | 109 => ⟨S2000000x80, .f32⟩
  | 110 => ⟨S2000000x80, .f32⟩
  | 111 => ⟨S_, .f32⟩
  | 112 => ⟨S400000x80, .f32⟩
  | 113 => ⟨S2000000x1, .i32⟩
  | 114 => ⟨S400000x80, .f32⟩
  | 115 => ⟨S400000x80, .f32⟩
  | 116 => ⟨S400000x80, .f32⟩
  | 117 => ⟨S1x80, .f32⟩
  | 118 => ⟨S400000x80, .f32⟩
  | 119 => ⟨S400000x80, .f32⟩
  | 120 => ⟨S1x80, .f32⟩
  | 121 => ⟨S400000x80, .f32⟩
  | 122 => ⟨S400000x80, .f32⟩
  | 123 => ⟨S_, .f32⟩
  | 124 => ⟨S400000x80, .f32⟩
  | 125 => ⟨S400000x80, .f32⟩
  | 126 => ⟨S400000x80, .f32⟩
  | 127 => ⟨S400000x64, .f32⟩
  | _ => ⟨S20000x64, .f32⟩

abbrev hbmTy0_1 (i : Nat) : BufTy := match i % 128 with
  | 0 => ⟨S1x64, .f32⟩
  | 1 => ⟨S400000x64, .f32⟩
  | 2 => ⟨S400000x64, .f32⟩
  | 3 => ⟨S400000x64, .f32⟩
  | 4 => ⟨S1x64, .f32⟩
  | 5 => ⟨S400000x64, .f32⟩
  | 6 => ⟨S400000x64, .f32⟩
  | 7 => ⟨S400000x64, .f32⟩
  | 8 => ⟨S400000x64, .f32⟩
  | 9 => ⟨S_, .f32⟩
  | 10 => ⟨S400000x64, .f32⟩
  | 11 => ⟨S400000x64, .f32⟩
  | 12 => ⟨S_, .f32⟩
  | 13 => ⟨S400000x64, .f32⟩
  | 14 => ⟨S400000x64, .f32⟩
  | 15 => ⟨S400000x64, .f32⟩
  | 16 => ⟨S1x64, .f32⟩
  | 17 => ⟨S400000x64, .f32⟩
  | 18 => ⟨S400000x64, .f32⟩
  | 19 => ⟨S400000x64, .f32⟩
  | 20 => ⟨S400000x64, .f32⟩
  | 21 => ⟨S_, .f32⟩
  | 22 => ⟨S400000x64, .f32⟩
  | 23 => ⟨S400000x64, .f32⟩
  | 24 => ⟨S_, .f32⟩
  | 25 => ⟨S400000x64, .f32⟩
  | 26 => ⟨S400000x64, .f32⟩
  | 27 => ⟨S400000x64, .f32⟩
  | 28 => ⟨S1x64, .f32⟩
  | 29 => ⟨S400000x64, .f32⟩
  | 30 => ⟨S400000x64, .f32⟩
  | 31 => ⟨S400000x64, .f32⟩
  | 32 => ⟨S400000x64, .f32⟩
  | 33 => ⟨S_, .f32⟩
  | 34 => ⟨S400000x64, .f32⟩
  | 35 => ⟨S400000x64, .f32⟩
  | 36 => ⟨S_, .f32⟩
  | 37 => ⟨S400000x64, .f32⟩
  | 38 => ⟨S400000x64, .f32⟩
  | 39 => ⟨S400000, .i1⟩
  | 40 => ⟨S400000, .f32⟩
  | 41 => ⟨S400000x1, .f32⟩
  | 42 => ⟨S400000x64, .f32⟩
  | 43 => ⟨S400000x64, .f32⟩
  | 44 => ⟨S400000x64, .f32⟩
  | 45 => ⟨S_, .f32⟩
  | 46 => ⟨S20000x64, .f32⟩
  | 47 => ⟨S400000x1, .i32⟩
  | 48 => ⟨S20000x64, .f32⟩
  | 49 => ⟨S400000x64, .f32⟩
  | 50 => ⟨S1x64, .f32⟩
  | 51 => ⟨S400000x64, .f32⟩
  | 52 => ⟨S400000x64, .f32⟩
  | 53 => ⟨S1x64, .f32⟩
  | 54 => ⟨S400000x64, .f32⟩
  | 55 => ⟨S400000x64, .f32⟩
  | 56 => ⟨S1x64, .f32⟩
  | 57 => ⟨S400000x64, .f32⟩
  | 58 => ⟨S400000x64, .f32⟩
  | 59 => ⟨S_, .f32⟩
  | 60 => ⟨S400000x64, .f32⟩
  | 61 => ⟨S400000x64, .f32⟩
  | 62 => ⟨S400000x64, .f32⟩
  | 63 => ⟨S400000x64, .f32⟩
  | 64 => ⟨S1x64, .f32⟩
  | 65 => ⟨S400000x64, .f32⟩
  | 66 => ⟨S400000x64, .f32⟩
  | 67 => ⟨S1x64, .f32⟩
  | 68 => ⟨S400000x64, .f32⟩
  | 69 => ⟨S400000x64, .f32⟩
  | 70 => ⟨S1x64, .f32⟩
  | 71 => ⟨S400000x64, .f32⟩
  | 72 => ⟨S400000x64, .f32⟩
  | 73 => ⟨S_, .f32⟩
  | 74 => ⟨S400000x64, .f32⟩
  | 75 => ⟨S400000x64, .f32⟩
  | 76 => ⟨S400000x64, .f32⟩
  | 77 => ⟨S_, .f32⟩
  | 78 => ⟨S400000, .f32⟩
  | 79 => ⟨S_, .f32⟩
  | 80 => ⟨S20000, .f32⟩
  | 81 => ⟨S400000x1, .i32⟩
  | 82 => ⟨S20000, .f32⟩
  | 83 => ⟨S_, .f32⟩
  | 84 => ⟨S_, .f32⟩
  | 85 => ⟨S20000, .f32⟩
  | 86 => ⟨S20000, .f32⟩
  | 87 => ⟨S_, .f32⟩
  | 88 => ⟨S20000, .f32⟩
  | 89 => ⟨S400000x1, .i32⟩
  | 90 => ⟨S20000, .f32⟩
  | 91 => ⟨S_, .f32⟩
  | 92 => ⟨S_, .f32⟩
  | 93 => ⟨S20000, .f32⟩
  | 94 => ⟨S20000, .f32⟩
  | 95 => ⟨S_, .f32⟩
  | 96 => ⟨S20000x64, .f32⟩
  | 97 => ⟨S400000x1, .i32⟩
  | 98 => ⟨S20000x64, .f32⟩
  | 99 => ⟨S20000x1, .f32⟩
  | 100 => ⟨S20000x64, .f32⟩
  | 101 => ⟨S20000x64, .f32⟩
  | 102 => ⟨S_, .f32⟩
  | 103 => ⟨S20000x64, .f32⟩
  | 104 => ⟨S400000x1, .i32⟩
  | 105 => ⟨S20000x64, .f32⟩
  | 106 => ⟨S20000x1, .f32⟩
  | 107 => ⟨S20000x64, .f32⟩
  | 108 => ⟨S20000x64, .f32⟩
  | 109 => ⟨S20000x64, .f32⟩
  | 110 => ⟨S20000x64, .f32⟩
  | 111 => ⟨S20000x64, .f32⟩
  | 112 => ⟨S1x64, .f32⟩
  | 113 => ⟨S20000x64, .f32⟩
  | 114 => ⟨S20000x64, .f32⟩
  | 115 => ⟨S1x64, .f32⟩
  | 116 => ⟨S20000x64, .f32⟩
  | 117 => ⟨S20000x64, .f32⟩
  | 118 => ⟨S1x64, .f32⟩
  | 119 => ⟨S20000x64, .f32⟩
  | 120 => ⟨S20000x64, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_c : Ref sig .tc := ⟨.hbm, 34, rfl⟩
abbrev main_v0 : Ref sig .tc := ⟨.hbm, 35, rfl⟩
abbrev main_v1 : Ref sig .tc := ⟨.hbm, 36, rfl⟩
abbrev main_c_0 : Ref sig .tc := ⟨.hbm, 37, rfl⟩
abbrev main_v2 : Ref sig .tc := ⟨.hbm, 38, rfl⟩
abbrev main_v3 : Ref sig .tc := ⟨.hbm, 39, rfl⟩
abbrev main_c_1 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_c_2 : Ref sig .tc := ⟨.hbm, 46, rfl⟩
abbrev main_v9 : Ref sig .tc := ⟨.hbm, 47, rfl⟩
abbrev main_v10 : Ref sig .tc := ⟨.hbm, 48, rfl⟩
abbrev main_c_3 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_c_4 : Ref sig .tc := ⟨.hbm, 56, rfl⟩
abbrev main_v17 : Ref sig .tc := ⟨.hbm, 57, rfl⟩
abbrev main_v18 : Ref sig .tc := ⟨.hbm, 58, rfl⟩
abbrev main_c_5 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_c_6 : Ref sig .tc := ⟨.hbm, 69, rfl⟩
abbrev main_v28 : Ref sig .tc := ⟨.hbm, 70, rfl⟩
abbrev main_v29 : Ref sig .tc := ⟨.hbm, 71, rfl⟩
abbrev main_c_7 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_call0_cst : Ref sig .tc := ⟨.hbm, 79, rfl⟩
abbrev main_call0_v0 : Ref sig .tc := ⟨.hbm, 80, rfl⟩
abbrev main_v36 : Ref sig .tc := ⟨.hbm, 81, rfl⟩
abbrev main_cst : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_call1_cst : Ref sig .tc := ⟨.hbm, 94, rfl⟩
abbrev main_call1_v0 : Ref sig .tc := ⟨.hbm, 95, rfl⟩
abbrev main_v48 : Ref sig .tc := ⟨.hbm, 96, rfl⟩
abbrev main_v49 : Ref sig .tc := ⟨.hbm, 97, rfl⟩
abbrev main_c_8 : Ref sig .tc := ⟨.hbm, 98, rfl⟩
abbrev main_v50 : Ref sig .tc := ⟨.hbm, 99, rfl⟩
abbrev main_v51 : Ref sig .tc := ⟨.hbm, 100, rfl⟩
abbrev main_c_9 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_call2_cst : Ref sig .tc := ⟨.hbm, 108, rfl⟩
abbrev main_call2_v0 : Ref sig .tc := ⟨.hbm, 109, rfl⟩
abbrev main_v58 : Ref sig .tc := ⟨.hbm, 110, rfl⟩
abbrev main_cst_10 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_call3_cst : Ref sig .tc := ⟨.hbm, 123, rfl⟩
abbrev main_call3_v0 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_cst_11 : Ref sig .tc := ⟨.hbm, 137, rfl⟩
abbrev main_v82 : Ref sig .tc := ⟨.hbm, 138, rfl⟩
abbrev main_v83 : Ref sig .tc := ⟨.hbm, 139, rfl⟩
abbrev main_cst_12 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_13 : Ref sig .tc := ⟨.hbm, 149, rfl⟩
abbrev main_v92 : Ref sig .tc := ⟨.hbm, 150, rfl⟩
abbrev main_v93 : Ref sig .tc := ⟨.hbm, 151, rfl⟩
abbrev main_cst_14 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_cst_15 : Ref sig .tc := ⟨.hbm, 161, rfl⟩
abbrev main_v102 : Ref sig .tc := ⟨.hbm, 162, rfl⟩
abbrev main_v103 : Ref sig .tc := ⟨.hbm, 163, rfl⟩
abbrev main_cst_16 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_cst_17 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_call4_cst : Ref sig .tc := ⟨.hbm, 187, rfl⟩
abbrev main_call4_v0 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_call5_cst : Ref sig .tc := ⟨.hbm, 201, rfl⟩
abbrev main_call5_v0 : Ref sig .tc := ⟨.hbm, 202, rfl⟩
abbrev main_v137 : Ref sig .tc := ⟨.hbm, 203, rfl⟩
abbrev main_v138 : Ref sig .tc := ⟨.hbm, 204, rfl⟩
abbrev main_cst_18 : Ref sig .tc := ⟨.hbm, 205, rfl⟩
abbrev main_v139 : Ref sig .tc := ⟨.hbm, 206, rfl⟩
abbrev main_cst_19 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_cst_20 : Ref sig .tc := ⟨.hbm, 211, rfl⟩
abbrev main_call6_v0 : Ref sig .tc := ⟨.hbm, 212, rfl⟩
abbrev main_call6_v1 : Ref sig .tc := ⟨.hbm, 213, rfl⟩
abbrev main_v143 : Ref sig .tc := ⟨.hbm, 214, rfl⟩
abbrev main_cst_21 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_cst_22 : Ref sig .tc := ⟨.hbm, 219, rfl⟩
abbrev main_call7_v0 : Ref sig .tc := ⟨.hbm, 220, rfl⟩
abbrev main_call7_v1 : Ref sig .tc := ⟨.hbm, 221, rfl⟩
abbrev main_v147 : Ref sig .tc := ⟨.hbm, 222, rfl⟩
abbrev main_cst_23 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_cst_24 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x64_S400000x16_S400000x80_d1 : Shape.Concatenates [S400000x64, S400000x16] S400000x80 1
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000x80 : S_.BroadcastsInDim S2000000x80 (![] : Fin 0 → Fin S2000000x80.rank)
  bcast_S_S400000x80 : S_.BroadcastsInDim S400000x80 (![] : Fin 0 → Fin S400000x80.rank)
  bcast_S80_S1x80_1 : S80.BroadcastsInDim S1x80 (![1] : Fin 1 → Fin S1x80.rank)
  bcast_S1x80_S400000x80_0_1 : S1x80.BroadcastsInDim S400000x80 (![0, 1] : Fin 2 → Fin S400000x80.rank)
  bcast_S64_S1x64_1 : S64.BroadcastsInDim S1x64 (![1] : Fin 1 → Fin S1x64.rank)
  bcast_S1x64_S400000x64_0_1 : S1x64.BroadcastsInDim S400000x64 (![0, 1] : Fin 2 → Fin S400000x64.rank)
  bcast_S_S400000x64 : S_.BroadcastsInDim S400000x64 (![] : Fin 0 → Fin S400000x64.rank)
  bcast_S400000x1_S400000x64_0_1 : S400000x1.BroadcastsInDim S400000x64 (![0, 1] : Fin 2 → Fin S400000x64.rank)
  bcast_S_S20000x64 : S_.BroadcastsInDim S20000x64 (![] : Fin 0 → Fin S20000x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  bcast_S1x64_S20000x64_0_1 : S1x64.BroadcastsInDim S20000x64 (![0, 1] : Fin 2 → Fin S20000x64.rank)
  gather_S20x16_S400000x1_S400000x16_1_0_n_n_0_1_116_wf : GatherDims.WF S20x16 S400000x1 S400000x16 [1] [0] [] [0] [] 1 ![1, 16]
  gather_S20000x64_S400000x1_S400000x64_1_0_n_n_0_1_164_wf : GatherDims.WF S20000x64 S400000x1 S400000x64 [1] [0] [] [0] [] 1 ![1, 64]
  gather_S200000x80_S2000000x1_S2000000x80_1_0_n_n_0_1_180_wf : GatherDims.WF S200000x80 S2000000x1 S2000000x80 [1] [0] [] [0] [] 1 ![1, 80]
  gather_S400000x80_S2000000x1_S2000000x80_1_0_n_n_0_1_180_wf : GatherDims.WF S400000x80 S2000000x1 S2000000x80 [1] [0] [] [0] [] 1 ![1, 80]
  scatter_S400000x80_S2000000x1_S2000000x80_1_0_0_1_wf : ScatterDims.WF S400000x80 S2000000x1 S2000000x80 [1] [0] [0] 1
  dot_S400000x80_S80x80_S400000x80_1_0_0_1_n_n_wf : DotDims.WF S400000x80 S80x80 S400000x80 [1] [0] [0] [1] [] []
  dot_S400000x80_S80x64_S400000x64_1_0_0_1_n_n_wf : DotDims.WF S400000x80 S80x64 S400000x64 [1] [0] [0] [1] [] []
  dot_S400000x16_S16x64_S400000x64_1_0_0_1_n_n_wf : DotDims.WF S400000x16 S16x64 S400000x64 [1] [0] [0] [1] [] []
  scatter_S20000x64_S400000x1_S400000x64_1_0_0_1_wf : ScatterDims.WF S20000x64 S400000x1 S400000x64 [1] [0] [0] 1
  dot_S400000x64_S64x64_S400000x64_1_0_0_1_n_n_wf : DotDims.WF S400000x64 S64x64 S400000x64 [1] [0] [0] [1] [] []
  scatter_S20000_S400000x1_S400000_n_0_0_1_wf : ScatterDims.WF S20000 S400000x1 S400000 [] [0] [0] 1
  dot_S20000x64_S64x64_S20000x64_1_0_0_1_n_n_wf : DotDims.WF S20000x64 S64x64 S20000x64 [1] [0] [0] [1] [] []

variable [Facts₀]

def gather_S20x16_S400000x1_S400000x16_1_0_n_n_0_1_116 : GatherDims S20x16 S400000x1 S400000x16 where
  offsetDims := [1]
  collapsedSliceDims := [0]
  operandBatchingDims := []
  startIndicesBatchingDims := []
  startIndexMap := [0]
  indexVectorDim := 1
  sliceSizes := ![1, 16]
  wf := gather_S20x16_S400000x1_S400000x16_1_0_n_n_0_1_116_wf
def gather_S20000x64_S400000x1_S400000x64_1_0_n_n_0_1_164 : GatherDims S20000x64 S400000x1 S400000x64 where
  offsetDims := [1]
  collapsedSliceDims := [0]
  operandBatchingDims := []
  startIndicesBatchingDims := []
  startIndexMap := [0]
  indexVectorDim := 1
  sliceSizes := ![1, 64]
  wf := gather_S20000x64_S400000x1_S400000x64_1_0_n_n_0_1_164_wf
def gather_S200000x80_S2000000x1_S2000000x80_1_0_n_n_0_1_180 : GatherDims S200000x80 S2000000x1 S2000000x80 where
  offsetDims := [1]
  collapsedSliceDims := [0]
  operandBatchingDims := []
  startIndicesBatchingDims := []
  startIndexMap := [0]
  indexVectorDim := 1
  sliceSizes := ![1, 80]
  wf := gather_S200000x80_S2000000x1_S2000000x80_1_0_n_n_0_1_180_wf
def gather_S400000x80_S2000000x1_S2000000x80_1_0_n_n_0_1_180 : GatherDims S400000x80 S2000000x1 S2000000x80 where
  offsetDims := [1]
  collapsedSliceDims := [0]
  operandBatchingDims := []
  startIndicesBatchingDims := []
  startIndexMap := [0]
  indexVectorDim := 1
  sliceSizes := ![1, 80]
  wf := gather_S400000x80_S2000000x1_S2000000x80_1_0_n_n_0_1_180_wf
def scatter_S400000x80_S2000000x1_S2000000x80_1_0_0_1 : ScatterDims S400000x80 S2000000x1 S2000000x80 where
  updateWindowDims := [1]
  insertedWindowDims := [0]
  scatterDimsToOperandDims := [0]
  indexVectorDim := 1
  wf := scatter_S400000x80_S2000000x1_S2000000x80_1_0_0_1_wf
def dot_S400000x80_S80x80_S400000x80_1_0_0_1_n_n : DotDims S400000x80 S80x80 S400000x80 where
  lhsContracting := [1]
  rhsContracting := [0]
  lhsNonContracting := [0]
  rhsNonContracting := [1]
  lhsBatch := []
  rhsBatch := []
  wf := dot_S400000x80_S80x80_S400000x80_1_0_0_1_n_n_wf
def dot_S400000x80_S80x64_S400000x64_1_0_0_1_n_n : DotDims S400000x80 S80x64 S400000x64 where
  lhsContracting := [1]
  rhsContracting := [0]
  lhsNonContracting := [0]
  rhsNonContracting := [1]
  lhsBatch := []
  rhsBatch := []
  wf := dot_S400000x80_S80x64_S400000x64_1_0_0_1_n_n_wf
def dot_S400000x16_S16x64_S400000x64_1_0_0_1_n_n : DotDims S400000x16 S16x64 S400000x64 where
  lhsContracting := [1]
  rhsContracting := [0]
  lhsNonContracting := [0]
  rhsNonContracting := [1]
  lhsBatch := []
  rhsBatch := []
  wf := dot_S400000x16_S16x64_S400000x64_1_0_0_1_n_n_wf
def scatter_S20000x64_S400000x1_S400000x64_1_0_0_1 : ScatterDims S20000x64 S400000x1 S400000x64 where
  updateWindowDims := [1]
  insertedWindowDims := [0]
  scatterDimsToOperandDims := [0]
  indexVectorDim := 1
  wf := scatter_S20000x64_S400000x1_S400000x64_1_0_0_1_wf
def dot_S400000x64_S64x64_S400000x64_1_0_0_1_n_n : DotDims S400000x64 S64x64 S400000x64 where
  lhsContracting := [1]
  rhsContracting := [0]
  lhsNonContracting := [0]
  rhsNonContracting := [1]
  lhsBatch := []
  rhsBatch := []
  wf := dot_S400000x64_S64x64_S400000x64_1_0_0_1_n_n_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf

class Facts : Prop extends Facts₀ where

variable [Facts]
-- ==== Proof.KRun.lean ====
/-
  The idealized kernel's whole run with every buffer named.

  The kernel program is six pipelined regions among stretches of host operations. Run from the launch memory, every weakly
  fair execution terminates without a fault, and at the end every buffer that outlives the regions holds the contents the
  last boundary of the chain of segments gives it: the fold of the host stretches and of the regions' write-backs from the
  launch memory. The result array is one of those buffers, so its final contents are that fold read at the result.
-/
import proofs.«150507_j36661840838787_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program from `m` terminates, nothing faulting, with every unscoped buffer at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c => h c)

end Cert.KernelIdeal.Val

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«150507_j36661840838787_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«150507_j36661840838787_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«150507_j36661840838787_2_alg».proof.Proof.LibDense
import proofs.«150507_j36661840838787_2_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.LibLayerForms.lean ====
/-
  Layer pieces on the extended reals, over rank-2 arrays of any extents, each in the vector unit's spelling and in the
  host's spelling.

  `relu X` is the entrywise maximum with zero; `scaleCols g X` multiplies every row of `X`, on the left, by the one-row
  array `g` (column `q` by `g(0, q)`); `divCol X s` divides row `p` of `X` by the entry `s(p, 0)` of a one-column array;
  `sigm X` is the entrywise logistic function `1 / (1 + e^(-x))`. The vector unit broadcasts a row or a column with
  `broadcastTo` and a scalar with `broadcast`; the host broadcasts with `broadcast_in_dim` and spells the logistic function
  as negate, exponential, add one, divide one by it. Both spellings denote the same whole-array function. No finiteness is
  used anywhere: every statement is an identity of extended reals entry by entry.
-/
import Idealize.ShloMosaic.Lib.IdealHost
import proofs.«150507_j36661840838787_2_alg».proof.Proof.LibDense
import proofs.«150507_j36661840838787_2_alg».proof.Proof.LibRowBlocks
import proofs.«150507_j36661840838787_2_alg».proof.Proof.LibHostLayout
import proofs.«150507_j36661840838787_2_alg».proof.Proof.LibBiasRow
import proofs.«150507_j36661840838787_2_alg».proof.Proof.LibRowScale

noncomputable section

open scoped BigOperators

namespace Cert.LayerForms

open Idealize.ShloMosaic Idealize.ShloMosaic.ValueIdx Cert.Dense

/-! ## Rectification -/

/-- The entrywise maximum with zero. -/
def relu {M N : ℕ} (X : Mat M N) : Mat M N := fun i => max (X i) 0

theorem relu_apply {M N : ℕ} (X : Mat M N) (i : (⟨2, ![M, N]⟩ : Shape).Idx) : relu X i = max (X i) 0 := rfl

/-- The vector unit's form: the maximum with a zero splat. -/
theorem vecRelu {M N : ℕ} (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = _
  rw [Ideal.ofBits_zero_f32]
  rfl

/-- The host's form: the maximum with a broadcast scalar zero. -/
theorem hostRelu {M N : ℕ} (X : FVec Ideal ⟨2, ![M, N]⟩ .f32)
    (h0 : (⟨0, ![]⟩ : Shape).BroadcastsInDim ⟨2, ![M, N]⟩ ![]) :
    maximumf X (broadcastInDim ⟨2, ![M, N]⟩ ![] h0 (constant (F := Ideal) ⟨0, ![]⟩ .f32 0x00000000#32)) = relu X := by
  funext i
  obtain ⟨p, q, rfl⟩ : ∃ (p : Fin M) (q : Fin N), i = ix2 p q := ⟨i 0, i 1, eq_ix2 i⟩
  show max (X (ix2 p q)) (broadcastInDim ⟨2, ![M, N]⟩ ![] h0 (constant (F := Ideal) ⟨0, ![]⟩ .f32 0x00000000#32) (ix2 p q)) = _
  rw [Cert.HostLayout.bcast_scalar_mat]
  show max (X (ix2 p q)) (Ideal.ofBits .f32 0x00000000#32) = _
  rw [Ideal.ofBits_zero_f32]
  rfl

/-! ## A one-row factor on the left -/

/-- Column `q` of `X` multiplied, on the left, by `g(0, q)`. -/
def scaleCols {M N : ℕ} (g : Mat 1 N) (X : Mat M N) : Mat M N := fun i => g (ix2 (0 : Fin 1) (c1 i)) * X i

theorem scaleCols_apply {M N : ℕ} (g : Mat 1 N) (X : Mat M N) (p : Fin M) (q : Fin N) :
    scaleCols g X (ix2 p q) = g (ix2 (0 : Fin 1) q) * X (ix2 p q) := rfl

/-- The vector unit's form: the row broadcast to every row, multiplied in on the left. -/
theorem vecScaleCols {M N : ℕ} (g : FVec Ideal ⟨2, ![1, N]⟩ .f32) (X : FVec Ideal ⟨2, ![M, N]⟩ .f32)
    (h : (⟨2, ![1, N]⟩ : Shape).Broadcasts ⟨2, ![M, N]⟩) :
    mulf (broadcastTo ⟨2, ![M, N]⟩ g h) X = scaleCols g X := by
  funext i
  obtain ⟨p, q, rfl⟩ : ∃ (p : Fin M) (q : Fin N), i = ix2 p q := ⟨i 0, i 1, eq_ix2 i⟩
  show broadcastTo ⟨2, ![M, N]⟩ g h (ix2 p q) * X (ix2 p q) = _
  rw [broadcastTo_1b_ab_apply]
  rfl

/-- The host's form: the vector broadcast to one row, that row to every row, multiplied in on the left. -/
theorem hostScaleCols {M N : ℕ} (g : FVec Ideal ⟨1, ![N]⟩ .f32) (X : FVec Ideal ⟨2, ![M, N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    mulf (broadcastInDim ⟨2, ![M, N]⟩ ![0, 1] h2 (broadcastInDim ⟨2, ![1, N]⟩ ![1] h1 g)) X = scaleCols (row g) X := by
  funext i
  obtain ⟨p, q, rfl⟩ : ∃ (p : Fin M) (q : Fin N), i = ix2 p q := ⟨i 0, i 1, eq_ix2 i⟩
  show broadcastInDim ⟨2, ![M, N]⟩ ![0, 1] h2 (broadcastInDim ⟨2, ![1, N]⟩ ![1] h1 g) (ix2 p q) * X (ix2 p q) = _
  rw [Cert.HostLayout.bcast_vec_mat]
  rfl

/-! ## A one-column factor on the right, in the host's spelling when the column is already an array -/

/-- The host's form of `scaleRows` when the factor arrives as a column: the column broadcast along the rows. -/
theorem hostMulCol {M N : ℕ} (X : FVec Ideal ⟨2, ![M, N]⟩ .f32) (s : FVec Ideal ⟨2, ![M, 1]⟩ .f32)
    (h2 : (⟨2, ![M, 1]⟩ : Shape).BroadcastsInDim ⟨2, ![M, N]⟩ ![0, 1]) :
    mulf X (broadcastInDim ⟨2, ![M, N]⟩ ![0, 1] h2 s) = Cert.RowScale.scaleRows X s := by
  funext i
  obtain ⟨p, q, rfl⟩ : ∃ (p : Fin M) (q : Fin N), i = ix2 p q := ⟨i 0, i 1, eq_ix2 i⟩
  show X (ix2 p q) * broadcastInDim ⟨2, ![M, N]⟩ ![0, 1] h2 s (ix2 p q) = _
  rw [Cert.HostLayout.bcast_col_mat]
  rfl

/-! ## Division of every row by its entry of a one-column array -/

/-- Row `p` of `X` divided by `s(p, 0)`. -/
def divCol {M N : ℕ} (X : Mat M N) (s : Mat M 1) : Mat M N := fun i => Ideal.div (X i) (s (ix2 (c0 i) (0 : Fin 1)))

theorem divCol_apply {M N : ℕ} (X : Mat M N) (s : Mat M 1) (p : Fin M) (q : Fin N) :
    divCol X s (ix2 p q) = Ideal.div (X (ix2 p q)) (s (ix2 p (0 : Fin 1))) := rfl

/-- The vector unit's form: the column broadcast along the rows, divided by. -/
theorem vecDivCol {M N : ℕ} (X : FVec Ideal ⟨2, ![M, N]⟩ .f32) (s : FVec Ideal ⟨2, ![M, 1]⟩ .f32)
    (h : (⟨2, ![M, 1]⟩ : Shape).Broadcasts ⟨2, ![M, N]⟩) :
    divf X (broadcastTo ⟨2, ![M, N]⟩ s h) = divCol X s := by
  funext i
  obtain ⟨p, q, rfl⟩ : ∃ (p : Fin M) (q : Fin N), i = ix2 p q := ⟨i 0, i 1, eq_ix2 i⟩
  show Ideal.div (X (ix2 p q)) (broadcastTo ⟨2, ![M, N]⟩ s h (ix2 p q)) = _
  rw [Cert.RowBlocks.broadcastTo_col_apply]
  rfl

/-- The host's form: the column broadcast along the rows, divided by. -/
theorem hostDivCol {M N : ℕ} (X : FVec Ideal ⟨2, ![M, N]⟩ .f32) (s : FVec Ideal ⟨2, ![M, 1]⟩ .f32)
    (h2 : (⟨2, ![M, 1]⟩ : Shape).BroadcastsInDim ⟨2, ![M, N]⟩ ![0, 1]) :
    Host.divf X (broadcastInDim ⟨2, ![M, N]⟩ ![0, 1] h2 s) = divCol X s := by
  funext i
  obtain ⟨p, q, rfl⟩ : ∃ (p : Fin M) (q : Fin N), i = ix2 p q := ⟨i 0, i 1, eq_ix2 i⟩
  show Ideal.div (X (ix2 p q)) (broadcastInDim ⟨2, ![M, N]⟩ ![0, 1] h2 s (ix2 p q)) = _
  rw [Cert.HostLayout.bcast_col_mat]
  rfl

/-! ## The logistic function -/

/-- The entrywise logistic function. -/
def sigm {M N : ℕ} (X : Mat M N) : Mat M N := fun i => Ideal.logistic (X i)

theorem sigm_apply {M N : ℕ} (X : Mat M N) (i : (⟨2, ![M, N]⟩ : Shape).Idx) : sigm X i = Ideal.logistic (X i) := rfl

/-- The vector unit's form: one operation. -/
theorem vecSigm {M N : ℕ} (X : FVec Ideal ⟨2, ![M, N]⟩ .f32) : logistic X = sigm X := rfl

/-- The host's form: one divided by one plus the exponential of the negation, the ones broadcast scalars. -/
theorem hostSigm {M N : ℕ} (X : FVec Ideal ⟨2, ![M, N]⟩ .f32)
    (h0 : (⟨0, ![]⟩ : Shape).BroadcastsInDim ⟨2, ![M, N]⟩ ![]) :
    Host.divf (broadcastInDim ⟨2, ![M, N]⟩ ![] h0 (constant (F := Ideal) ⟨0, ![]⟩ .f32 0x3F800000#32))
        (addf (broadcastInDim ⟨2, ![M, N]⟩ ![] h0 (constant (F := Ideal) ⟨0, ![]⟩ .f32 0x3F800000#32)) (Host.exp (Host.negf X)))
      = sigm X := by
  funext i
  obtain ⟨p, q, rfl⟩ : ∃ (p : Fin M) (q : Fin N), i = ix2 p q := ⟨i 0, i 1, eq_ix2 i⟩
  show Ideal.div (broadcastInDim ⟨2, ![M, N]⟩ ![] h0 (constant (F := Ideal) ⟨0, ![]⟩ .f32 0x3F800000#32) (ix2 p q))
      (broadcastInDim ⟨2, ![M, N]⟩ ![] h0 (constant (F := Ideal) ⟨0, ![]⟩ .f32 0x3F800000#32) (ix2 p q) + Ideal.exp (-(X (ix2 p q)))) = _
  rw [Cert.HostLayout.bcast_scalar_mat]
  show Ideal.div (Ideal.ofBits .f32 0x3F800000#32) (Ideal.ofBits .f32 0x3F800000#32 + Ideal.exp (-(X (ix2 p q)))) = _
  rw [Ideal.ofBits_one_f32]
  rfl

end Cert.LayerForms

end
-- ==== Proof.Layers.lean ====
/-
  The network's dense stages as whole-array functions on the extended reals, over arrays of any number of rows.

  A graph layer's message is `edgeMsg H E = max (H + E, 0)`; its tail is
  `ginTail h agg W g b = max (g · ((h + agg) W) + b, 0) + h` with `g`, `b` one-row arrays acting on every row. The heads:
  `affine X W b = X W + b`; `gate X W b` its logistic function; `centroidC comb gc mask = comb · gc · mask` with `mask` a
  one-column array; `head comb W b g bt gt = max (g · (comb W + b) + bt, 0) · gt`; the pooled sum
  `pooled cen sub cb ctx cm = cen + sub / cb + ctx / cm` with one-column divisors; and the output layer
  `outLayer P W b g bt = g · (P W + b) + bt`.

  Every stage is ROW-LOCAL: row `p` of the result depends on row `p` of the row-indexed operands only (and on the whole
  weight and one-row arrays). The `_at` lemmas say so for two families of arrays of different heights whose rows agree:
  this is what reading a block of rows against the whole array needs.
-/
import proofs.«150507_j36661840838787_2_alg».proof.Proof.LibLayerForms

noncomputable section

open scoped BigOperators

namespace Cert.Layers

open Idealize.ShloMosaic Idealize.ShloMosaic.ValueIdx Cert.Dense Cert.BiasRow Cert.RowScale Cert.LayerForms

variable {M M' K N N' : ℕ}

/-- The message along an edge: the source row plus the edge row, rectified. -/
def edgeMsg (H E : Mat M N) : Mat M N := relu (fun i => H i + E i)

theorem edgeMsg_apply (H E : Mat M N) (i : (⟨2, ![M, N]⟩ : Shape).Idx) : edgeMsg H E i = max (H i + E i) 0 := rfl

/-- A graph layer's tail: the summed rows through the weight, scaled and shifted column by column, rectified, plus the
    layer's input. -/
def ginTail (h agg : Mat M N) (W : Mat N N) (g b : Mat 1 N) : Mat M N :=
  fun i => relu (addRow (scaleCols g (mm (fun j => h j + agg j) W)) b) i + h i

theorem ginTail_apply (h agg : Mat M N) (W : Mat N N) (g b : Mat 1 N) (p : Fin M) (q : Fin N) :
    ginTail h agg W g b (ix2 p q)
      = max (g (ix2 (0 : Fin 1) q) * (∑ k : Fin N, (h (ix2 p k) + agg (ix2 p k)) * W (ix2 k q)) + b (ix2 (0 : Fin 1) q)) 0
        + h (ix2 p q) := rfl

/-- Rows of the tail depend on the same rows of the layer's input and of the aggregate. -/
theorem ginTail_at (h agg : Mat M N) (h' agg' : Mat M' N) (W : Mat N N) (g b : Mat 1 N) (p : Fin M) (p' : Fin M') (q : Fin N)
    (hh : ∀ k, h' (ix2 p' k) = h (ix2 p k)) (ha : ∀ k, agg' (ix2 p' k) = agg (ix2 p k)) :
    ginTail h' agg' W g b (ix2 p' q) = ginTail h agg W g b (ix2 p q) := by
  simp only [ginTail_apply, hh, ha]

/-- A product with a weight plus a one-row bias. -/
def affine (X : Mat M K) (W : Mat K N) (b : Mat 1 N) : Mat M N := addRow (mm X W) b

theorem affine_apply (X : Mat M K) (W : Mat K N) (b : Mat 1 N) (p : Fin M) (q : Fin N) :
    affine X W b (ix2 p q) = (∑ k : Fin K, X (ix2 p k) * W (ix2 k q)) + b (ix2 (0 : Fin 1) q) := rfl

theorem affine_at (X : Mat M K) (X' : Mat M' K) (W : Mat K N) (b : Mat 1 N) (p : Fin M) (p' : Fin M') (q : Fin N)
    (hX : ∀ k, X' (ix2 p' k) = X (ix2 p k)) : affine X' W b (ix2 p' q) = affine X W b (ix2 p q) := by
  simp only [affine_apply, hX]

/-- A gate: the logistic function of an affine map. -/
def gate (X : Mat M K) (W : Mat K N) (b : Mat 1 N) : Mat M N := sigm (affine X W b)

theorem gate_apply (X : Mat M K) (W : Mat K N) (b : Mat 1 N) (p : Fin M) (q : Fin N) :
    gate X W b (ix2 p q) = Ideal.logistic (affine X W b (ix2 p q)) := rfl

theorem gate_at (X : Mat M K) (X' : Mat M' K) (W : Mat K N) (b : Mat 1 N) (p : Fin M) (p' : Fin M') (q : Fin N)
    (hX : ∀ k, X' (ix2 p' k) = X (ix2 p k)) : gate X' W b (ix2 p' q) = gate X W b (ix2 p q) := by
  rw [gate_apply, gate_apply, affine_at X X' W b p p' q hX]

/-- The centre's share: the encoded row times its gate times the row's entry of a one-column mask. -/
def centroidC (comb gc : Mat M N) (mask : Mat M 1) : Mat M N := scaleRows (fun i => comb i * gc i) mask

theorem centroidC_apply (comb gc : Mat M N) (mask : Mat M 1) (p : Fin M) (q : Fin N) :
    centroidC comb gc mask (ix2 p q) = comb (ix2 p q) * gc (ix2 p q) * mask (ix2 p (0 : Fin 1)) := rfl

/-- A head: an affine map scaled and shifted column by column, rectified, times a gate. -/
def head (comb : Mat M K) (W : Mat K N) (b g bt : Mat 1 N) (gt : Mat M N) : Mat M N :=
  fun i => relu (addRow (scaleCols g (affine comb W b)) bt) i * gt i

theorem head_apply (comb : Mat M K) (W : Mat K N) (b g bt : Mat 1 N) (gt : Mat M N) (p : Fin M) (q : Fin N) :
    head comb W b g bt gt (ix2 p q)
      = max (g (ix2 (0 : Fin 1) q) * affine comb W b (ix2 p q) + bt (ix2 (0 : Fin 1) q)) 0 * gt (ix2 p q) := rfl

/-- The pooled sum: the centre's row plus two rows each divided by its count. -/
def pooled (cen sub : Mat M N) (cb : Mat M 1) (ctx : Mat M N) (cm : Mat M 1) : Mat M N :=
  fun i => cen i + divCol sub cb i + divCol ctx cm i

theorem pooled_apply (cen sub : Mat M N) (cb : Mat M 1) (ctx : Mat M N) (cm : Mat M 1) (p : Fin M) (q : Fin N) :
    pooled cen sub cb ctx cm (ix2 p q)
      = cen (ix2 p q) + Ideal.div (sub (ix2 p q)) (cb (ix2 p (0 : Fin 1))) + Ideal.div (ctx (ix2 p q)) (cm (ix2 p (0 : Fin 1))) := rfl

/-- The output layer: an affine map scaled and shifted column by column. -/
def outLayer (P : Mat M K) (W : Mat K N) (b g bt : Mat 1 N) : Mat M N := addRow (scaleCols g (affine P W b)) bt

theorem outLayer_apply (P : Mat M K) (W : Mat K N) (b g bt : Mat 1 N) (p : Fin M) (q : Fin N) :
    outLayer P W b g bt (ix2 p q) = g (ix2 (0 : Fin 1) q) * affine P W b (ix2 p q) + bt (ix2 (0 : Fin 1) q) := rfl

theorem outLayer_at (P : Mat M K) (P' : Mat M' K) (W : Mat K N) (b g bt : Mat 1 N) (p : Fin M) (p' : Fin M') (q : Fin N)
    (hP : ∀ k, P' (ix2 p' k) = P (ix2 p k)) : outLayer P' W b g bt (ix2 p' q) = outLayer P W b g bt (ix2 p q) := by
  rw [outLayer_apply, outLayer_apply, affine_at P P' W b p p' q hP]

end Cert.Layers

end
-- ==== Proof.RefSide.lean ====
/-
  The reference's dense stages are the network's whole-array functions.

  The reference program computes on whole arrays. Each of its dense stages — a message pass, a layer's tail, the encoder, the
  three gates, the centre's share, the two heads, the output layer — is, stage by stage, the corresponding function of
  `Layers.lean` of the stages before it: the host's dot product is the matrix product, its two-step broadcast of a vector is
  a one-row array acting on every row, its broadcast of a column acts on every row's entries, its rectification is the
  maximum with a broadcast zero, and its spelling of the logistic function (negate, exponential, add one, divide) is the
  logistic function. The gathers and segment sums between the stages are left as they are.
-/
import proofs.«150507_j36661840838787_2_alg».proof.Proof.Gen.ReferenceIdeal.Read
import proofs.«150507_j36661840838787_2_alg».proof.Proof.Layers

noncomputable section

namespace Cert.ReferenceIdeal.RefValue

open Cert.ReferenceIdeal Cert.ReferenceIdeal.Read
open Idealize.ShloMosaic Idealize.ShloMosaic.ValueIdx
open Cert.Dense Cert.BiasRow Cert.RowScale Cert.LayerForms Cert.Layers

variable
  (x0 : (⟨S20000x64, .f32⟩ : BufTy).Contents (Elt Ideal))
  (x1 : (⟨S200000x80, .f32⟩ : BufTy).Contents (Elt Ideal))
  (x2 : (⟨S20x16, .f32⟩ : BufTy).Contents (Elt Ideal))
  (x3 : (⟨S80x80, .f32⟩ : BufTy).Contents (Elt Ideal))
  (x4 : (⟨S80, .f32⟩ : BufTy).Contents (Elt Ideal))
  (x5 : (⟨S80, .f32⟩ : BufTy).Contents (Elt Ideal))
  (x6 : (⟨S80x80, .f32⟩ : BufTy).Contents (Elt Ideal))
  (x7 : (⟨S80, .f32⟩ : BufTy).Contents (Elt Ideal))
  (x8 : (⟨S80, .f32⟩ : BufTy).Contents (Elt Ideal))
  (x9 : (⟨S80x64, .f32⟩ : BufTy).Contents (Elt Ideal))
  (x10 : (⟨S64, .f32⟩ : BufTy).Contents (Elt Ideal))
  (x11 : (⟨S64x64, .f32⟩ : BufTy).Contents (Elt Ideal))
  (x12 : (⟨S64, .f32⟩ : BufTy).Contents (Elt Ideal))
  (x13 : (⟨S64, .f32⟩ : BufTy).Contents (Elt Ideal))
  (x14 : (⟨S64, .f32⟩ : BufTy).Contents (Elt Ideal))
  (x15 : (⟨S64x64, .f32⟩ : BufTy).Contents (Elt Ideal))
  (x16 : (⟨S64, .f32⟩ : BufTy).Contents (Elt Ideal))
  (x17 : (⟨S64, .f32⟩ : BufTy).Contents (Elt Ideal))
  (x18 : (⟨S64, .f32⟩ : BufTy).Contents (Elt Ideal))
  (x19 : (⟨S16x64, .f32⟩ : BufTy).Contents (Elt Ideal))
  (x20 : (⟨S64, .f32⟩ : BufTy).Contents (Elt Ideal))
  (x21 : (⟨S16x64, .f32⟩ : BufTy).Contents (Elt Ideal))
  (x22 : (⟨S64, .f32⟩ : BufTy).Contents (Elt Ideal))
  (x23 : (⟨S16x64, .f32⟩ : BufTy).Contents (Elt Ideal))
  (x24 : (⟨S64, .f32⟩ : BufTy).Contents (Elt Ideal))
  (x25 : (⟨S64x64, .f32⟩ : BufTy).Contents (Elt Ideal))
  (x26 : (⟨S64, .f32⟩ : BufTy).Contents (Elt Ideal))
  (x27 : (⟨S64, .f32⟩ : BufTy).Contents (Elt Ideal))
  (x28 : (⟨S64, .f32⟩ : BufTy).Contents (Elt Ideal))
  (x29 : (⟨S400000, .i32⟩ : BufTy).Contents (Elt Ideal))
  (x30 : (⟨S2000000, .i32⟩ : BufTy).Contents (Elt Ideal))
  (x31 : (⟨S2x2000000, .i32⟩ : BufTy).Contents (Elt Ideal))
  (x32 : (⟨S400000, .i32⟩ : BufTy).Contents (Elt Ideal))
  (x33 : (⟨S400000, .i32⟩ : BufTy).Contents (Elt Ideal))

/-- The first message pass: the gathered source rows plus the edge rows, rectified. -/
theorem ref_msg1 : val_main_v36 (F := Ideal) x0 x1 x2 x29 x30 x31 x33 = edgeMsg (val_main_v34 (F := Ideal) x0 x2 x29 x31 x33) (val_main_v23 (F := Ideal) x1 x30) := by
  unfold val_main_v36 val_main_v35 val_main_call0_v0 val_main_call0_cst
  exact hostRelu _ _

/-- The second message pass. -/
theorem ref_msg2 : val_main_v58 (F := Ideal) x0 x1 x2 x3 x4 x5 x29 x30 x31 x33 = edgeMsg (val_main_v56 (F := Ideal) x0 x1 x2 x3 x4 x5 x29 x30 x31 x33) (val_main_v23 (F := Ideal) x1 x30) := by
  unfold val_main_v58 val_main_v57 val_main_call2_v0 val_main_call2_cst
  exact hostRelu _ _

/-- The first layer's tail. -/
theorem ref_h1 : val_main_v49 (F := Ideal) x0 x1 x2 x3 x4 x5 x29 x30 x31 x33 = ginTail (val_main_v16 (F := Ideal) x0 x2 x29 x33) (val_main_v39 (F := Ideal) x0 x1 x2 x29 x30 x31 x33) x3 (row x4) (row x5) := by
  unfold val_main_v49 val_main_v48 val_main_v47 val_main_v44 val_main_v43 val_main_v42 val_main_v41 val_main_v40 val_main_v46 val_main_v45 val_main_call1_v0 val_main_call1_cst
  rw [hostDot_eq_mm _ rfl rfl rfl rfl rfl rfl, hostScaleCols, hostAddRow, hostRelu]
  rfl

/-- The second layer's tail. -/
theorem ref_h2 : val_main_v71 (F := Ideal) x0 x1 x2 x3 x4 x5 x6 x7 x8 x29 x30 x31 x33 = ginTail (val_main_v49 (F := Ideal) x0 x1 x2 x3 x4 x5 x29 x30 x31 x33) (val_main_v61 (F := Ideal) x0 x1 x2 x3 x4 x5 x29 x30 x31 x33) x6 (row x7) (row x8) := by
  unfold val_main_v71 val_main_v70 val_main_v69 val_main_v66 val_main_v65 val_main_v64 val_main_v63 val_main_v62 val_main_v68 val_main_v67 val_main_call3_v0 val_main_call3_cst
  rw [hostDot_eq_mm _ rfl rfl rfl rfl rfl rfl, hostScaleCols, hostAddRow, hostRelu]
  rfl

/-- The output encoder. -/
theorem ref_comb : val_main_v75 (F := Ideal) x0 x1 x2 x3 x4 x5 x6 x7 x8 x9 x10 x29 x30 x31 x33 = affine (val_main_v71 (F := Ideal) x0 x1 x2 x3 x4 x5 x6 x7 x8 x29 x30 x31 x33) x9 (row x10) := by
  unfold val_main_v75 val_main_v72 val_main_v74 val_main_v73
  rw [hostDot_eq_mm _ rfl rfl rfl rfl rfl rfl, hostAddRow]
  rfl

/-- The centre's gate. -/
theorem ref_gc : val_main_v85 (F := Ideal) x2 x19 x20 x33 = gate (val_main_v8 (F := Ideal) x2 x33) x19 (row x20) := by
  unfold val_main_v85 val_main_v84 val_main_cst_12 val_main_v83 val_main_v82 val_main_cst_11 val_main_v81 val_main_v80 val_main_v79 val_main_v76 val_main_v78 val_main_v77
  rw [hostDot_eq_mm _ rfl rfl rfl rfl rfl rfl, hostAddRow, hostSigm]
  rfl

/-- The subgraph head's gate. -/
theorem ref_gs : val_main_v95 (F := Ideal) x2 x21 x22 x33 = gate (val_main_v8 (F := Ideal) x2 x33) x21 (row x22) := by
  unfold val_main_v95 val_main_v94 val_main_cst_14 val_main_v93 val_main_v92 val_main_cst_13 val_main_v91 val_main_v90 val_main_v89 val_main_v86 val_main_v88 val_main_v87
  rw [hostDot_eq_mm _ rfl rfl rfl rfl rfl rfl, hostAddRow, hostSigm]
  rfl

/-- The context head's gate. -/
theorem ref_gx : val_main_v105 (F := Ideal) x2 x23 x24 x33 = gate (val_main_v8 (F := Ideal) x2 x33) x23 (row x24) := by
  unfold val_main_v105 val_main_v104 val_main_cst_16 val_main_v103 val_main_v102 val_main_cst_15 val_main_v101 val_main_v100 val_main_v99 val_main_v96 val_main_v98 val_main_v97
  rw [hostDot_eq_mm _ rfl rfl rfl rfl rfl rfl, hostAddRow, hostSigm]
  rfl

/-- The centre's share: the encoded rows times the gate times the mask column. -/
theorem ref_cenC : val_main_v111 (F := Ideal) x0 x1 x2 x3 x4 x5 x6 x7 x8 x9 x10 x19 x20 x29 x30 x31 x32 x33 = centroidC (val_main_v75 (F := Ideal) x0 x1 x2 x3 x4 x5 x6 x7 x8 x9 x10 x29 x30 x31 x33) (val_main_v85 (F := Ideal) x2 x19 x20 x33) (val_main_v108 (F := Ideal) x29 x32) := by
  unfold val_main_v111 val_main_v109 val_main_v110
  rw [hostMulCol]
  rfl

/-- The subgraph head. -/
theorem ref_sub : val_main_v126 (F := Ideal) x0 x1 x2 x3 x4 x5 x6 x7 x8 x9 x10 x11 x12 x13 x14 x21 x22 x29 x30 x31 x33 = head (val_main_v75 (F := Ideal) x0 x1 x2 x3 x4 x5 x6 x7 x8 x9 x10 x29 x30 x31 x33) x11 (row x12) (row x13) (row x14) (val_main_v95 (F := Ideal) x2 x21 x22 x33) := by
  unfold val_main_v126 val_main_v125 val_main_v124 val_main_v121 val_main_v120 val_main_v119 val_main_v118 val_main_v115 val_main_v117 val_main_v116 val_main_v123 val_main_v122 val_main_call4_v0 val_main_call4_cst
  rw [hostDot_eq_mm _ rfl rfl rfl rfl rfl rfl, hostAddRow, hostScaleCols, hostAddRow, hostRelu]
  rfl

/-- The context head. -/
theorem ref_ctx : val_main_v138 (F := Ideal) x0 x1 x2 x3 x4 x5 x6 x7 x8 x9 x10 x15 x16 x17 x18 x23 x24 x29 x30 x31 x33 = head (val_main_v75 (F := Ideal) x0 x1 x2 x3 x4 x5 x6 x7 x8 x9 x10 x29 x30 x31 x33) x15 (row x16) (row x17) (row x18) (val_main_v105 (F := Ideal) x2 x23 x24 x33) := by
  unfold val_main_v138 val_main_v137 val_main_v136 val_main_v133 val_main_v132 val_main_v131 val_main_v130 val_main_v127 val_main_v129 val_main_v128 val_main_v135 val_main_v134 val_main_call5_v0 val_main_call5_cst
  rw [hostDot_eq_mm _ rfl rfl rfl rfl rfl rfl, hostAddRow, hostScaleCols, hostAddRow, hostRelu]
  rfl

/-- The output layer over the pooled sum. -/
theorem ref_out : val_main_v171 (F := Ideal) x0 x1 x2 x3 x4 x5 x6 x7 x8 x9 x10 x11 x12 x13 x14 x15 x16 x17 x18 x19 x20 x21 x22 x23 x24 x25 x26 x27 x28 x29 x30 x31 x32 x33 = outLayer (pooled (val_main_v114 (F := Ideal) x0 x1 x2 x3 x4 x5 x6 x7 x8 x9 x10 x19 x20 x29 x30 x31 x32 x33) (val_main_v150 (F := Ideal) x0 x1 x2 x3 x4 x5 x6 x7 x8 x9 x10 x11 x12 x13 x14 x21 x22 x29 x30 x31 x32 x33) (val_main_v151 (F := Ideal) x32) (val_main_v156 (F := Ideal) x0 x1 x2 x3 x4 x5 x6 x7 x8 x9 x10 x15 x16 x17 x18 x23 x24 x29 x30 x31 x33) (val_main_v157 (F := Ideal) x29)) x25 (row x26) (row x27) (row x28) := by
  unfold val_main_v171 val_main_v168 val_main_v167 val_main_v166 val_main_v165 val_main_v162 val_main_v161 val_main_v160 val_main_v153 val_main_v152 val_main_v159 val_main_v158 val_main_v164 val_main_v163 val_main_v170 val_main_v169
  rw [hostDivCol, hostDivCol, hostDot_eq_mm _ rfl rfl rfl rfl rfl rfl, hostAddRow, hostScaleCols, hostAddRow]
  rfl

end Cert.ReferenceIdeal.RefValue

end
-- ==== Proof.HostKeep.lean ====
/-
  A buffer that no operation of a stretch of host operations writes holds after the stretch what it held before it: the
  stretch's fold leaves it alone. The tactic below discharges that for the kernel program's ten host stretches, comparing
  the buffer with each operation's result buffer.
-/
import proofs.«150507_j36661840838787_2_alg».proof.Proof.Gen.KernelIdeal.Frame

namespace Cert.KernelIdeal.Val

open Cert.KernelIdeal Cert.KernelIdeal.Gen Idealize.ShloMosaic

/-- Closes `after ops V b = V b` for `ops` one of the program's host stretches and `b` a buffer none of them writes. -/
macro "hk" : tactic => `(tactic| exact StableHlo.after_of_forall_not_mem _ _ (List.forall_iff_forall_mem.mp (by
  simp only [hostOps0, hostOps1, hostOps2, hostOps3, hostOps4, hostOps5, hostOps5_1, hostOps5_2, hostOps5_3, hostOps5_4,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

end Cert.KernelIdeal.Val
-- ==== Proof.Reg0.lean ====
/-
  Region 0 of the kernel program (the first edge-message pass) as one whole-array function.

  The region runs over 200 blocks of 10000 edge rows. At block `t` the body reads rows 10000 t … 10000 t + 9999 of the
  gathered source rows and of the edge rows and writes back the same rows of the result: `max (h + e, 0)` entry by entry.
  The blocks tile the 2000000 rows, so after the region the result array is `edgeMsg` of the two whole input arrays as the
  region found them.
-/
import proofs.«150507_j36661840838787_2_alg».proof.Proof.Gen.KernelIdeal.Frame
import Idealize.ShloMosaic.Lib.Pipeline.Value
import proofs.«150507_j36661840838787_2_alg».proof.Proof.Layers

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Dense Cert.LayerForms Cert.Layers

variable (V : (c : Dev nD) → (b : Ref sig .tc) → Buf (Elt Ideal) ((c : Thread nD τ).loc b))

theorem hz2 : (![0, 0] : Fin 2 → Nat) = fun _ => 0 := funext fun a => by fin_cases a <;> rfl

/-- The body's stored value is the message of its two loaded blocks. -/
theorem pay0_eq (x0 x1 : Vec Ideal S10000x80 .f32) : k0_pay1 x0 x1 = edgeMsg x0 x1 := by
  unfold k0_pay1
  dsimp only
  rw [shapeCast_self, shapeCast_self, vecRelu]
  rfl

/-- The three windows move together: block `t` is rows `10000 t …`, all 80 columns. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A block of an input window, read at an index of the block, is the window's array at the embedded index. -/
theorem iblk0_0 (c : Dev nD) (t : Fin cfg0.N) (y : S10000x80.Idx) :
    iblk0 V c 0 t y = (V c main_v34 : S2000000x80.Idx → EReal) (((cfg0.win 0).blk t).view.emb y) := rfl
theorem iblk0_1 (c : Dev nD) (t : Fin cfg0.N) (y : S10000x80.Idx) :
    iblk0 V c 1 t y = (V c main_v23 : S2000000x80.Idx → EReal) (((cfg0.win 1).blk t).view.emb y) := rfl

/-- What point `t` writes back is block `t` of the message of the two input arrays. -/
theorem flushed0_eq (c : Dev nD) (t : Fin cfg0.N) :
    (dat0 V c).flushed 2 t = ((cfg0.win 2).blk t).view.read (Elt Ideal) (edgeMsg (V c main_v34) (V c main_v23)) := by
  show (cfg0.win 2).cut (grid0.coords t) ((dat0 V c).after 2 t) = _
  rw [after0_2]
  unfold out0_2
  rw [View.canon_unit_zero hz2]
  simp only [View.ld_unit_zero (S := S10000x80) hz2]
  rw [pay0_eq]
  obtain ⟨e0, e1, e2, e3, e4, e5⟩ := idx_facts0 t
  funext j
  show edgeMsg (iblk0 V c 0 t) (iblk0 V c 1 t) j = edgeMsg (V c main_v34) (V c main_v23) (((cfg0.win 2).blk t).view.emb j)
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 80 + 1 * (j 1).val = win0_2.index t (1 : Fin 2) * 80 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 80 + 1 * (j 1).val = win0_2.index t (1 : Fin 2) * 80 + 1 * (j 1).val; omega
  rw [edgeMsg_apply, edgeMsg_apply, iblk0_0, iblk0_1, h0, h1]

/-- An index of the result array is in point `t`'s block iff each coordinate is in the block's range on its axis. -/
theorem mem_blk0 (t : Fin cfg0.N) (i : S2000000x80.Idx) :
    i ∈ ((cfg0.win 2).blk t).view.set ↔ ∀ a : Fin 2, win0_2.index t a * S10000x80.size a ≤ (i a).val ∧ (i a).val < win0_2.index t a * S10000x80.size a + S10000x80.size a := by
  show i ∈ ((View.whole main_v35).slice (win0_2.rect t)).set ↔ _
  rw [View.set_slice_whole, Rect.mem_set_unit]
  exact Iff.rfl

/-- Row `r` is in the block of point `r / 10000`. -/
theorem cover0 (i : S2000000x80.Idx) : ∃ t : Fin cfg0.N, (cfg0.win 2).flush t = true ∧ i ∈ ((cfg0.win 2).blk t).view.set := by
  have hi0 : (i 0).val < 2000000 := idx2_lt0 i
  have hi1 : (i 1).val < 80 := idx2_lt1 i
  have hN : grid0.N = 200 := N_0
  let t : Fin cfg0.N := ⟨(i 0).val / 10000, by show _ < grid0.N; omega⟩
  obtain ⟨e0, e1, e2, e3, e4, e5⟩ := idx_facts0 t
  have ht : t.val = (i 0).val / 10000 := rfl
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 80 ≤ (i 1).val ∧ (i 1).val < win0_2.index t (1 : Fin 2) * 80 + 80; omega

/-- After region 0 the result array is the message of the two input arrays as the region found them. -/
theorem final0 (c : Dev nD) : (dat0 V c).arrAt 2 cfg0.N = edgeMsg (V c main_v34) (V c main_v23) :=
  (dat0 V c).arrAt_eq_of_cover 2 _ (fun t _ => flushed0_eq V c t) cover0

end Cert.KernelIdeal.Val

end
-- ==== Proof.Reg1.lean ====
/-
  Region 1 of the kernel program (the first layer's tail) as one whole-array function.

  The region runs over 40 blocks of 10000 node rows. At block `t` the body reads rows 10000 t … 10000 t + 9999 of the layer's
  input and of the aggregated messages, the whole 80×80 weight and the two one-row arrays, and writes back the same rows of
  `max (g · ((h + agg) W) + b, 0) + h`. A row of that result depends on the same row of `h` and `agg` only, so block `t` of
  the result is block `t` of the tail of the WHOLE arrays; the blocks tile the 400000 rows.
-/
import proofs.«150507_j36661840838787_2_alg».proof.Proof.Gen.KernelIdeal.Frame
import Idealize.ShloMosaic.Lib.Pipeline.Value
import proofs.«150507_j36661840838787_2_alg».proof.Proof.Layers
import proofs.«150507_j36661840838787_2_alg».proof.Proof.Reg0

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Dense Cert.LayerForms Cert.Layers

variable (V : (c : Dev nD) → (b : Ref sig .tc) → Buf (Elt Ideal) ((c : Thread nD τ).loc b))

/-- The body's stored value is the layer's tail of its five loaded blocks. -/
theorem pay1_eq (v0 v2 : Vec Ideal S10000x80 .f32) (v6 : Vec Ideal S80x80 .f32) (v9 v11 : Vec Ideal S1x80 .f32) :
    k1_pay1 v0 v2 v6 v9 v11 = ginTail v0 v2 v6 v9 v11 := by
  unfold k1_pay1
  dsimp only
  simp only [shapeCast_self]
  rw [matmul_zero_eq_mm _ rfl rfl rfl rfl rfl rfl, vecScaleCols, Cert.BiasRow.vecAddRow, vecRelu]
  rfl

/-- The row-blocked windows (input rows, aggregate, result) move together, block `t` being rows `10000 t …`; the weight and
    the two one-row arrays are read whole at every point. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt1 (t : Fin cfg1.N) : t.val < 40 := lt_of_lt_of_eq t.isLt N_1

/-- The weight's block is the whole weight. -/
theorem whole1_2 (c : Dev nD) (t : Fin cfg1.N) : iblk1 V c 2 t = (V c main_arg3 : S80x80.Idx → EReal) := by
  obtain ⟨-, -, -, -, e4, e5, -⟩ := idx_facts1 t
  funext y
  show (V c main_arg3 : S80x80.Idx → EReal) (((cfg1.win 2).blk t).view.emb y) = _
  refine congrArg _ ?_
  funext a; apply Fin.ext
  match a with
  | ⟨0, _⟩ => show win1_2.index t (0 : Fin 2) * 80 + 1 * (y 0).val = (y 0).val; omega
  | ⟨1, _⟩ => show win1_2.index t (1 : Fin 2) * 80 + 1 * (y 1).val = (y 1).val; omega

/-- The scale row's block is the whole row. -/
theorem whole1_3 (c : Dev nD) (t : Fin cfg1.N) : iblk1 V c 3 t = (V c main_v39 : S1x80.Idx → EReal) := by
  obtain ⟨-, -, -, -, -, -, e6, e7, -⟩ := idx_facts1 t
  funext y
  show (V c main_v39 : S1x80.Idx → EReal) (((cfg1.win 3).blk t).view.emb y) = _
  refine congrArg _ ?_
  funext a; apply Fin.ext
  match a with
  | ⟨0, _⟩ => show win1_3.index t (0 : Fin 2) * 1 + 1 * (y 0).val = (y 0).val; omega
  | ⟨1, _⟩ => show win1_3.index t (1 : Fin 2) * 80 + 1 * (y 1).val = (y 1).val; omega

/-- The shift row's block is the whole row. -/
theorem whole1_4 (c : Dev nD) (t : Fin cfg1.N) : iblk1 V c 4 t = (V c main_v40 : S1x80.Idx → EReal) := by
  obtain ⟨-, -, -, -, -, -, -, -, e8, e9, -⟩ := idx_facts1 t
  funext y
  show (V c main_v40 : S1x80.Idx → EReal) (((cfg1.win 4).blk t).view.emb y) = _
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 80 + 1 * (y 1).val = (y 1).val; omega

/-- Row `p'` of block `t` of the layer's input is row `10000 t + p'` of the array. -/
theorem row1_0 (c : Dev nD) (t : Fin cfg1.N) (p' : Fin 10000) (k : Fin 80) (hp : t.val * 10000 + p'.val < 400000) :
    iblk1 V c 0 t (ix2 p' k) = (V c main_v16 : S400000x80.Idx → EReal) (ix2 (⟨t.val * 10000 + p'.val, hp⟩ : Fin 400000) k) := by
  obtain ⟨e0, e1, -⟩ := idx_facts1 t
  show (V c main_v16 : S400000x80.Idx → EReal) (((cfg1.win 0).blk t).view.emb (ix2 p' k)) = _
  refine congrArg _ ?_
  funext a; apply Fin.ext
  match a with
  | ⟨0, _⟩ => show win1_0.index t (0 : Fin 2) * 10000 + 1 * p'.val = t.val * 10000 + p'.val; omega
  | ⟨1, _⟩ => show win1_0.index t (1 : Fin 2) * 80 + 1 * k.val = k.val; omega

/-- The same for the aggregate. -/
theorem row1_1 (c : Dev nD) (t : Fin cfg1.N) (p' : Fin 10000) (k : Fin 80) (hp : t.val * 10000 + p'.val < 400000) :
    iblk1 V c 1 t (ix2 p' k) = (V c main_v38 : S400000x80.Idx → EReal) (ix2 (⟨t.val * 10000 + p'.val, hp⟩ : Fin 400000) k) := by
  obtain ⟨-, -, e2, e3, -⟩ := idx_facts1 t
  show (V c main_v38 : S400000x80.Idx → EReal) (((cfg1.win 1).blk t).view.emb (ix2 p' k)) = _
  refine congrArg _ ?_
  funext a; apply Fin.ext
  match a with
  | ⟨0, _⟩ => show win1_1.index t (0 : Fin 2) * 10000 + 1 * p'.val = t.val * 10000 + p'.val; omega
  | ⟨1, _⟩ => show win1_1.index t (1 : Fin 2) * 80 + 1 * k.val = k.val; omega

/-- What point `t` writes back is block `t` of the layer's tail of the whole arrays. -/
theorem flushed1_eq (c : Dev nD) (t : Fin cfg1.N) :
    (dat1 V c).flushed 5 t = ((cfg1.win 5).blk t).view.read (Elt Ideal)
      (ginTail (V c main_v16) (V c main_v38) (V c main_arg3) (V c main_v39) (V c main_v40)) := by
  show (cfg1.win 5).cut (grid1.coords t) ((dat1 V c).after 5 t) = _
  rw [after1_5]
  unfold out1_5
  rw [View.canon_unit_zero hz2]
  simp only [View.ld_unit_zero (S := S10000x80) hz2, View.ld_unit_zero (S := S80x80) hz2, View.ld_unit_zero (S := S1x80) hz2]
  rw [pay1_eq, whole1_2, whole1_3, whole1_4]
  have ht := t_lt1 t
  obtain ⟨-, -, -, -, -, -, -, -, -, -, e10, e11⟩ := idx_facts1 t
  funext j
  obtain ⟨p', q, rfl⟩ : ∃ (p' : Fin 10000) (q : Fin 80), j = ix2 p' q := ⟨j 0, j 1, eq_ix2 j⟩
  have hp : t.val * 10000 + p'.val < 400000 := by have := p'.isLt; omega
  have hemb : ((cfg1.win 5).blk t).view.emb (ix2 p' q) = ix2 (⟨t.val * 10000 + p'.val, hp⟩ : Fin 400000) q := by
    funext a; apply Fin.ext
    match a with
    | ⟨0, _⟩ => show win1_5.index t (0 : Fin 2) * 10000 + 1 * p'.val = t.val * 10000 + p'.val; omega
    | ⟨1, _⟩ => show win1_5.index t (1 : Fin 2) * 80 + 1 * q.val = q.val; omega
  show ginTail (iblk1 V c 0 t) (iblk1 V c 1 t) (V c main_arg3) (V c main_v39) (V c main_v40) (ix2 p' q)
    = ginTail (V c main_v16) (V c main_v38) (V c main_arg3) (V c main_v39) (V c main_v40) (((cfg1.win 5).blk t).view.emb (ix2 p' q))
  rw [hemb]
  exact ginTail_at _ _ _ _ _ _ _ _ _ q (fun k => row1_0 V c t p' k hp) (fun k => row1_1 V c t p' k hp)

/-- An index of the result array is in point `t`'s block iff each coordinate is in the block's range on its axis. -/
theorem mem_blk1 (t : Fin cfg1.N) (i : S400000x80.Idx) :
    i ∈ ((cfg1.win 5).blk t).view.set ↔ ∀ a : Fin 2, win1_5.index t a * S10000x80.size a ≤ (i a).val ∧ (i a).val < win1_5.index t a * S10000x80.size a + S10000x80.size a := by
  show i ∈ ((View.whole main_v41).slice (win1_5.rect t)).set ↔ _
  rw [View.set_slice_whole, Rect.mem_set_unit]
  exact Iff.rfl

/-- Row `r` is in the block of point `r / 10000`. -/
theorem cover1 (i : S400000x80.Idx) : ∃ t : Fin cfg1.N, (cfg1.win 5).flush t = true ∧ i ∈ ((cfg1.win 5).blk t).view.set := by
  have hi0 : (i 0).val < 400000 := idx2_lt0 i
  have hi1 : (i 1).val < 80 := idx2_lt1 i
  have hN : grid1.N = 40 := N_1
  let t : Fin cfg1.N := ⟨(i 0).val / 10000, by show _ < grid1.N; omega⟩
  obtain ⟨-, -, -, -, -, -, -, -, -, -, e10, e11⟩ := idx_facts1 t
  have ht : t.val = (i 0).val / 10000 := rfl
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 80 ≤ (i 1).val ∧ (i 1).val < win1_5.index t (1 : Fin 2) * 80 + 80; omega

/-- After the region the result array is the layer's tail of the input arrays as the region found them. -/
theorem final1 (c : Dev nD) : (dat1 V c).arrAt 5 cfg1.N
    = ginTail (V c main_v16) (V c main_v38) (V c main_arg3) (V c main_v39) (V c main_v40) :=
  (dat1 V c).arrAt_eq_of_cover 5 _ (fun t _ => flushed1_eq V c t) cover1

end Cert.KernelIdeal.Val

end
-- ==== Proof.Reg2.lean ====
/-
  Region 2 of the kernel program (the second edge-message pass) as one whole-array function.

  The region runs over 200 blocks of 10000 edge rows. At block `t` the body reads rows 10000 t … 10000 t + 9999 of the
  gathered source rows and of the edge rows and writes back the same rows of the result: `max (h + e, 0)` entry by entry.
  The blocks tile the 2000000 rows, so after the region the result array is `edgeMsg` of the two whole input arrays as the
  region found them.
-/
import proofs.«150507_j36661840838787_2_alg».proof.Proof.Gen.KernelIdeal.Frame
import Idealize.ShloMosaic.Lib.Pipeline.Value
import proofs.«150507_j36661840838787_2_alg».proof.Proof.Layers
import proofs.«150507_j36661840838787_2_alg».proof.Proof.Reg0

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Dense Cert.LayerForms Cert.Layers

variable (V : (c : Dev nD) → (b : Ref sig .tc) → Buf (Elt Ideal) ((c : Thread nD τ).loc b))

/-- The body's stored value is the message of its two loaded blocks. -/
theorem pay2_eq (x0 x1 : Vec Ideal S10000x80 .f32) : k2_pay1 x0 x1 = edgeMsg x0 x1 := by
  unfold k2_pay1
  dsimp only
  rw [shapeCast_self, shapeCast_self, vecRelu]
  rfl

/-- The three windows move together: block `t` is rows `10000 t …`, all 80 columns. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- A block of an input window, read at an index of the block, is the window's array at the embedded index. -/
theorem iblk2_0 (c : Dev nD) (t : Fin cfg2.N) (y : S10000x80.Idx) :
    iblk2 V c 0 t y = (V c main_v48 : S2000000x80.Idx → EReal) (((cfg2.win 0).blk t).view.emb y) := rfl
theorem iblk2_1 (c : Dev nD) (t : Fin cfg2.N) (y : S10000x80.Idx) :
    iblk2 V c 1 t y = (V c main_v23 : S2000000x80.Idx → EReal) (((cfg2.win 1).blk t).view.emb y) := rfl

/-- What point `t` writes back is block `t` of the message of the two input arrays. -/
theorem flushed2_eq (c : Dev nD) (t : Fin cfg2.N) :
    (dat2 V c).flushed 2 t = ((cfg2.win 2).blk t).view.read (Elt Ideal) (edgeMsg (V c main_v48) (V c main_v23)) := by
  show (cfg2.win 2).cut (grid2.coords t) ((dat2 V c).after 2 t) = _
  rw [after2_2]
  unfold out2_2
  rw [View.canon_unit_zero hz2]
  simp only [View.ld_unit_zero (S := S10000x80) hz2]
  rw [pay2_eq]
  obtain ⟨e0, e1, e2, e3, e4, e5⟩ := idx_facts2 t
  funext j
  show edgeMsg (iblk2 V c 0 t) (iblk2 V c 1 t) j = edgeMsg (V c main_v48) (V c main_v23) (((cfg2.win 2).blk t).view.emb j)
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 80 + 1 * (j 1).val = win2_2.index t (1 : Fin 2) * 80 + 1 * (j 1).val; omega
  have h1 : ((cfg2.win 1).blk t).view.emb j = ((cfg2.win 2).blk t).view.emb j := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 80 + 1 * (j 1).val = win2_2.index t (1 : Fin 2) * 80 + 1 * (j 1).val; omega
  rw [edgeMsg_apply, edgeMsg_apply, iblk2_0, iblk2_1, h0, h1]

/-- An index of the result array is in point `t`'s block iff each coordinate is in the block's range on its axis. -/
theorem mem_blk2 (t : Fin cfg2.N) (i : S2000000x80.Idx) :
    i ∈ ((cfg2.win 2).blk t).view.set ↔ ∀ a : Fin 2, win2_2.index t a * S10000x80.size a ≤ (i a).val ∧ (i a).val < win2_2.index t a * S10000x80.size a + S10000x80.size a := by
  show i ∈ ((View.whole main_v49).slice (win2_2.rect t)).set ↔ _
  rw [View.set_slice_whole, Rect.mem_set_unit]
  exact Iff.rfl

/-- Row `r` is in the block of point `r / 10000`. -/
theorem cover2 (i : S2000000x80.Idx) : ∃ t : Fin cfg2.N, (cfg2.win 2).flush t = true ∧ i ∈ ((cfg2.win 2).blk t).view.set := by
  have hi0 : (i 0).val < 2000000 := idx2_lt0 i
  have hi1 : (i 1).val < 80 := idx2_lt1 i
  have hN : grid2.N = 200 := N_2
  let t : Fin cfg2.N := ⟨(i 0).val / 10000, by show _ < grid2.N; omega⟩
  obtain ⟨e0, e1, e2, e3, e4, e5⟩ := idx_facts2 t
  have ht : t.val = (i 0).val / 10000 := rfl
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 80 ≤ (i 1).val ∧ (i 1).val < win2_2.index t (1 : Fin 2) * 80 + 80; omega

/-- After region 2 the result array is the message of the two input arrays as the region found them. -/
theorem final2 (c : Dev nD) : (dat2 V c).arrAt 2 cfg2.N = edgeMsg (V c main_v48) (V c main_v23) :=
  (dat2 V c).arrAt_eq_of_cover 2 _ (fun t _ => flushed2_eq V c t) cover2

end Cert.KernelIdeal.Val

end
-- ==== Proof.Reg3.lean ====
/-
  Region 3 of the kernel program (the second layer's tail) as one whole-array function.

  The region runs over 40 blocks of 10000 node rows. At block `t` the body reads rows 10000 t … 10000 t + 9999 of the layer's
  input and of the aggregated messages, the whole 80×80 weight and the two one-row arrays, and writes back the same rows of
  `max (g · ((h + agg) W) + b, 0) + h`. A row of that result depends on the same row of `h` and `agg` only, so block `t` of
  the result is block `t` of the tail of the WHOLE arrays; the blocks tile the 400000 rows.
-/
import proofs.«150507_j36661840838787_2_alg».proof.Proof.Gen.KernelIdeal.Frame
import Idealize.ShloMosaic.Lib.Pipeline.Value
import proofs.«150507_j36661840838787_2_alg».proof.Proof.Layers
import proofs.«150507_j36661840838787_2_alg».proof.Proof.Reg0

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Dense Cert.LayerForms Cert.Layers

variable (V : (c : Dev nD) → (b : Ref sig .tc) → Buf (Elt Ideal) ((c : Thread nD τ).loc b))

/-- The body's stored value is the layer's tail of its five loaded blocks. -/
theorem pay3_eq (v0 v2 : Vec Ideal S10000x80 .f32) (v6 : Vec Ideal S80x80 .f32) (v9 v11 : Vec Ideal S1x80 .f32) :
    k3_pay1 v0 v2 v6 v9 v11 = ginTail v0 v2 v6 v9 v11 := by
  unfold k3_pay1
  dsimp only
  simp only [shapeCast_self]
  rw [matmul_zero_eq_mm _ rfl rfl rfl rfl rfl rfl, vecScaleCols, Cert.BiasRow.vecAddRow, vecRelu]
  rfl

/-- The row-blocked windows (input rows, aggregate, result) move together, block `t` being rows `10000 t …`; the weight and
    the two one-row arrays are read whole at every point. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem t_lt3 (t : Fin cfg3.N) : t.val < 40 := lt_of_lt_of_eq t.isLt N_3

/-- The weight's block is the whole weight. -/
theorem whole3_2 (c : Dev nD) (t : Fin cfg3.N) : iblk3 V c 2 t = (V c main_arg6 : S80x80.Idx → EReal) := by
  obtain ⟨-, -, -, -, e4, e5, -⟩ := idx_facts3 t
  funext y
  show (V c main_arg6 : S80x80.Idx → EReal) (((cfg3.win 2).blk t).view.emb y) = _
  refine congrArg _ ?_
  funext a; apply Fin.ext
  match a with
  | ⟨0, _⟩ => show win3_2.index t (0 : Fin 2) * 80 + 1 * (y 0).val = (y 0).val; omega
  | ⟨1, _⟩ => show win3_2.index t (1 : Fin 2) * 80 + 1 * (y 1).val = (y 1).val; omega

/-- The scale row's block is the whole row. -/
theorem whole3_3 (c : Dev nD) (t : Fin cfg3.N) : iblk3 V c 3 t = (V c main_v53 : S1x80.Idx → EReal) := by
  obtain ⟨-, -, -, -, -, -, e6, e7, -⟩ := idx_facts3 t
  funext y
  show (V c main_v53 : S1x80.Idx → EReal) (((cfg3.win 3).blk t).view.emb y) = _
  refine congrArg _ ?_
  funext a; apply Fin.ext
  match a with
  | ⟨0, _⟩ => show win3_3.index t (0 : Fin 2) * 1 + 1 * (y 0).val = (y 0).val; omega
  | ⟨1, _⟩ => show win3_3.index t (1 : Fin 2) * 80 + 1 * (y 1).val = (y 1).val; omega

/-- The shift row's block is the whole row. -/
theorem whole3_4 (c : Dev nD) (t : Fin cfg3.N) : iblk3 V c 4 t = (V c main_v54 : S1x80.Idx → EReal) := by
  obtain ⟨-, -, -, -, -, -, -, -, e8, e9, -⟩ := idx_facts3 t
  funext y
  show (V c main_v54 : S1x80.Idx → EReal) (((cfg3.win 4).blk t).view.emb y) = _
  refine congrArg _ ?_
  funext a; apply Fin.ext
  match a with
  | ⟨0, _⟩ => show win3_4.index t (0 : Fin 2) * 1 + 1 * (y 0).val = (y 0).val; omega
  | ⟨1, _⟩ => show win3_4.index t (1 : Fin 2) * 80 + 1 * (y 1).val = (y 1).val; omega

/-- Row `p'` of block `t` of the layer's input is row `10000 t + p'` of the array. -/
theorem row3_0 (c : Dev nD) (t : Fin cfg3.N) (p' : Fin 10000) (k : Fin 80) (hp : t.val * 10000 + p'.val < 400000) :
    iblk3 V c 0 t (ix2 p' k) = (V c main_v41 : S400000x80.Idx → EReal) (ix2 (⟨t.val * 10000 + p'.val, hp⟩ : Fin 400000) k) := by
  obtain ⟨e0, e1, -⟩ := idx_facts3 t
  show (V c main_v41 : S400000x80.Idx → EReal) (((cfg3.win 0).blk t).view.emb (ix2 p' k)) = _
  refine congrArg _ ?_
  funext a; apply Fin.ext
  match a with
  | ⟨0, _⟩ => show win3_0.index t (0 : Fin 2) * 10000 + 1 * p'.val = t.val * 10000 + p'.val; omega
  | ⟨1, _⟩ => show win3_0.index t (1 : Fin 2) * 80 + 1 * k.val = k.val; omega

/-- The same for the aggregate. -/
theorem row3_1 (c : Dev nD) (t : Fin cfg3.N) (p' : Fin 10000) (k : Fin 80) (hp : t.val * 10000 + p'.val < 400000) :
    iblk3 V c 1 t (ix2 p' k) = (V c main_v52 : S400000x80.Idx → EReal) (ix2 (⟨t.val * 10000 + p'.val, hp⟩ : Fin 400000) k) := by
  obtain ⟨-, -, e2, e3, -⟩ := idx_facts3 t
  show (V c main_v52 : S400000x80.Idx → EReal) (((cfg3.win 1).blk t).view.emb (ix2 p' k)) = _
  refine congrArg _ ?_
  funext a; apply Fin.ext
  match a with
  | ⟨0, _⟩ => show win3_1.index t (0 : Fin 2) * 10000 + 1 * p'.val = t.val * 10000 + p'.val; omega
  | ⟨1, _⟩ => show win3_1.index t (1 : Fin 2) * 80 + 1 * k.val = k.val; omega

/-- What point `t` writes back is block `t` of the layer's tail of the whole arrays. -/
theorem flushed3_eq (c : Dev nD) (t : Fin cfg3.N) :
    (dat3 V c).flushed 5 t = ((cfg3.win 5).blk t).view.read (Elt Ideal)
      (ginTail (V c main_v41) (V c main_v52) (V c main_arg6) (V c main_v53) (V c main_v54)) := by
  show (cfg3.win 5).cut (grid3.coords t) ((dat3 V c).after 5 t) = _
  rw [after3_5]
  unfold out3_5
  rw [View.canon_unit_zero hz2]
  simp only [View.ld_unit_zero (S := S10000x80) hz2, View.ld_unit_zero (S := S80x80) hz2, View.ld_unit_zero (S := S1x80) hz2]
  rw [pay3_eq, whole3_2, whole3_3, whole3_4]
  have ht := t_lt3 t
  obtain ⟨-, -, -, -, -, -, -, -, -, -, e10, e11⟩ := idx_facts3 t
  funext j
  obtain ⟨p', q, rfl⟩ : ∃ (p' : Fin 10000) (q : Fin 80), j = ix2 p' q := ⟨j 0, j 1, eq_ix2 j⟩
  have hp : t.val * 10000 + p'.val < 400000 := by have := p'.isLt; omega
  have hemb : ((cfg3.win 5).blk t).view.emb (ix2 p' q) = ix2 (⟨t.val * 10000 + p'.val, hp⟩ : Fin 400000) q := by
    funext a; apply Fin.ext
    match a with
    | ⟨0, _⟩ => show win3_5.index t (0 : Fin 2) * 10000 + 1 * p'.val = t.val * 10000 + p'.val; omega
    | ⟨1, _⟩ => show win3_5.index t (1 : Fin 2) * 80 + 1 * q.val = q.val; omega
  show ginTail (iblk3 V c 0 t) (iblk3 V c 1 t) (V c main_arg6) (V c main_v53) (V c main_v54) (ix2 p' q)
    = ginTail (V c main_v41) (V c main_v52) (V c main_arg6) (V c main_v53) (V c main_v54) (((cfg3.win 5).blk t).view.emb (ix2 p' q))
  rw [hemb]
  exact ginTail_at _ _ _ _ _ _ _ _ _ q (fun k => row3_0 V c t p' k hp) (fun k => row3_1 V c t p' k hp)

/-- An index of the result array is in point `t`'s block iff each coordinate is in the block's range on its axis. -/
theorem mem_blk3 (t : Fin cfg3.N) (i : S400000x80.Idx) :
    i ∈ ((cfg3.win 5).blk t).view.set ↔ ∀ a : Fin 2, win3_5.index t a * S10000x80.size a ≤ (i a).val ∧ (i a).val < win3_5.index t a * S10000x80.size a + S10000x80.size a := by
  show i ∈ ((View.whole main_v55).slice (win3_5.rect t)).set ↔ _
  rw [View.set_slice_whole, Rect.mem_set_unit]
  exact Iff.rfl

/-- Row `r` is in the block of point `r / 10000`. -/
theorem cover3 (i : S400000x80.Idx) : ∃ t : Fin cfg3.N, (cfg3.win 5).flush t = true ∧ i ∈ ((cfg3.win 5).blk t).view.set := by
  have hi0 : (i 0).val < 400000 := idx2_lt0 i
  have hi1 : (i 1).val < 80 := idx2_lt1 i
  have hN : grid3.N = 40 := N_3
  let t : Fin cfg3.N := ⟨(i 0).val / 10000, by show _ < grid3.N; omega⟩
  obtain ⟨-, -, -, -, -, -, -, -, -, -, e10, e11⟩ := idx_facts3 t
  have ht : t.val = (i 0).val / 10000 := rfl
  refine ⟨t, flush3_5 t, ?_⟩
  rw [mem_blk3]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 80 ≤ (i 1).val ∧ (i 1).val < win3_5.index t (1 : Fin 2) * 80 + 80; omega

/-- After the region the result array is the layer's tail of the input arrays as the region found them. -/
theorem final3 (c : Dev nD) : (dat3 V c).arrAt 5 cfg3.N
    = ginTail (V c main_v41) (V c main_v52) (V c main_arg6) (V c main_v53) (V c main_v54) :=
  (dat3 V c).arrAt_eq_of_cover 5 _ (fun t _ => flushed3_eq V c t) cover3

end Cert.KernelIdeal.Val

end
-- ==== Proof.KValue.lean ====
/-
  The idealized kernel program's buffers, boundary by boundary, are the reference's stages.

  The kernel program alternates stretches of host operations with pipelined regions. Its host operations are the
  reference's own gathers, segment sums and layout operations, applied to the same operands; each region computes one of the
  reference's dense stages (Reg0 … Reg3, RefSide). So, walking from the launch memory forward, every buffer a later
  segment reads holds the corresponding stage of the reference, as a function of the argument arrays: a host product by
  reading the stretch's fold at its buffer, a region's output by the region's whole-array form, and a buffer that the
  segments in between do not write by carrying it unchanged across them. This module walks up to the entry of region 4.
-/
import proofs.«150507_j36661840838787_2_alg».proof.Proof.Gen.KernelIdeal.Frame
import proofs.«150507_j36661840838787_2_alg».proof.Proof.Gen.ReferenceIdeal.Read
import proofs.«150507_j36661840838787_2_alg».proof.Proof.Layers
import proofs.«150507_j36661840838787_2_alg».proof.Proof.RefSide
import proofs.«150507_j36661840838787_2_alg».proof.Proof.HostKeep
import proofs.«150507_j36661840838787_2_alg».proof.Proof.Reg0
import proofs.«150507_j36661840838787_2_alg».proof.Proof.Reg1
import proofs.«150507_j36661840838787_2_alg».proof.Proof.Reg2
import proofs.«150507_j36661840838787_2_alg».proof.Proof.Reg3

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo
open Idealize.SL Idealize.SL.Sem
open Cert.Dense Cert.LayerForms Cert.Layers Cert.ReferenceIdeal.RefValue

variable (m : (ℓ : Loc nD τ sig) → Buf (Elt Ideal) ℓ) (ρ : Dev nD → PrngReg) (c : Dev nD)

/-! ## The host stretch before region 0 -/

theorem k1_v8 : W1 m ρ c (Proc.devRef .tc main_v8) = Cert.ReferenceIdeal.Read.val_main_v8 (F := Ideal) (m ((c : Thread nD τ).loc main_arg2)) (m ((c : Thread nD τ).loc main_arg33)) := by
  show StableHlo.after hostOps0 (W0 m ρ c) (Proc.devRef .tc _) = _
  after_results_simp
  rfl
theorem k1_v16 : W1 m ρ c (Proc.devRef .tc main_v16) = Cert.ReferenceIdeal.Read.val_main_v16 (F := Ideal) (m ((c : Thread nD τ).loc main_arg0)) (m ((c : Thread nD τ).loc main_arg2)) (m ((c : Thread nD τ).loc main_arg29)) (m ((c : Thread nD τ).loc main_arg33)) := by
  show StableHlo.after hostOps0 (W0 m ρ c) (Proc.devRef .tc _) = _
  after_results_simp
  rfl
theorem k1_v23 : W1 m ρ c (Proc.devRef .tc main_v23) = Cert.ReferenceIdeal.Read.val_main_v23 (F := Ideal) (m ((c : Thread nD τ).loc main_arg1)) (m ((c : Thread nD τ).loc main_arg30)) := by
  show StableHlo.after hostOps0 (W0 m ρ c) (Proc.devRef .tc _) = _
  after_results_simp
  rfl
theorem k1_v25 : W1 m ρ c (Proc.devRef .tc main_v25) = Cert.ReferenceIdeal.Read.val_main_v25 (F := Ideal) (m ((c : Thread nD τ).loc main_arg31)) := by
  show StableHlo.after hostOps0 (W0 m ρ c) (Proc.devRef .tc _) = _
  after_results_simp
  rfl
theorem k1_v27 : W1 m ρ c (Proc.devRef .tc main_v27) = Cert.ReferenceIdeal.Read.val_main_v27 (F := Ideal) (m ((c : Thread nD τ).loc main_arg31)) := by
  show StableHlo.after hostOps0 (W0 m ρ c) (Proc.devRef .tc _) = _
  after_results_simp
  rfl
theorem k1_v34 : W1 m ρ c (Proc.devRef .tc main_v34) = Cert.ReferenceIdeal.Read.val_main_v34 (F := Ideal) (m ((c : Thread nD τ).loc main_arg0)) (m ((c : Thread nD τ).loc main_arg2)) (m ((c : Thread nD τ).loc main_arg29)) (m ((c : Thread nD τ).loc main_arg31)) (m ((c : Thread nD τ).loc main_arg33)) := by
  show StableHlo.after hostOps0 (W0 m ρ c) (Proc.devRef .tc _) = _
  after_results_simp
  rfl

/-! ## Region 0: the first message pass -/

theorem k2_v35 : W2 m ρ c (Proc.devRef .tc main_v35) = Cert.ReferenceIdeal.Read.val_main_v36 (F := Ideal) (m ((c : Thread nD τ).loc main_arg0)) (m ((c : Thread nD τ).loc main_arg1)) (m ((c : Thread nD τ).loc main_arg2)) (m ((c : Thread nD τ).loc main_arg29)) (m ((c : Thread nD τ).loc main_arg30)) (m ((c : Thread nD τ).loc main_arg31)) (m ((c : Thread nD τ).loc main_arg33)) := by
  refine (W2_arr m ρ c 2).trans ((final0 (V1 m ρ) c).trans ?_)
  rw [ref_msg1]
  show edgeMsg (W1 m ρ c (Proc.devRef .tc main_v34)) (W1 m ρ c (Proc.devRef .tc main_v23)) = _
  rw [k1_v34, k1_v23]

theorem c2_v27 : W2 m ρ c (Proc.devRef .tc main_v27) = Cert.ReferenceIdeal.Read.val_main_v27 (F := Ideal) (m ((c : Thread nD τ).loc main_arg31)) :=
  Eq.trans (W2_of_ne m ρ c main_v27 (by decide)) (k1_v27 m ρ c)
theorem a2_4 : W2 m ρ c (Proc.devRef .tc main_arg4) = (m ((c : Thread nD τ).loc main_arg4)) :=
  Eq.trans (W2_of_ne m ρ c main_arg4 (by decide)) (Eq.trans (by hk) (show W0 m ρ c (Proc.devRef .tc main_arg4) = (m ((c : Thread nD τ).loc main_arg4)) from rfl))
theorem a2_5 : W2 m ρ c (Proc.devRef .tc main_arg5) = (m ((c : Thread nD τ).loc main_arg5)) :=
  Eq.trans (W2_of_ne m ρ c main_arg5 (by decide)) (Eq.trans (by hk) (show W0 m ρ c (Proc.devRef .tc main_arg5) = (m ((c : Thread nD τ).loc main_arg5)) from rfl))

/-! ## The host stretch before region 1: the first aggregation -/

theorem k3_v38 : W3 m ρ c (Proc.devRef .tc main_v38) = Cert.ReferenceIdeal.Read.val_main_v39 (F := Ideal) (m ((c : Thread nD τ).loc main_arg0)) (m ((c : Thread nD τ).loc main_arg1)) (m ((c : Thread nD τ).loc main_arg2)) (m ((c : Thread nD τ).loc main_arg29)) (m ((c : Thread nD τ).loc main_arg30)) (m ((c : Thread nD τ).loc main_arg31)) (m ((c : Thread nD τ).loc main_arg33)) := by
  show StableHlo.after hostOps1 (W2 m ρ c) (Proc.devRef .tc _) = _
  after_results_simp
  rw [c2_v27, k2_v35]
  rfl
theorem k3_v39 : W3 m ρ c (Proc.devRef .tc main_v39) = row (m ((c : Thread nD τ).loc main_arg4)) := by
  show StableHlo.after hostOps1 (W2 m ρ c) (Proc.devRef .tc _) = _
  after_results_simp
  rw [a2_4]
  exact shapeCast_row _ _
theorem k3_v40 : W3 m ρ c (Proc.devRef .tc main_v40) = row (m ((c : Thread nD τ).loc main_arg5)) := by
  show StableHlo.after hostOps1 (W2 m ρ c) (Proc.devRef .tc _) = _
  after_results_simp
  rw [a2_5]
  exact shapeCast_row _ _
theorem c3_v16 : W3 m ρ c (Proc.devRef .tc main_v16) = Cert.ReferenceIdeal.Read.val_main_v16 (F := Ideal) (m ((c : Thread nD τ).loc main_arg0)) (m ((c : Thread nD τ).loc main_arg2)) (m ((c : Thread nD τ).loc main_arg29)) (m ((c : Thread nD τ).loc main_arg33)) :=
  Eq.trans (by hk) (Eq.trans (W2_of_ne m ρ c main_v16 (by decide)) (k1_v16 m ρ c))
theorem a3_3 : W3 m ρ c (Proc.devRef .tc main_arg3) = (m ((c : Thread nD τ).loc main_arg3)) :=
  Eq.trans (by hk) (Eq.trans (W2_of_ne m ρ c main_arg3 (by decide)) (Eq.trans (by hk) (show W0 m ρ c (Proc.devRef .tc main_arg3) = (m ((c : Thread nD τ).loc main_arg3)) from rfl)))

/-! ## Region 1: the first layer's tail -/

theorem k4_v41 : W4 m ρ c (Proc.devRef .tc main_v41) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg29)) (m ((c : Thread nD τ).loc main_arg30)) (m ((c : Thread nD τ).loc main_arg31)) (m ((c : Thread nD τ).loc main_arg33)) := by
  refine (W4_arr m ρ c 5).trans ((final1 (V3 m ρ) c).trans ?_)
  rw [ref_h1]
  show ginTail (W3 m ρ c (Proc.devRef .tc main_v16)) (W3 m ρ c (Proc.devRef .tc main_v38)) (W3 m ρ c (Proc.devRef .tc main_arg3)) (W3 m ρ c (Proc.devRef .tc main_v39)) (W3 m ρ c (Proc.devRef .tc main_v40)) = _
  rw [c3_v16, k3_v38, a3_3, k3_v39, k3_v40]

theorem c4_v25 : W4 m ρ c (Proc.devRef .tc main_v25) = Cert.ReferenceIdeal.Read.val_main_v25 (F := Ideal) (m ((c : Thread nD τ).loc main_arg31)) :=
  Eq.trans (W4_of_ne m ρ c main_v25 (by decide)) (Eq.trans (by hk) (Eq.trans (W2_of_ne m ρ c main_v25 (by decide)) (k1_v25 m ρ c)))

/-! ## The host stretch before region 2: the second gather -/

theorem k5_v48 : W5 m ρ c (Proc.devRef .tc main_v48) = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg29)) (m ((c : Thread nD τ).loc main_arg30)) (m ((c : Thread nD τ).loc main_arg31)) (m ((c : Thread nD τ).loc main_arg33)) := by
  show StableHlo.after hostOps2 (W4 m ρ c) (Proc.devRef .tc _) = _
  after_results_simp
  rw [c4_v25, k4_v41]
  rfl
theorem c2_v23 : W2 m ρ c (Proc.devRef .tc main_v23) = Cert.ReferenceIdeal.Read.val_main_v23 (F := Ideal) (m ((c : Thread nD τ).loc main_arg1)) (m ((c : Thread nD τ).loc main_arg30)) :=
  (W2_arr m ρ c 1).trans (((dat0 (V1 m ρ) c).arrAt_in 1 rfl _).trans ((A_eq0 (V1 m ρ) c 1).trans (k1_v23 m ρ c)))
theorem c5_v23 : W5 m ρ c (Proc.devRef .tc main_v23) = Cert.ReferenceIdeal.Read.val_main_v23 (F := Ideal) (m ((c : Thread nD τ).loc main_arg1)) (m ((c : Thread nD τ).loc main_arg30)) :=
  Eq.trans (by hk) (Eq.trans (W4_of_ne m ρ c main_v23 (by decide)) (Eq.trans (by hk) (c2_v23 m ρ c)))

/-! ## Region 2: the second message pass -/

theorem k6_v49 : W6 m ρ c (Proc.devRef .tc main_v49) = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg29)) (m ((c : Thread nD τ).loc main_arg30)) (m ((c : Thread nD τ).loc main_arg31)) (m ((c : Thread nD τ).loc main_arg33)) := by
  refine (W6_arr m ρ c 2).trans ((final2 (V5 m ρ) c).trans ?_)
  rw [ref_msg2]
  show edgeMsg (W5 m ρ c (Proc.devRef .tc main_v48)) (W5 m ρ c (Proc.devRef .tc main_v23)) = _
  rw [k5_v48, c5_v23]

theorem c6_v27 : W6 m ρ c (Proc.devRef .tc main_v27) = Cert.ReferenceIdeal.Read.val_main_v27 (F := Ideal) (m ((c : Thread nD τ).loc main_arg31)) :=
  Eq.trans (W6_of_ne m ρ c main_v27 (by decide)) (Eq.trans (by hk) (Eq.trans (W4_of_ne m ρ c main_v27 (by decide)) (Eq.trans (by hk) (c2_v27 m ρ c))))
theorem a6_7 : W6 m ρ c (Proc.devRef .tc main_arg7) = (m ((c : Thread nD τ).loc main_arg7)) :=
  Eq.trans (W6_of_ne m ρ c main_arg7 (by decide)) (Eq.trans (by hk) (Eq.trans (W4_of_ne m ρ c main_arg7 (by decide)) (Eq.trans (by hk) (Eq.trans (W2_of_ne m ρ c main_arg7 (by decide)) (Eq.trans (by hk) (show W0 m ρ c (Proc.devRef .tc main_arg7) = (m ((c : Thread nD τ).loc main_arg7)) from rfl))))))
theorem a6_8 : W6 m ρ c (Proc.devRef .tc main_arg8) = (m ((c : Thread nD τ).loc main_arg8)) :=
  Eq.trans (W6_of_ne m ρ c main_arg8 (by decide)) (Eq.trans (by hk) (Eq.trans (W4_of_ne m ρ c main_arg8 (by decide)) (Eq.trans (by hk) (Eq.trans (W2_of_ne m ρ c main_arg8 (by decide)) (Eq.trans (by hk) (show W0 m ρ c (Proc.devRef .tc main_arg8) = (m ((c : Thread nD τ).loc main_arg8)) from rfl))))))

/-! ## The host stretch before region 3: the second aggregation -/

theorem k7_v52 : W7 m ρ c (Proc.devRef .tc main_v52) = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg29)) (m ((c : Thread nD τ).loc main_arg30)) (m ((c : Thread nD τ).loc main_arg31)) (m ((c : Thread nD τ).loc main_arg33)) := by
  show StableHlo.after hostOps3 (W6 m ρ c) (Proc.devRef .tc _) = _
  after_results_simp
  rw [c6_v27, k6_v49]
  rfl
theorem k7_v53 : W7 m ρ c (Proc.devRef .tc main_v53) = row (m ((c : Thread nD τ).loc main_arg7)) := by
  show StableHlo.after hostOps3 (W6 m ρ c) (Proc.devRef .tc _) = _
  after_results_simp
  rw [a6_7]
  exact shapeCast_row _ _
theorem k7_v54 : W7 m ρ c (Proc.devRef .tc main_v54) = row (m ((c : Thread nD τ).loc main_arg8)) := by
  show StableHlo.after hostOps3 (W6 m ρ c) (Proc.devRef .tc _) = _
  after_results_simp
  rw [a6_8]
  exact shapeCast_row _ _
theorem c7_v41 : W7 m ρ c (Proc.devRef .tc main_v41) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg29)) (m ((c : Thread nD τ).loc main_arg30)) (m ((c : Thread nD τ).loc main_arg31)) (m ((c : Thread nD τ).loc main_arg33)) :=
  Eq.trans (by hk) (Eq.trans (W6_of_ne m ρ c main_v41 (by decide)) (Eq.trans (by hk) (k4_v41 m ρ c)))
theorem a7_6 : W7 m ρ c (Proc.devRef .tc main_arg6) = (m ((c : Thread nD τ).loc main_arg6)) :=
  Eq.trans (by hk) (Eq.trans (W6_of_ne m ρ c main_arg6 (by decide)) (Eq.trans (by hk) (Eq.trans (W4_of_ne m ρ c main_arg6 (by decide)) (Eq.trans (by hk) (Eq.trans (W2_of_ne m ρ c main_arg6 (by decide)) (Eq.trans (by hk) (show W0 m ρ c (Proc.devRef .tc main_arg6) = (m ((c : Thread nD τ).loc main_arg6)) from rfl)))))))

/-! ## Region 3: the second layer's tail -/

theorem k8_v55 : W8 m ρ c (Proc.devRef .tc main_v55) = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg29)) (m ((c : Thread nD τ).loc main_arg30)) (m ((c : Thread nD τ).loc main_arg31)) (m ((c : Thread nD τ).loc main_arg33)) := by
  refine (W8_arr m ρ c 5).trans ((final3 (V7 m ρ) c).trans ?_)
  rw [ref_h2]
  show ginTail (W7 m ρ c (Proc.devRef .tc main_v41)) (W7 m ρ c (Proc.devRef .tc main_v52)) (W7 m ρ c (Proc.devRef .tc main_arg6)) (W7 m ρ c (Proc.devRef .tc main_v53)) (W7 m ρ c (Proc.devRef .tc main_v54)) = _
  rw [c7_v41, k7_v52, a7_6, k7_v53, k7_v54]

/-! ## The host stretch before region 4: the mask column and the one-row arrays -/

theorem a8_29 : W8 m ρ c (Proc.devRef .tc main_arg29) = (m ((c : Thread nD τ).loc main_arg29)) :=
  Eq.trans (W8_of_ne m ρ c main_arg29 (by decide)) (Eq.trans (by hk) (Eq.trans (W6_of_ne m ρ c main_arg29 (by decide)) (Eq.trans (by hk) (Eq.trans (W4_of_ne m ρ c main_arg29 (by decide)) (Eq.trans (by hk) (Eq.trans (W2_of_ne m ρ c main_arg29 (by decide)) (Eq.trans (by hk) (show W0 m ρ c (Proc.devRef .tc main_arg29) = (m ((c : Thread nD τ).loc main_arg29)) from rfl))))))))
theorem a8_32 : W8 m ρ c (Proc.devRef .tc main_arg32) = (m ((c : Thread nD τ).loc main_arg32)) :=
  Eq.trans (W8_of_ne m ρ c main_arg32 (by decide)) (Eq.trans (by hk) (Eq.trans (W6_of_ne m ρ c main_arg32 (by decide)) (Eq.trans (by hk) (Eq.trans (W4_of_ne m ρ c main_arg32 (by decide)) (Eq.trans (by hk) (Eq.trans (W2_of_ne m ρ c main_arg32 (by decide)) (Eq.trans (by hk) (show W0 m ρ c (Proc.devRef .tc main_arg32) = (m ((c : Thread nD τ).loc main_arg32)) from rfl))))))))
theorem a8_10 : W8 m ρ c (Proc.devRef .tc main_arg10) = (m ((c : Thread nD τ).loc main_arg10)) :=
  Eq.trans (W8_of_ne m ρ c main_arg10 (by decide)) (Eq.trans (by hk) (Eq.trans (W6_of_ne m ρ c main_arg10 (by decide)) (Eq.trans (by hk) (Eq.trans (W4_of_ne m ρ c main_arg10 (by decide)) (Eq.trans (by hk) (Eq.trans (W2_of_ne m ρ c main_arg10 (by decide)) (Eq.trans (by hk) (show W0 m ρ c (Proc.devRef .tc main_arg10) = (m ((c : Thread nD τ).loc main_arg10)) from rfl))))))))
theorem a8_20 : W8 m ρ c (Proc.devRef .tc main_arg20) = (m ((c : Thread nD τ).loc main_arg20)) :=
  Eq.trans (W8_of_ne m ρ c main_arg20 (by decide)) (Eq.trans (by hk) (Eq.trans (W6_of_ne m ρ c main_arg20 (by decide)) (Eq.trans (by hk) (Eq.trans (W4_of_ne m ρ c main_arg20 (by decide)) (Eq.trans (by hk) (Eq.trans (W2_of_ne m ρ c main_arg20 (by decide)) (Eq.trans (by hk) (show W0 m ρ c (Proc.devRef .tc main_arg20) = (m ((c : Thread nD τ).loc main_arg20)) from rfl))))))))
theorem a8_22 : W8 m ρ c (Proc.devRef .tc main_arg22) = (m ((c : Thread nD τ).loc main_arg22)) :=
  Eq.trans (W8_of_ne m ρ c main_arg22 (by decide)) (Eq.trans (by hk) (Eq.trans (W6_of_ne m ρ c main_arg22 (by decide)) (Eq.trans (by hk) (Eq.trans (W4_of_ne m ρ c main_arg22 (by decide)) (Eq.trans (by hk) (Eq.trans (W2_of_ne m ρ c main_arg22 (by decide)) (Eq.trans (by hk) (show W0 m ρ c (Proc.devRef .tc main_arg22) = (m ((c : Thread nD τ).loc main_arg22)) from rfl))))))))
theorem a8_24 : W8 m ρ c (Proc.devRef .tc main_arg24) = (m ((c : Thread nD τ).loc main_arg24)) :=
  Eq.trans (W8_of_ne m ρ c main_arg24 (by decide)) (Eq.trans (by hk) (Eq.trans (W6_of_ne m ρ c main_arg24 (by decide)) (Eq.trans (by hk) (Eq.trans (W4_of_ne m ρ c main_arg24 (by decide)) (Eq.trans (by hk) (Eq.trans (W2_of_ne m ρ c main_arg24 (by decide)) (Eq.trans (by hk) (show W0 m ρ c (Proc.devRef .tc main_arg24) = (m ((c : Thread nD τ).loc main_arg24)) from rfl))))))))
theorem a8_12 : W8 m ρ c (Proc.devRef .tc main_arg12) = (m ((c : Thread nD τ).loc main_arg12)) :=
  Eq.trans (W8_of_ne m ρ c main_arg12 (by decide)) (Eq.trans (by hk) (Eq.trans (W6_of_ne m ρ c main_arg12 (by decide)) (Eq.trans (by hk) (Eq.trans (W4_of_ne m ρ c main_arg12 (by decide)) (Eq.trans (by hk) (Eq.trans (W2_of_ne m ρ c main_arg12 (by decide)) (Eq.trans (by hk) (show W0 m ρ c (Proc.devRef .tc main_arg12) = (m ((c : Thread nD τ).loc main_arg12)) from rfl))))))))
theorem a8_13 : W8 m ρ c (Proc.devRef .tc main_arg13) = (m ((c : Thread nD τ).loc main_arg13)) :=
  Eq.trans (W8_of_ne m ρ c main_arg13 (by decide)) (Eq.trans (by hk) (Eq.trans (W6_of_ne m ρ c main_arg13 (by decide)) (Eq.trans (by hk) (Eq.trans (W4_of_ne m ρ c main_arg13 (by decide)) (Eq.trans (by hk) (Eq.trans (W2_of_ne m ρ c main_arg13 (by decide)) (Eq.trans (by hk) (show W0 m ρ c (Proc.devRef .tc main_arg13) = (m ((c : Thread nD τ).loc main_arg13)) from rfl))))))))
theorem a8_14 : W8 m ρ c (Proc.devRef .tc main_arg14) = (m ((c : Thread nD τ).loc main_arg14)) :=
  Eq.trans (W8_of_ne m ρ c main_arg14 (by decide)) (Eq.trans (by hk) (Eq.trans (W6_of_ne m ρ c main_arg14 (by decide)) (Eq.trans (by hk) (Eq.trans (W4_of_ne m ρ c main_arg14 (by decide)) (Eq.trans (by hk) (Eq.trans (W2_of_ne m ρ c main_arg14 (by decide)) (Eq.trans (by hk) (show W0 m ρ c (Proc.devRef .tc main_arg14) = (m ((c : Thread nD τ).loc main_arg14)) from rfl))))))))
theorem a8_16 : W8 m ρ c (Proc.devRef .tc main_arg16) = (m ((c : Thread nD τ).loc main_arg16)) :=
  Eq.trans (W8_of_ne m ρ c main_arg16 (by decide)) (Eq.trans (by hk) (Eq.trans (W6_of_ne m ρ c main_arg16 (by decide)) (Eq.trans (by hk) (Eq.trans (W4_of_ne m ρ c main_arg16 (by decide)) (Eq.trans (by hk) (Eq.trans (W2_of_ne m ρ c main_arg16 (by decide)) (Eq.trans (by hk) (show W0 m ρ c (Proc.devRef .tc main_arg16) = (m ((c : Thread nD τ).loc main_arg16)) from rfl))))))))
theorem a8_17 : W8 m ρ c (Proc.devRef .tc main_arg17) = (m ((c : Thread nD τ).loc main_arg17)) :=
  Eq.trans (W8_of_ne m ρ c main_arg17 (by decide)) (Eq.trans (by hk) (Eq.trans (W6_of_ne m ρ c main_arg17 (by decide)) (Eq.trans (by hk) (Eq.trans (W4_of_ne m ρ c main_arg17 (by decide)) (Eq.trans (by hk) (Eq.trans (W2_of_ne m ρ c main_arg17 (by decide)) (Eq.trans (by hk) (show W0 m ρ c (Proc.devRef .tc main_arg17) = (m ((c : Thread nD τ).loc main_arg17)) from rfl))))))))
theorem a8_18 : W8 m ρ c (Proc.devRef .tc main_arg18) = (m ((c : Thread nD τ).loc main_arg18)) :=
  Eq.trans (W8_of_ne m ρ c main_arg18 (by decide)) (Eq.trans (by hk) (Eq.trans (W6_of_ne m ρ c main_arg18 (by decide)) (Eq.trans (by hk) (Eq.trans (W4_of_ne m ρ c main_arg18 (by decide)) (Eq.trans (by hk) (Eq.trans (W2_of_ne m ρ c main_arg18 (by decide)) (Eq.trans (by hk) (show W0 m ρ c (Proc.devRef .tc main_arg18) = (m ((c : Thread nD τ).loc main_arg18)) from rfl))))))))
theorem k9_v58 : W9 m ρ c (Proc.devRef .tc main_v58) = Cert.ReferenceIdeal.Read.val_main_v108 (F := Ideal) (m ((c : Thread nD τ).loc main_arg29)) (m ((c : Thread nD τ).loc main_arg32)) := by
  show StableHlo.after hostOps4 (W8 m ρ c) (Proc.devRef .tc _) = _
  after_results_simp
  rw [a8_29, a8_32]
  rfl
theorem k9_v59 : W9 m ρ c (Proc.devRef .tc main_v59) = row (m ((c : Thread nD τ).loc main_arg10)) := by
  show StableHlo.after hostOps4 (W8 m ρ c) (Proc.devRef .tc _) = _
  after_results_simp
  rw [a8_10]
  exact shapeCast_row _ _
theorem k9_v60 : W9 m ρ c (Proc.devRef .tc main_v60) = row (m ((c : Thread nD τ).loc main_arg20)) := by
  show StableHlo.after hostOps4 (W8 m ρ c) (Proc.devRef .tc _) = _
  after_results_simp
  rw [a8_20]
  exact shapeCast_row _ _
theorem k9_v61 : W9 m ρ c (Proc.devRef .tc main_v61) = row (m ((c : Thread nD τ).loc main_arg22)) := by
  show StableHlo.after hostOps4 (W8 m ρ c) (Proc.devRef .tc _) = _
  after_results_simp
  rw [a8_22]
  exact shapeCast_row _ _
theorem k9_v62 : W9 m ρ c (Proc.devRef .tc main_v62) = row (m ((c : Thread nD τ).loc main_arg24)) := by
  show StableHlo.after hostOps4 (W8 m ρ c) (Proc.devRef .tc _) = _
  after_results_simp
  rw [a8_24]
  exact shapeCast_row _ _
theorem k9_v63 : W9 m ρ c (Proc.devRef .tc main_v63) = row (m ((c : Thread nD τ).loc main_arg12)) := by
  show StableHlo.after hostOps4 (W8 m ρ c) (Proc.devRef .tc _) = _
  after_results_simp
  rw [a8_12]
  exact shapeCast_row _ _
theorem k9_v64 : W9 m ρ c (Proc.devRef .tc main_v64) = row (m ((c : Thread nD τ).loc main_arg13)) := by
  show StableHlo.after hostOps4 (W8 m ρ c) (Proc.devRef .tc _) = _
  after_results_simp
  rw [a8_13]
  exact shapeCast_row _ _
theorem k9_v65 : W9 m ρ c (Proc.devRef .tc main_v65) = row (m ((c : Thread nD τ).loc main_arg14)) := by
  show StableHlo.after hostOps4 (W8 m ρ c) (Proc.devRef .tc _) = _
  after_results_simp
  rw [a8_14]
  exact shapeCast_row _ _
theorem k9_v66 : W9 m ρ c (Proc.devRef .tc main_v66) = row (m ((c : Thread nD τ).loc main_arg16)) := by
  show StableHlo.after hostOps4 (W8 m ρ c) (Proc.devRef .tc _) = _
  after_results_simp
  rw [a8_16]
  exact shapeCast_row _ _
theorem k9_v67 : W9 m ρ c (Proc.devRef .tc main_v67) = row (m ((c : Thread nD τ).loc main_arg17)) := by
  show StableHlo.after hostOps4 (W8 m ρ c) (Proc.devRef .tc _) = _
  after_results_simp
  rw [a8_17]
  exact shapeCast_row _ _
theorem k9_v68 : W9 m ρ c (Proc.devRef .tc main_v68) = row (m ((c : Thread nD τ).loc main_arg18)) := by
  show StableHlo.after hostOps4 (W8 m ρ c) (Proc.devRef .tc _) = _
  after_results_simp
  rw [a8_18]
  exact shapeCast_row _ _
theorem c9_v55 : W9 m ρ c (Proc.devRef .tc main_v55) = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg29)) (m ((c : Thread nD τ).loc main_arg30)) (m ((c : Thread nD τ).loc main_arg31)) (m ((c : Thread nD τ).loc main_arg33)) :=
  Eq.trans (by hk) (k8_v55 m ρ c)
theorem c9_v8 : W9 m ρ c (Proc.devRef .tc main_v8) = Cert.ReferenceIdeal.Read.val_main_v8 (F := Ideal) (m ((c : Thread nD τ).loc main_arg2)) (m ((c : Thread nD τ).loc main_arg33)) :=
  Eq.trans (by hk) (Eq.trans (W8_of_ne m ρ c main_v8 (by decide)) (Eq.trans (by hk) (Eq.trans (W6_of_ne m ρ c main_v8 (by decide)) (Eq.trans (by hk) (Eq.trans (W4_of_ne m ρ c main_v8 (by decide)) (Eq.trans (by hk) (Eq.trans (W2_of_ne m ρ c main_v8 (by decide)) (k1_v8 m ρ c))))))))
theorem a9_9 : W9 m ρ c (Proc.devRef .tc main_arg9) = (m ((c : Thread nD τ).loc main_arg9)) :=
  Eq.trans (by hk) (Eq.trans (W8_of_ne m ρ c main_arg9 (by decide)) (Eq.trans (by hk) (Eq.trans (W6_of_ne m ρ c main_arg9 (by decide)) (Eq.trans (by hk) (Eq.trans (W4_of_ne m ρ c main_arg9 (by decide)) (Eq.trans (by hk) (Eq.trans (W2_of_ne m ρ c main_arg9 (by decide)) (Eq.trans (by hk) (show W0 m ρ c (Proc.devRef .tc main_arg9) = (m ((c : Thread nD τ).loc main_arg9)) from rfl)))))))))
theorem a9_19 : W9 m ρ c (Proc.devRef .tc main_arg19) = (m ((c : Thread nD τ).loc main_arg19)) :=
  Eq.trans (by hk) (Eq.trans (W8_of_ne m ρ c main_arg19 (by decide)) (Eq.trans (by hk) (Eq.trans (W6_of_ne m ρ c main_arg19 (by decide)) (Eq.trans (by hk) (Eq.trans (W4_of_ne m ρ c main_arg19 (by decide)) (Eq.trans (by hk) (Eq.trans (W2_of_ne m ρ c main_arg19 (by decide)) (Eq.trans (by hk) (show W0 m ρ c (Proc.devRef .tc main_arg19) = (m ((c : Thread nD τ).loc main_arg19)) from rfl)))))))))
theorem a9_21 : W9 m ρ c (Proc.devRef .tc main_arg21) = (m ((c : Thread nD τ).loc main_arg21)) :=
  Eq.trans (by hk) (Eq.trans (W8_of_ne m ρ c main_arg21 (by decide)) (Eq.trans (by hk) (Eq.trans (W6_of_ne m ρ c main_arg21 (by decide)) (Eq.trans (by hk) (Eq.trans (W4_of_ne m ρ c main_arg21 (by decide)) (Eq.trans (by hk) (Eq.trans (W2_of_ne m ρ c main_arg21 (by decide)) (Eq.trans (by hk) (show W0 m ρ c (Proc.devRef .tc main_arg21) = (m ((c : Thread nD τ).loc main_arg21)) from rfl)))))))))
theorem a9_23 : W9 m ρ c (Proc.devRef .tc main_arg23) = (m ((c : Thread nD τ).loc main_arg23)) :=
  Eq.trans (by hk) (Eq.trans (W8_of_ne m ρ c main_arg23 (by decide)) (Eq.trans (by hk) (Eq.trans (W6_of_ne m ρ c main_arg23 (by decide)) (Eq.trans (by hk) (Eq.trans (W4_of_ne m ρ c main_arg23 (by decide)) (Eq.trans (by hk) (Eq.trans (W2_of_ne m ρ c main_arg23 (by decide)) (Eq.trans (by hk) (show W0 m ρ c (Proc.devRef .tc main_arg23) = (m ((c : Thread nD τ).loc main_arg23)) from rfl)))))))))
theorem a9_11 : W9 m ρ c (Proc.devRef .tc main_arg11) = (m ((c : Thread nD τ).loc main_arg11)) :=
  Eq.trans (by hk) (Eq.trans (W8_of_ne m ρ c main_arg11 (by decide)) (Eq.trans (by hk) (Eq.trans (W6_of_ne m ρ c main_arg11 (by decide)) (Eq.trans (by hk) (Eq.trans (W4_of_ne m ρ c main_arg11 (by decide)) (Eq.trans (by hk) (Eq.trans (W2_of_ne m ρ c main_arg11 (by decide)) (Eq.trans (by hk) (show W0 m ρ c (Proc.devRef .tc main_arg11) = (m ((c : Thread nD τ).loc main_arg11)) from rfl)))))))))
theorem a9_15 : W9 m ρ c (Proc.devRef .tc main_arg15) = (m ((c : Thread nD τ).loc main_arg15)) :=
  Eq.trans (by hk) (Eq.trans (W8_of_ne m ρ c main_arg15 (by decide)) (Eq.trans (by hk) (Eq.trans (W6_of_ne m ρ c main_arg15 (by decide)) (Eq.trans (by hk) (Eq.trans (W4_of_ne m ρ c main_arg15 (by decide)) (Eq.trans (by hk) (Eq.trans (W2_of_ne m ρ c main_arg15 (by decide)) (Eq.trans (by hk) (show W0 m ρ c (Proc.devRef .tc main_arg15) = (m ((c : Thread nD τ).loc main_arg15)) from rfl)))))))))

end Cert.KernelIdeal.Val

end
-- ==== Proof.Reg4.lean ====
/-
  Region 4 of the kernel program (the final dense pass) as three whole-array functions.

  The region runs over 80 blocks of 5000 rows. At block `t` the body reads rows 5000 t … 5000 t + 4999 of the layer
  output `h`, of the hop embedding `e` and of a one-column mask `μ`, together with the whole of sixteen small arrays
  (weights and one-row biases, scales and shifts), and writes the same rows of three results. With
  `comb = h W₀ + b₀` and `σ` the logistic function these are
    `comb · σ(e W_c + b_c) · μ`,
    `max (g_s · (comb W_s + b_s) + β_s, 0) · σ(e W_s' + b_s')`,
    `max (g_x · (comb W_x + b_x) + β_x, 0) · σ(e W_x' + b_x')`.
  Every one of them is row-local, and the 80 blocks tile the 400000 rows, so after the region each result array is the
  corresponding whole-array function of the input arrays as the region found them.
-/
import proofs.«150507_j36661840838787_2_alg».proof.Proof.Gen.KernelIdeal.Frame
import Idealize.ShloMosaic.Lib.Pipeline.Value
import proofs.«150507_j36661840838787_2_alg».proof.Proof.Layers

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Dense Cert.LayerForms Cert.Layers

variable (V : (c : Dev nD) → (b : Ref sig .tc) → Buf (Elt Ideal) ((c : Thread nD τ).loc b))

theorem zeros4 : (![0, 0] : Fin 2 → Nat) = fun _ => 0 := funext fun a => by fin_cases a <;> rfl

/-! ## The body's arithmetic -/

/-- The encoded block: the loaded rows through the encoder weight plus its bias. -/
theorem pay4_comb (x0 : Vec Ideal S5000x80 .f32) (x3 : Vec Ideal S80x64 .f32) (x4 : Vec Ideal S1x64 .f32) :
    k4_pay3 x0 x3 x4 = affine x0 x3 x4 := by
  unfold k4_pay3
  dsimp only
  simp only [shapeCast_self]
  rw [matmul_zero_eq_mm _ rfl rfl rfl rfl rfl rfl, Cert.BiasRow.vecAddRow]
  rfl

/-- The first gate of the hop rows. -/
theorem pay4_gate5 (x1 : Vec Ideal S5000x16 .f32) (x5 : Vec Ideal S16x64 .f32) (x6 : Vec Ideal S1x64 .f32) :
    k4_pay5 x1 x5 x6 = gate x1 x5 x6 := by
  unfold k4_pay5 k4_pay4
  dsimp only
  simp only [shapeCast_self]
  rw [matmul_zero_eq_mm _ rfl rfl rfl rfl rfl rfl, Cert.BiasRow.vecAddRow]
  rfl

/-- The second gate of the hop rows. -/
theorem pay4_gate6 (x1 : Vec Ideal S5000x16 .f32) (x7 : Vec Ideal S16x64 .f32) (x8 : Vec Ideal S1x64 .f32) :
    k4_pay6 x1 x7 x8 = gate x1 x7 x8 := by
  unfold k4_pay6 k4_pay4
  dsimp only
  simp only [shapeCast_self]
  rw [matmul_zero_eq_mm _ rfl rfl rfl rfl rfl rfl, Cert.BiasRow.vecAddRow]
  rfl

/-- The third gate of the hop rows: its product and its bias-and-logistic are two payloads. -/
theorem pay4_gate78 (x1 : Vec Ideal S5000x16 .f32) (x9 : Vec Ideal S16x64 .f32) (x10 : Vec Ideal S1x64 .f32) :
    k4_pay8 (k4_pay7 x1 x9) x10 = gate x1 x9 x10 := by
  unfold k4_pay8 k4_pay7 k4_pay4
  dsimp only
  simp only [shapeCast_self]
  rw [matmul_zero_eq_mm _ rfl rfl rfl rfl rfl rfl, Cert.BiasRow.vecAddRow]
  rfl

/-- The first stored value: encoded rows times gate times the mask column. -/
theorem pay4_cen (x2 : Vec Ideal S5000x1 .f32) (comb g : FVec Ideal S5000x64 .f32) :
    k4_pay9 (k4_pay2 x2) comb g = centroidC comb g x2 := by
  unfold k4_pay9 k4_pay2
  dsimp only
  simp only [shapeCast_self]
  rw [Cert.RowScale.vecScaleRows]
  rfl

/-- The second stored value: a head of the encoded rows times its gate. -/
theorem pay4_head12 (comb g : FVec Ideal S5000x64 .f32) (W : Vec Ideal S64x64 .f32) (b sc sh : Vec Ideal S1x64 .f32) :
    k4_pay12 comb g W b sc sh = head comb W b sc sh g := by
  unfold k4_pay12 k4_pay10
  dsimp only
  simp only [shapeCast_self]
  rw [matmul_zero_eq_mm _ rfl rfl rfl rfl rfl rfl,
    Cert.BiasRow.vecAddRow, vecScaleCols, Cert.BiasRow.vecAddRow, vecRelu]
  rfl

/-- The third stored value: the same head form, its affine part a payload of its own. -/
theorem pay4_head1 (comb g : FVec Ideal S5000x64 .f32) (W : Vec Ideal S64x64 .f32) (b sc sh : Vec Ideal S1x64 .f32) :
    k4_pay1 g (k4_pay11 comb W b) sc sh = head comb W b sc sh g := by
  unfold k4_pay1 k4_pay11 k4_pay10
  dsimp only
  simp only [shapeCast_self]
  rw [matmul_zero_eq_mm _ rfl rfl rfl rfl rfl rfl,
    Cert.BiasRow.vecAddRow, vecScaleCols, Cert.BiasRow.vecAddRow, vecRelu]
  rfl

/-! ## Where each window's block sits -/

/-- The three row-indexed inputs and the three results move together: block `t` is rows `5000 t …`, all columns. -/
theorem idx_rows4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_19.index t (0 : Fin 2) = t.val ∧ win4_19.index t (1 : Fin 2) = 0
    ∧ win4_20.index t (0 : Fin 2) = t.val ∧ win4_20.index t (1 : Fin 2) = 0
    ∧ win4_21.index t (0 : Fin 2) = t.val ∧ win4_21.index t (1 : Fin 2) = 0 :=
  (by decide +kernel : ∀ t : Fin grid4.N, _)

/-- Window 3's block is its whole array at every point. -/
theorem idx_whole4_3 : ∀ t : Fin cfg4.N, win4_3.index t (0 : Fin 2) = 0 ∧ win4_3.index t (1 : Fin 2) = 0 :=
  (by decide +kernel : ∀ t : Fin grid4.N, _)

/-- Window 4's block is its whole array at every point. -/
theorem idx_whole4_4 : ∀ t : Fin cfg4.N, win4_4.index t (0 : Fin 2) = 0 ∧ win4_4.index t (1 : Fin 2) = 0 :=
  (by decide +kernel : ∀ t : Fin grid4.N, _)

/-- Window 5's block is its whole array at every point. -/
theorem idx_whole4_5 : ∀ t : Fin cfg4.N, win4_5.index t (0 : Fin 2) = 0 ∧ win4_5.index t (1 : Fin 2) = 0 :=
  (by decide +kernel : ∀ t : Fin grid4.N, _)

/-- Window 6's block is its whole array at every point. -/
theorem idx_whole4_6 : ∀ t : Fin cfg4.N, win4_6.index t (0 : Fin 2) = 0 ∧ win4_6.index t (1 : Fin 2) = 0 :=
  (by decide +kernel : ∀ t : Fin grid4.N, _)

/-- Window 7's block is its whole array at every point. -/
theorem idx_whole4_7 : ∀ t : Fin cfg4.N, win4_7.index t (0 : Fin 2) = 0 ∧ win4_7.index t (1 : Fin 2) = 0 :=
  (by decide +kernel : ∀ t : Fin grid4.N, _)

/-- Window 8's block is its whole array at every point. -/
theorem idx_whole4_8 : ∀ t : Fin cfg4.N, win4_8.index t (0 : Fin 2) = 0 ∧ win4_8.index t (1 : Fin 2) = 0 :=
  (by decide +kernel : ∀ t : Fin grid4.N, _)

/-- Window 9's block is its whole array at every point. -/
theorem idx_whole4_9 : ∀ t : Fin cfg4.N, win4_9.index t (0 : Fin 2) = 0 ∧ win4_9.index t (1 : Fin 2) = 0 :=
  (by decide +kernel : ∀ t : Fin grid4.N, _)

/-- Window 10's block is its whole array at every point. -/
theorem idx_whole4_10 : ∀ t : Fin cfg4.N, win4_10.index t (0 : Fin 2) = 0 ∧ win4_10.index t (1 : Fin 2) = 0 :=
  (by decide +kernel : ∀ t : Fin grid4.N, _)

/-- Window 11's block is its whole array at every point. -/
theorem idx_whole4_11 : ∀ t : Fin cfg4.N, win4_11.index t (0 : Fin 2) = 0 ∧ win4_11.index t (1 : Fin 2) = 0 :=
  (by decide +kernel : ∀ t : Fin grid4.N, _)

/-- Window 12's block is its whole array at every point. -/
theorem idx_whole4_12 : ∀ t : Fin cfg4.N, win4_12.index t (0 : Fin 2) = 0 ∧ win4_12.index t (1 : Fin 2) = 0 :=
  (by decide +kernel : ∀ t : Fin grid4.N, _)

/-- Window 13's block is its whole array at every point. -/
theorem idx_whole4_13 : ∀ t : Fin cfg4.N, win4_13.index t (0 : Fin 2) = 0 ∧ win4_13.index t (1 : Fin 2) = 0 :=
  (by decide +kernel : ∀ t : Fin grid4.N, _)

/-- Window 14's block is its whole array at every point. -/
theorem idx_whole4_14 : ∀ t : Fin cfg4.N, win4_14.index t (0 : Fin 2) = 0 ∧ win4_14.index t (1 : Fin 2) = 0 :=
  (by decide +kernel : ∀ t : Fin grid4.N, _)

/-- Window 15's block is its whole array at every point. -/
theorem idx_whole4_15 : ∀ t : Fin cfg4.N, win4_15.index t (0 : Fin 2) = 0 ∧ win4_15.index t (1 : Fin 2) = 0 :=
  (by decide +kernel : ∀ t : Fin grid4.N, _)

/-- Window 16's block is its whole array at every point. -/
theorem idx_whole4_16 : ∀ t : Fin cfg4.N, win4_16.index t (0 : Fin 2) = 0 ∧ win4_16.index t (1 : Fin 2) = 0 :=
  (by decide +kernel : ∀ t : Fin grid4.N, _)

/-- Window 17's block is its whole array at every point. -/
theorem idx_whole4_17 : ∀ t : Fin cfg4.N, win4_17.index t (0 : Fin 2) = 0 ∧ win4_17.index t (1 : Fin 2) = 0 :=
  (by decide +kernel : ∀ t : Fin grid4.N, _)

/-- Window 18's block is its whole array at every point. -/
theorem idx_whole4_18 : ∀ t : Fin cfg4.N, win4_18.index t (0 : Fin 2) = 0 ∧ win4_18.index t (1 : Fin 2) = 0 :=
  (by decide +kernel : ∀ t : Fin grid4.N, _)

/-! ## Reading the blocks back -/

/-- Window 3 reads its array whole. -/
theorem iblk4_3 (c : Dev nD) (t : Fin cfg4.N) : iblk4 V c 3 t = (V c main_arg9 : S80x64.Idx → EReal) := by
  obtain ⟨e0, e1⟩ := idx_whole4_3 t
  funext y
  show (V c main_arg9 : S80x64.Idx → EReal) (((cfg4.win 3).blk t).view.emb y) = (V c main_arg9 : S80x64.Idx → EReal) y
  refine congrArg _ ?_
  funext a; apply Fin.ext
  match a with
  | ⟨0, _⟩ => show win4_3.index t (0 : Fin 2) * 80 + 1 * (y 0).val = (y 0).val; omega
  | ⟨1, _⟩ => show win4_3.index t (1 : Fin 2) * 64 + 1 * (y 1).val = (y 1).val; omega

/-- Window 4 reads its array whole. -/
theorem iblk4_4 (c : Dev nD) (t : Fin cfg4.N) : iblk4 V c 4 t = (V c main_v59 : S1x64.Idx → EReal) := by
  obtain ⟨e0, e1⟩ := idx_whole4_4 t
  funext y
  show (V c main_v59 : S1x64.Idx → EReal) (((cfg4.win 4).blk t).view.emb y) = (V c main_v59 : S1x64.Idx → EReal) y
  refine congrArg _ ?_
  funext a; apply Fin.ext
  match a with
  | ⟨0, _⟩ => show win4_4.index t (0 : Fin 2) * 1 + 1 * (y 0).val = (y 0).val; omega
  | ⟨1, _⟩ => show win4_4.index t (1 : Fin 2) * 64 + 1 * (y 1).val = (y 1).val; omega

/-- Window 5 reads its array whole. -/
theorem iblk4_5 (c : Dev nD) (t : Fin cfg4.N) : iblk4 V c 5 t = (V c main_arg19 : S16x64.Idx → EReal) := by
  obtain ⟨e0, e1⟩ := idx_whole4_5 t
  funext y
  show (V c main_arg19 : S16x64.Idx → EReal) (((cfg4.win 5).blk t).view.emb y) = (V c main_arg19 : S16x64.Idx → EReal) y
  refine congrArg _ ?_
  funext a; apply Fin.ext
  match a with
  | ⟨0, _⟩ => show win4_5.index t (0 : Fin 2) * 16 + 1 * (y 0).val = (y 0).val; omega
  | ⟨1, _⟩ => show win4_5.index t (1 : Fin 2) * 64 + 1 * (y 1).val = (y 1).val; omega

/-- Window 6 reads its array whole. -/
theorem iblk4_6 (c : Dev nD) (t : Fin cfg4.N) : iblk4 V c 6 t = (V c main_v60 : S1x64.Idx → EReal) := by
  obtain ⟨e0, e1⟩ := idx_whole4_6 t
  funext y
  show (V c main_v60 : S1x64.Idx → EReal) (((cfg4.win 6).blk t).view.emb y) = (V c main_v60 : S1x64.Idx → EReal) y
  refine congrArg _ ?_
  funext a; apply Fin.ext
  match a with
  | ⟨0, _⟩ => show win4_6.index t (0 : Fin 2) * 1 + 1 * (y 0).val = (y 0).val; omega
  | ⟨1, _⟩ => show win4_6.index t (1 : Fin 2) * 64 + 1 * (y 1).val = (y 1).val; omega

/-- Window 7 reads its array whole. -/
theorem iblk4_7 (c : Dev nD) (t : Fin cfg4.N) : iblk4 V c 7 t = (V c main_arg21 : S16x64.Idx → EReal) := by
  obtain ⟨e0, e1⟩ := idx_whole4_7 t
  funext y
  show (V c main_arg21 : S16x64.Idx → EReal) (((cfg4.win 7).blk t).view.emb y) = (V c main_arg21 : S16x64.Idx → EReal) y
  refine congrArg _ ?_
  funext a; apply Fin.ext
  match a with
  | ⟨0, _⟩ => show win4_7.index t (0 : Fin 2) * 16 + 1 * (y 0).val = (y 0).val; omega
  | ⟨1, _⟩ => show win4_7.index t (1 : Fin 2) * 64 + 1 * (y 1).val = (y 1).val; omega

/-- Window 8 reads its array whole. -/
theorem iblk4_8 (c : Dev nD) (t : Fin cfg4.N) : iblk4 V c 8 t = (V c main_v61 : S1x64.Idx → EReal) := by
  obtain ⟨e0, e1⟩ := idx_whole4_8 t
  funext y
  show (V c main_v61 : S1x64.Idx → EReal) (((cfg4.win 8).blk t).view.emb y) = (V c main_v61 : S1x64.Idx → EReal) y
  refine congrArg _ ?_
  funext a; apply Fin.ext
  match a with
  | ⟨0, _⟩ => show win4_8.index t (0 : Fin 2) * 1 + 1 * (y 0).val = (y 0).val; omega
  | ⟨1, _⟩ => show win4_8.index t (1 : Fin 2) * 64 + 1 * (y 1).val = (y 1).val; omega

/-- Window 9 reads its array whole. -/
theorem iblk4_9 (c : Dev nD) (t : Fin cfg4.N) : iblk4 V c 9 t = (V c main_arg23 : S16x64.Idx → EReal) := by
  obtain ⟨e0, e1⟩ := idx_whole4_9 t
  funext y
  show (V c main_arg23 : S16x64.Idx → EReal) (((cfg4.win 9).blk t).view.emb y) = (V c main_arg23 : S16x64.Idx → EReal) y
  refine congrArg _ ?_
  funext a; apply Fin.ext
  match a with
  | ⟨0, _⟩ => show win4_9.index t (0 : Fin 2) * 16 + 1 * (y 0).val = (y 0).val; omega
  | ⟨1, _⟩ => show win4_9.index t (1 : Fin 2) * 64 + 1 * (y 1).val = (y 1).val; omega

/-- Window 10 reads its array whole. -/
theorem iblk4_10 (c : Dev nD) (t : Fin cfg4.N) : iblk4 V c 10 t = (V c main_v62 : S1x64.Idx → EReal) := by
  obtain ⟨e0, e1⟩ := idx_whole4_10 t
  funext y
  show (V c main_v62 : S1x64.Idx → EReal) (((cfg4.win 10).blk t).view.emb y) = (V c main_v62 : S1x64.Idx → EReal) y
  refine congrArg _ ?_
  funext a; apply Fin.ext
  match a with
  | ⟨0, _⟩ => show win4_10.index t (0 : Fin 2) * 1 + 1 * (y 0).val = (y 0).val; omega
  | ⟨1, _⟩ => show win4_10.index t (1 : Fin 2) * 64 + 1 * (y 1).val = (y 1).val; omega

/-- Window 11 reads its array whole. -/
theorem iblk4_11 (c : Dev nD) (t : Fin cfg4.N) : iblk4 V c 11 t = (V c main_arg11 : S64x64.Idx → EReal) := by
  obtain ⟨e0, e1⟩ := idx_whole4_11 t
  funext y
  show (V c main_arg11 : S64x64.Idx → EReal) (((cfg4.win 11).blk t).view.emb y) = (V c main_arg11 : S64x64.Idx → EReal) y
  refine congrArg _ ?_
  funext a; apply Fin.ext
  match a with
  | ⟨0, _⟩ => show win4_11.index t (0 : Fin 2) * 64 + 1 * (y 0).val = (y 0).val; omega
  | ⟨1, _⟩ => show win4_11.index t (1 : Fin 2) * 64 + 1 * (y 1).val = (y 1).val; omega

/-- Window 12 reads its array whole. -/
theorem iblk4_12 (c : Dev nD) (t : Fin cfg4.N) : iblk4 V c 12 t = (V c main_v63 : S1x64.Idx → EReal) := by
  obtain ⟨e0, e1⟩ := idx_whole4_12 t
  funext y
  show (V c main_v63 : S1x64.Idx → EReal) (((cfg4.win 12).blk t).view.emb y) = (V c main_v63 : S1x64.Idx → EReal) y
  refine congrArg _ ?_
  funext a; apply Fin.ext
  match a with
  | ⟨0, _⟩ => show win4_12.index t (0 : Fin 2) * 1 + 1 * (y 0).val = (y 0).val; omega
  | ⟨1, _⟩ => show win4_12.index t (1 : Fin 2) * 64 + 1 * (y 1).val = (y 1).val; omega

/-- Window 13 reads its array whole. -/
theorem iblk4_13 (c : Dev nD) (t : Fin cfg4.N) : iblk4 V c 13 t = (V c main_v64 : S1x64.Idx → EReal) := by
  obtain ⟨e0, e1⟩ := idx_whole4_13 t
  funext y
  show (V c main_v64 : S1x64.Idx → EReal) (((cfg4.win 13).blk t).view.emb y) = (V c main_v64 : S1x64.Idx → EReal) y
  refine congrArg _ ?_
  funext a; apply Fin.ext
  match a with
  | ⟨0, _⟩ => show win4_13.index t (0 : Fin 2) * 1 + 1 * (y 0).val = (y 0).val; omega
  | ⟨1, _⟩ => show win4_13.index t (1 : Fin 2) * 64 + 1 * (y 1).val = (y 1).val; omega

/-- Window 14 reads its array whole. -/
theorem iblk4_14 (c : Dev nD) (t : Fin cfg4.N) : iblk4 V c 14 t = (V c main_v65 : S1x64.Idx → EReal) := by
  obtain ⟨e0, e1⟩ := idx_whole4_14 t
  funext y
  show (V c main_v65 : S1x64.Idx → EReal) (((cfg4.win 14).blk t).view.emb y) = (V c main_v65 : S1x64.Idx → EReal) y
  refine congrArg _ ?_
  funext a; apply Fin.ext
  match a with
  | ⟨0, _⟩ => show win4_14.index t (0 : Fin 2) * 1 + 1 * (y 0).val = (y 0).val; omega
  | ⟨1, _⟩ => show win4_14.index t (1 : Fin 2) * 64 + 1 * (y 1).val = (y 1).val; omega

/-- Window 15 reads its array whole. -/
theorem iblk4_15 (c : Dev nD) (t : Fin cfg4.N) : iblk4 V c 15 t = (V c main_arg15 : S64x64.Idx → EReal) := by
  obtain ⟨e0, e1⟩ := idx_whole4_15 t
  funext y
  show (V c main_arg15 : S64x64.Idx → EReal) (((cfg4.win 15).blk t).view.emb y) = (V c main_arg15 : S64x64.Idx → EReal) y
  refine congrArg _ ?_
  funext a; apply Fin.ext
  match a with
  | ⟨0, _⟩ => show win4_15.index t (0 : Fin 2) * 64 + 1 * (y 0).val = (y 0).val; omega
  | ⟨1, _⟩ => show win4_15.index t (1 : Fin 2) * 64 + 1 * (y 1).val = (y 1).val; omega

/-- Window 16 reads its array whole. -/
theorem iblk4_16 (c : Dev nD) (t : Fin cfg4.N) : iblk4 V c 16 t = (V c main_v66 : S1x64.Idx → EReal) := by
  obtain ⟨e0, e1⟩ := idx_whole4_16 t
  funext y
  show (V c main_v66 : S1x64.Idx → EReal) (((cfg4.win 16).blk t).view.emb y) = (V c main_v66 : S1x64.Idx → EReal) y
  refine congrArg _ ?_
  funext a; apply Fin.ext
  match a with
  | ⟨0, _⟩ => show win4_16.index t (0 : Fin 2) * 1 + 1 * (y 0).val = (y 0).val; omega
  | ⟨1, _⟩ => show win4_16.index t (1 : Fin 2) * 64 + 1 * (y 1).val = (y 1).val; omega

/-- Window 17 reads its array whole. -/
theorem iblk4_17 (c : Dev nD) (t : Fin cfg4.N) : iblk4 V c 17 t = (V c main_v67 : S1x64.Idx → EReal) := by
  obtain ⟨e0, e1⟩ := idx_whole4_17 t
  funext y
  show (V c main_v67 : S1x64.Idx → EReal) (((cfg4.win 17).blk t).view.emb y) = (V c main_v67 : S1x64.Idx → EReal) y
  refine congrArg _ ?_
  funext a; apply Fin.ext
  match a with
  | ⟨0, _⟩ => show win4_17.index t (0 : Fin 2) * 1 + 1 * (y 0).val = (y 0).val; omega
  | ⟨1, _⟩ => show win4_17.index t (1 : Fin 2) * 64 + 1 * (y 1).val = (y 1).val; omega

/-- Window 18 reads its array whole. -/
theorem iblk4_18 (c : Dev nD) (t : Fin cfg4.N) : iblk4 V c 18 t = (V c main_v68 : S1x64.Idx → EReal) := by
  obtain ⟨e0, e1⟩ := idx_whole4_18 t
  funext y
  show (V c main_v68 : S1x64.Idx → EReal) (((cfg4.win 18).blk t).view.emb y) = (V c main_v68 : S1x64.Idx → EReal) y
  refine congrArg _ ?_
  funext a; apply Fin.ext
  match a with
  | ⟨0, _⟩ => show win4_18.index t (0 : Fin 2) * 1 + 1 * (y 0).val = (y 0).val; omega
  | ⟨1, _⟩ => show win4_18.index t (1 : Fin 2) * 64 + 1 * (y 1).val = (y 1).val; omega

/-- Row `p` of window 0's block at point `t` is row `5000 t + p` of its array. -/
theorem iblk4_0_at (c : Dev nD) (t : Fin cfg4.N) (p : Fin 5000) (k : Fin 80) (h : t.val * 5000 + p.val < 400000) :
    iblk4 V c 0 t (ix2 p k) = (V c main_v55 : S400000x80.Idx → EReal) (ix2 (⟨t.val * 5000 + p.val, h⟩ : Fin 400000) k) := by
  obtain ⟨e0, e1, e2, e3, e4, e5, e6, e7, e8, e9, e10, e11⟩ := idx_rows4 t
  show (V c main_v55 : S400000x80.Idx → EReal) (((cfg4.win 0).blk t).view.emb (ix2 p k)) = _
  refine congrArg _ ?_
  funext a; apply Fin.ext
  match a with
  | ⟨0, _⟩ => show win4_0.index t (0 : Fin 2) * 5000 + 1 * p.val = t.val * 5000 + p.val; omega
  | ⟨1, _⟩ => show win4_0.index t (1 : Fin 2) * 80 + 1 * k.val = k.val; omega

/-- Row `p` of window 1's block at point `t` is row `5000 t + p` of its array. -/
theorem iblk4_1_at (c : Dev nD) (t : Fin cfg4.N) (p : Fin 5000) (k : Fin 16) (h : t.val * 5000 + p.val < 400000) :
    iblk4 V c 1 t (ix2 p k) = (V c main_v8 : S400000x16.Idx → EReal) (ix2 (⟨t.val * 5000 + p.val, h⟩ : Fin 400000) k) := by
  obtain ⟨e0, e1, e2, e3, e4, e5, e6, e7, e8, e9, e10, e11⟩ := idx_rows4 t
  show (V c main_v8 : S400000x16.Idx → EReal) (((cfg4.win 1).blk t).view.emb (ix2 p k)) = _
  refine congrArg _ ?_
  funext a; apply Fin.ext
  match a with
  | ⟨0, _⟩ => show win4_1.index t (0 : Fin 2) * 5000 + 1 * p.val = t.val * 5000 + p.val; omega
  | ⟨1, _⟩ => show win4_1.index t (1 : Fin 2) * 16 + 1 * k.val = k.val; omega

/-- Row `p` of window 2's block at point `t` is row `5000 t + p` of its array. -/
theorem iblk4_2_at (c : Dev nD) (t : Fin cfg4.N) (p : Fin 5000) (k : Fin 1) (h : t.val * 5000 + p.val < 400000) :
    iblk4 V c 2 t (ix2 p k) = (V c main_v58 : S400000x1.Idx → EReal) (ix2 (⟨t.val * 5000 + p.val, h⟩ : Fin 400000) k) := by
  obtain ⟨e0, e1, e2, e3, e4, e5, e6, e7, e8, e9, e10, e11⟩ := idx_rows4 t
  show (V c main_v58 : S400000x1.Idx → EReal) (((cfg4.win 2).blk t).view.emb (ix2 p k)) = _
  refine congrArg _ ?_
  funext a; apply Fin.ext
  match a with
  | ⟨0, _⟩ => show win4_2.index t (0 : Fin 2) * 5000 + 1 * p.val = t.val * 5000 + p.val; omega
  | ⟨1, _⟩ => show win4_2.index t (1 : Fin 2) * 1 + 1 * k.val = k.val; omega

/-- Entry `(p, q)` of window 19's block at point `t` is entry `(5000 t + p, q)` of its array. -/
theorem emb4_19 (t : Fin cfg4.N) (p : Fin 5000) (q : Fin 64) (h : t.val * 5000 + p.val < 400000) :
    ((cfg4.win 19).blk t).view.emb (ix2 p q) = (ix2 (⟨t.val * 5000 + p.val, h⟩ : Fin 400000) q : S400000x64.Idx) := by
  obtain ⟨e0, e1, e2, e3, e4, e5, e6, e7, e8, e9, e10, e11⟩ := idx_rows4 t
  funext a; apply Fin.ext
  match a with
  | ⟨0, _⟩ => show win4_19.index t (0 : Fin 2) * 5000 + 1 * p.val = t.val * 5000 + p.val; omega
  | ⟨1, _⟩ => show win4_19.index t (1 : Fin 2) * 64 + 1 * q.val = q.val; omega

/-- Entry `(p, q)` of window 20's block at point `t` is entry `(5000 t + p, q)` of its array. -/
theorem emb4_20 (t : Fin cfg4.N) (p : Fin 5000) (q : Fin 64) (h : t.val * 5000 + p.val < 400000) :
    ((cfg4.win 20).blk t).view.emb (ix2 p q) = (ix2 (⟨t.val * 5000 + p.val, h⟩ : Fin 400000) q : S400000x64.Idx) := by
  obtain ⟨e0, e1, e2, e3, e4, e5, e6, e7, e8, e9, e10, e11⟩ := idx_rows4 t
  funext a; apply Fin.ext
  match a with
  | ⟨0, _⟩ => show win4_20.index t (0 : Fin 2) * 5000 + 1 * p.val = t.val * 5000 + p.val; omega
  | ⟨1, _⟩ => show win4_20.index t (1 : Fin 2) * 64 + 1 * q.val = q.val; omega

/-- Entry `(p, q)` of window 21's block at point `t` is entry `(5000 t + p, q)` of its array. -/
theorem emb4_21 (t : Fin cfg4.N) (p : Fin 5000) (q : Fin 64) (h : t.val * 5000 + p.val < 400000) :
    ((cfg4.win 21).blk t).view.emb (ix2 p q) = (ix2 (⟨t.val * 5000 + p.val, h⟩ : Fin 400000) q : S400000x64.Idx) := by
  obtain ⟨e0, e1, e2, e3, e4, e5, e6, e7, e8, e9, e10, e11⟩ := idx_rows4 t
  funext a; apply Fin.ext
  match a with
  | ⟨0, _⟩ => show win4_21.index t (0 : Fin 2) * 5000 + 1 * p.val = t.val * 5000 + p.val; omega
  | ⟨1, _⟩ => show win4_21.index t (1 : Fin 2) * 64 + 1 * q.val = q.val; omega

/-! ## Row-locality of the two output forms -/

variable {M M' K N : ℕ}

/-- An entry of the centre's share depends on the same entry of the encoded rows and of the gate and on the row's mask entry. -/
theorem centroidC_rows4 (comb gc : Mat M N) (mask : Mat M 1) (comb' gc' : Mat M' N) (mask' : Mat M' 1)
    (p : Fin M) (p' : Fin M') (q : Fin N)
    (hc : comb' (ix2 p' q) = comb (ix2 p q)) (hg : gc' (ix2 p' q) = gc (ix2 p q))
    (hm : mask' (ix2 p' (0 : Fin 1)) = mask (ix2 p (0 : Fin 1))) :
    centroidC comb' gc' mask' (ix2 p' q) = centroidC comb gc mask (ix2 p q) := by
  rw [centroidC_apply, centroidC_apply, hc, hg, hm]

/-- An entry of a head depends on the same row of the encoded rows and on the same entry of its gate. -/
theorem head_rows4 (comb : Mat M K) (comb' : Mat M' K) (W : Mat K N) (b g bt : Mat 1 N) (gt : Mat M N) (gt' : Mat M' N)
    (p : Fin M) (p' : Fin M') (q : Fin N)
    (hc : ∀ k, comb' (ix2 p' k) = comb (ix2 p k)) (hg : gt' (ix2 p' q) = gt (ix2 p q)) :
    head comb' W b g bt gt' (ix2 p' q) = head comb W b g bt gt (ix2 p q) := by
  rw [head_apply, head_apply, affine_at comb comb' W b p p' q hc, hg]

/-! ## What each point writes back -/

theorem t_lt4 (t : Fin cfg4.N) : t.val < 80 := lt_of_lt_of_eq t.isLt N_4

/-- What point `t` writes back through window 19 is block `t` of the centre's share of the whole arrays. -/
theorem flushed4_19 (c : Dev nD) (t : Fin cfg4.N) :
    (dat4 V c).flushed 19 t = ((cfg4.win 19).blk t).view.read (Elt Ideal)
      (centroidC (affine (V c main_v55) (V c main_arg9) (V c main_v59)) (gate (V c main_v8) (V c main_arg19) (V c main_v60)) (V c main_v58)) := by
  show (cfg4.win 19).cut (grid4.coords t) ((dat4 V c).after 19 t) = _
  rw [after4_19]
  unfold out4_19
  rw [View.canon_unit_zero zeros4]
  simp only [View.ld_unit_zero (S := S5000x80) zeros4, View.ld_unit_zero (S := S5000x16) zeros4, View.ld_unit_zero (S := S5000x1) zeros4, View.ld_unit_zero (S := S80x64) zeros4, View.ld_unit_zero (S := S1x64) zeros4, View.ld_unit_zero (S := S16x64) zeros4, View.ld_unit_zero (S := S64x64) zeros4]
  rw [pay4_comb, pay4_gate5, pay4_cen, iblk4_3, iblk4_4, iblk4_5, iblk4_6]
  have ht := t_lt4 t
  funext j
  obtain ⟨p, q, rfl⟩ : ∃ (p : Fin 5000) (q : Fin 64), j = ix2 p q := ⟨j 0, j 1, eq_ix2 j⟩
  have hp : t.val * 5000 + p.val < 400000 := by have := p.isLt; omega
  show centroidC (affine (iblk4 V c 0 t) (V c main_arg9) (V c main_v59)) (gate (iblk4 V c 1 t) (V c main_arg19) (V c main_v60)) (iblk4 V c 2 t) (ix2 p q)
    = centroidC (affine (V c main_v55) (V c main_arg9) (V c main_v59)) (gate (V c main_v8) (V c main_arg19) (V c main_v60)) (V c main_v58) (((cfg4.win 19).blk t).view.emb (ix2 p q))
  rw [emb4_19 t p q hp]
  exact centroidC_rows4 _ _ _ _ _ _ _ _ q
    (affine_at _ _ _ _ _ _ q (fun k => iblk4_0_at V c t p k hp))
    (gate_at _ _ _ _ _ _ q (fun k => iblk4_1_at V c t p k hp))
    (iblk4_2_at V c t p 0 hp)

/-- What point `t` writes back through window 20 is block `t` of the first head of the whole arrays. -/
theorem flushed4_20 (c : Dev nD) (t : Fin cfg4.N) :
    (dat4 V c).flushed 20 t = ((cfg4.win 20).blk t).view.read (Elt Ideal)
      (head (affine (V c main_v55) (V c main_arg9) (V c main_v59)) (V c main_arg11) (V c main_v63) (V c main_v64) (V c main_v65) (gate (V c main_v8) (V c main_arg21) (V c main_v61))) := by
  show (cfg4.win 20).cut (grid4.coords t) ((dat4 V c).after 20 t) = _
  rw [after4_20]
  unfold out4_20
  rw [View.canon_unit_zero zeros4]
  simp only [View.ld_unit_zero (S := S5000x80) zeros4, View.ld_unit_zero (S := S5000x16) zeros4, View.ld_unit_zero (S := S5000x1) zeros4, View.ld_unit_zero (S := S80x64) zeros4, View.ld_unit_zero (S := S1x64) zeros4, View.ld_unit_zero (S := S16x64) zeros4, View.ld_unit_zero (S := S64x64) zeros4]
  rw [pay4_comb, pay4_gate6, pay4_head12, iblk4_3, iblk4_4, iblk4_7, iblk4_8, iblk4_11, iblk4_12, iblk4_13, iblk4_14]
  have ht := t_lt4 t
  funext j
  obtain ⟨p, q, rfl⟩ : ∃ (p : Fin 5000) (q : Fin 64), j = ix2 p q := ⟨j 0, j 1, eq_ix2 j⟩
  have hp : t.val * 5000 + p.val < 400000 := by have := p.isLt; omega
  show head (affine (iblk4 V c 0 t) (V c main_arg9) (V c main_v59)) (V c main_arg11) (V c main_v63) (V c main_v64) (V c main_v65) (gate (iblk4 V c 1 t) (V c main_arg21) (V c main_v61)) (ix2 p q)
    = head (affine (V c main_v55) (V c main_arg9) (V c main_v59)) (V c main_arg11) (V c main_v63) (V c main_v64) (V c main_v65) (gate (V c main_v8) (V c main_arg21) (V c main_v61)) (((cfg4.win 20).blk t).view.emb (ix2 p q))
  rw [emb4_20 t p q hp]
  exact head_rows4 _ _ _ _ _ _ _ _ _ _ q
    (fun k => affine_at _ _ _ _ _ _ k (fun k' => iblk4_0_at V c t p k' hp))
    (gate_at _ _ _ _ _ _ q (fun k => iblk4_1_at V c t p k hp))

/-- What point `t` writes back through window 21 is block `t` of the second head of the whole arrays. -/
theorem flushed4_21 (c : Dev nD) (t : Fin cfg4.N) :
    (dat4 V c).flushed 21 t = ((cfg4.win 21).blk t).view.read (Elt Ideal)
      (head (affine (V c main_v55) (V c main_arg9) (V c main_v59)) (V c main_arg15) (V c main_v66) (V c main_v67) (V c main_v68) (gate (V c main_v8) (V c main_arg23) (V c main_v62))) := by
  show (cfg4.win 21).cut (grid4.coords t) ((dat4 V c).after 21 t) = _
  rw [after4_21]
  unfold out4_21
  rw [View.canon_unit_zero zeros4]
  simp only [View.ld_unit_zero (S := S5000x80) zeros4, View.ld_unit_zero (S := S5000x16) zeros4, View.ld_unit_zero (S := S5000x1) zeros4, View.ld_unit_zero (S := S80x64) zeros4, View.ld_unit_zero (S := S1x64) zeros4, View.ld_unit_zero (S := S16x64) zeros4, View.ld_unit_zero (S := S64x64) zeros4]
  rw [pay4_comb, pay4_gate78, pay4_head1, iblk4_3, iblk4_4, iblk4_9, iblk4_10, iblk4_15, iblk4_16, iblk4_17, iblk4_18]
  have ht := t_lt4 t
  funext j
  obtain ⟨p, q, rfl⟩ : ∃ (p : Fin 5000) (q : Fin 64), j = ix2 p q := ⟨j 0, j 1, eq_ix2 j⟩
  have hp : t.val * 5000 + p.val < 400000 := by have := p.isLt; omega
  show head (affine (iblk4 V c 0 t) (V c main_arg9) (V c main_v59)) (V c main_arg15) (V c main_v66) (V c main_v67) (V c main_v68) (gate (iblk4 V c 1 t) (V c main_arg23) (V c main_v62)) (ix2 p q)
    = head (affine (V c main_v55) (V c main_arg9) (V c main_v59)) (V c main_arg15) (V c main_v66) (V c main_v67) (V c main_v68) (gate (V c main_v8) (V c main_arg23) (V c main_v62)) (((cfg4.win 21).blk t).view.emb (ix2 p q))
  rw [emb4_21 t p q hp]
  exact head_rows4 _ _ _ _ _ _ _ _ _ _ q
    (fun k => affine_at _ _ _ _ _ _ k (fun k' => iblk4_0_at V c t p k' hp))
    (gate_at _ _ _ _ _ _ q (fun k => iblk4_1_at V c t p k hp))

/-! ## The blocks tile the result arrays -/

/-- An index of window 19's array is in point `t`'s block iff each coordinate is in the block's range on its axis. -/
theorem mem_blk4_19 (t : Fin cfg4.N) (i : S400000x64.Idx) :
    i ∈ ((cfg4.win 19).blk t).view.set ↔ ∀ a : Fin 2, win4_19.index t a * S5000x64.size a ≤ (i a).val ∧ (i a).val < win4_19.index t a * S5000x64.size a + S5000x64.size a := by
  show i ∈ ((View.whole main_v69_0).slice (win4_19.rect t)).set ↔ _
  rw [View.set_slice_whole, Rect.mem_set_unit]
  exact Iff.rfl

/-- Row `r` is in the block of point `r / 5000`. -/
theorem tiles4_19 (i : S400000x64.Idx) : ∃ t : Fin cfg4.N, (cfg4.win 19).flush t = true ∧ i ∈ ((cfg4.win 19).blk t).view.set := by
  have hi0 : (i 0).val < 400000 := idx2_lt0 i
  have hi1 : (i 1).val < 64 := idx2_lt1 i
  have hN : grid4.N = 80 := N_4
  let t : Fin cfg4.N := ⟨(i 0).val / 5000, by show _ < grid4.N; omega⟩
  obtain ⟨e0, e1, e2, e3, e4, e5, e6, e7, e8, e9, e10, e11⟩ := idx_rows4 t
  have ht : t.val = (i 0).val / 5000 := rfl
  refine ⟨t, flush4_19 t, ?_⟩
  rw [mem_blk4_19]
  intro a
  match a with
  | ⟨0, _⟩ => show win4_19.index t (0 : Fin 2) * 5000 ≤ (i 0).val ∧ (i 0).val < win4_19.index t (0 : Fin 2) * 5000 + 5000; omega
  | ⟨1, _⟩ => show win4_19.index t (1 : Fin 2) * 64 ≤ (i 1).val ∧ (i 1).val < win4_19.index t (1 : Fin 2) * 64 + 64; omega

/-- An index of window 20's array is in point `t`'s block iff each coordinate is in the block's range on its axis. -/
theorem mem_blk4_20 (t : Fin cfg4.N) (i : S400000x64.Idx) :
    i ∈ ((cfg4.win 20).blk t).view.set ↔ ∀ a : Fin 2, win4_20.index t a * S5000x64.size a ≤ (i a).val ∧ (i a).val < win4_20.index t a * S5000x64.size a + S5000x64.size a := by
  show i ∈ ((View.whole main_v69_1).slice (win4_20.rect t)).set ↔ _
  rw [View.set_slice_whole, Rect.mem_set_unit]
  exact Iff.rfl

/-- Row `r` is in the block of point `r / 5000`. -/
theorem tiles4_20 (i : S400000x64.Idx) : ∃ t : Fin cfg4.N, (cfg4.win 20).flush t = true ∧ i ∈ ((cfg4.win 20).blk t).view.set := by
  have hi0 : (i 0).val < 400000 := idx2_lt0 i
  have hi1 : (i 1).val < 64 := idx2_lt1 i
  have hN : grid4.N = 80 := N_4
  let t : Fin cfg4.N := ⟨(i 0).val / 5000, by show _ < grid4.N; omega⟩
  obtain ⟨e0, e1, e2, e3, e4, e5, e6, e7, e8, e9, e10, e11⟩ := idx_rows4 t
  have ht : t.val = (i 0).val / 5000 := rfl
  refine ⟨t, flush4_20 t, ?_⟩
  rw [mem_blk4_20]
  intro a
  match a with
  | ⟨0, _⟩ => show win4_20.index t (0 : Fin 2) * 5000 ≤ (i 0).val ∧ (i 0).val < win4_20.index t (0 : Fin 2) * 5000 + 5000; omega
  | ⟨1, _⟩ => show win4_20.index t (1 : Fin 2) * 64 ≤ (i 1).val ∧ (i 1).val < win4_20.index t (1 : Fin 2) * 64 + 64; omega

/-- An index of window 21's array is in point `t`'s block iff each coordinate is in the block's range on its axis. -/
theorem mem_blk4_21 (t : Fin cfg4.N) (i : S400000x64.Idx) :
    i ∈ ((cfg4.win 21).blk t).view.set ↔ ∀ a : Fin 2, win4_21.index t a * S5000x64.size a ≤ (i a).val ∧ (i a).val < win4_21.index t a * S5000x64.size a + S5000x64.size a := by
  show i ∈ ((View.whole main_v69_2).slice (win4_21.rect t)).set ↔ _
  rw [View.set_slice_whole, Rect.mem_set_unit]
  exact Iff.rfl

/-- Row `r` is in the block of point `r / 5000`. -/
theorem tiles4_21 (i : S400000x64.Idx) : ∃ t : Fin cfg4.N, (cfg4.win 21).flush t = true ∧ i ∈ ((cfg4.win 21).blk t).view.set := by
  have hi0 : (i 0).val < 400000 := idx2_lt0 i
  have hi1 : (i 1).val < 64 := idx2_lt1 i
  have hN : grid4.N = 80 := N_4
  let t : Fin cfg4.N := ⟨(i 0).val / 5000, by show _ < grid4.N; omega⟩
  obtain ⟨e0, e1, e2, e3, e4, e5, e6, e7, e8, e9, e10, e11⟩ := idx_rows4 t
  have ht : t.val = (i 0).val / 5000 := rfl
  refine ⟨t, flush4_21 t, ?_⟩
  rw [mem_blk4_21]
  intro a
  match a with
  | ⟨0, _⟩ => show win4_21.index t (0 : Fin 2) * 5000 ≤ (i 0).val ∧ (i 0).val < win4_21.index t (0 : Fin 2) * 5000 + 5000; omega
  | ⟨1, _⟩ => show win4_21.index t (1 : Fin 2) * 64 ≤ (i 1).val ∧ (i 1).val < win4_21.index t (1 : Fin 2) * 64 + 64; omega

/-! ## The three results after the region -/

/-- After the region the first result is the centre's share of the encoded rows, the centre gate and the mask. -/
theorem final4_19 (c : Dev nD) : (dat4 V c).arrAt 19 cfg4.N
    = centroidC (affine (V c main_v55) (V c main_arg9) (V c main_v59)) (gate (V c main_v8) (V c main_arg19) (V c main_v60)) (V c main_v58) :=
  (dat4 V c).arrAt_eq_of_cover 19 _ (fun t _ => flushed4_19 V c t) tiles4_19

/-- After the region the second result is the first head of the encoded rows times its gate. -/
theorem final4_20 (c : Dev nD) : (dat4 V c).arrAt 20 cfg4.N
    = head (affine (V c main_v55) (V c main_arg9) (V c main_v59)) (V c main_arg11) (V c main_v63) (V c main_v64) (V c main_v65) (gate (V c main_v8) (V c main_arg21) (V c main_v61)) :=
  (dat4 V c).arrAt_eq_of_cover 20 _ (fun t _ => flushed4_20 V c t) tiles4_20

/-- After the region the third result is the second head of the encoded rows times its gate. -/
theorem final4_21 (c : Dev nD) : (dat4 V c).arrAt 21 cfg4.N
    = head (affine (V c main_v55) (V c main_arg9) (V c main_v59)) (V c main_arg15) (V c main_v66) (V c main_v67) (V c main_v68) (gate (V c main_v8) (V c main_arg23) (V c main_v62)) :=
  (dat4 V c).arrAt_eq_of_cover 21 _ (fun t _ => flushed4_21 V c t) tiles4_21

end Cert.KernelIdeal.Val

end
-- ==== Proof.KHeads.lean ====
/-
  Region 4 of the idealized kernel program: the encoder, the three gates, the centre's share and the two heads.

  At the entry of region 4 the layer output, the hop embedding and the mask column hold the reference's stages, and the
  weights and one-row arrays the argument arrays (KValue). The region's three outputs are the whole-array functions of
  Reg4 of those, which are the reference's centre share and its two heads (RefSide).
-/
import proofs.«150507_j36661840838787_2_alg».proof.Proof.Gen.KernelIdeal.Frame
import proofs.«150507_j36661840838787_2_alg».proof.Proof.Gen.ReferenceIdeal.Read
import proofs.«150507_j36661840838787_2_alg».proof.Proof.Layers
import proofs.«150507_j36661840838787_2_alg».proof.Proof.RefSide
import proofs.«150507_j36661840838787_2_alg».proof.Proof.HostKeep
import proofs.«150507_j36661840838787_2_alg».proof.Proof.KValue
import proofs.«150507_j36661840838787_2_alg».proof.Proof.Reg4

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo
open Idealize.SL Idealize.SL.Sem
open Cert.Dense Cert.LayerForms Cert.Layers Cert.ReferenceIdeal.RefValue

variable (m : (ℓ : Loc nD τ sig) → Buf (Elt Ideal) ℓ) (ρ : Dev nD → PrngReg) (c : Dev nD)

theorem k10_v69_0 : W10 m ρ c (Proc.devRef .tc main_v69_0) = Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg19)) (m ((c : Thread nD τ).loc main_arg20)) (m ((c : Thread nD τ).loc main_arg29)) (m ((c : Thread nD τ).loc main_arg30)) (m ((c : Thread nD τ).loc main_arg31)) (m ((c : Thread nD τ).loc main_arg32)) (m ((c : Thread nD τ).loc main_arg33)) := by
  refine (W10_arr m ρ c 19).trans ((final4_19 (V9 m ρ) c).trans ?_)
  rw [ref_cenC, ref_comb, ref_gc]
  show centroidC (affine (W9 m ρ c (Proc.devRef .tc main_v55)) (W9 m ρ c (Proc.devRef .tc main_arg9)) (W9 m ρ c (Proc.devRef .tc main_v59)))
      (gate (W9 m ρ c (Proc.devRef .tc main_v8)) (W9 m ρ c (Proc.devRef .tc main_arg19)) (W9 m ρ c (Proc.devRef .tc main_v60))) (W9 m ρ c (Proc.devRef .tc main_v58)) = _
  rw [c9_v55, a9_9, k9_v59, c9_v8, a9_19, k9_v60, k9_v58]

theorem k10_v69_1 : W10 m ρ c (Proc.devRef .tc main_v69_1) = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg29)) (m ((c : Thread nD τ).loc main_arg30)) (m ((c : Thread nD τ).loc main_arg31)) (m ((c : Thread nD τ).loc main_arg33)) := by
  refine (W10_arr m ρ c 20).trans ((final4_20 (V9 m ρ) c).trans ?_)
  rw [ref_sub, ref_comb, ref_gs]
  show head (affine (W9 m ρ c (Proc.devRef .tc main_v55)) (W9 m ρ c (Proc.devRef .tc main_arg9)) (W9 m ρ c (Proc.devRef .tc main_v59))) (W9 m ρ c (Proc.devRef .tc main_arg11)) (W9 m ρ c (Proc.devRef .tc main_v63))
      (W9 m ρ c (Proc.devRef .tc main_v64)) (W9 m ρ c (Proc.devRef .tc main_v65)) (gate (W9 m ρ c (Proc.devRef .tc main_v8)) (W9 m ρ c (Proc.devRef .tc main_arg21)) (W9 m ρ c (Proc.devRef .tc main_v61))) = _
  rw [c9_v55, a9_9, k9_v59, a9_11, k9_v63, k9_v64, k9_v65, c9_v8, a9_21, k9_v61]

theorem k10_v69_2 : W10 m ρ c (Proc.devRef .tc main_v69_2) = Cert.ReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) (m ((c : Thread nD τ).loc main_arg29)) (m ((c : Thread nD τ).loc main_arg30)) (m ((c : Thread nD τ).loc main_arg31)) (m ((c : Thread nD τ).loc main_arg33)) := by
  refine (W10_arr m ρ c 21).trans ((final4_21 (V9 m ρ) c).trans ?_)
  rw [ref_ctx, ref_comb, ref_gx]
  show head (affine (W9 m ρ c (Proc.devRef .tc main_v55)) (W9 m ρ c (Proc.devRef .tc main_arg9)) (W9 m ρ c (Proc.devRef .tc main_v59))) (W9 m ρ c (Proc.devRef .tc main_arg15)) (W9 m ρ c (Proc.devRef .tc main_v66))
      (W9 m ρ c (Proc.devRef .tc main_v67)) (W9 m ρ c (Proc.devRef .tc main_v68)) (gate (W9 m ρ c (Proc.devRef .tc main_v8)) (W9 m ρ c (Proc.devRef .tc main_arg23)) (W9 m ρ c (Proc.devRef .tc main_v62))) = _
  rw [c9_v55, a9_9, k9_v59, a9_15, k9_v66, k9_v67, k9_v68, c9_v8, a9_23, k9_v62]

end Cert.KernelIdeal.Val

end
-- ==== Proof.Reg5.lean ====
/-
  Region 5 of the kernel program (the final combine) as one whole-array function.

  The region runs over 5 blocks of 4000 rows. At block `t` the body reads rows 4000 t … 4000 t + 3999 of the centre rows,
  of the two pooled sums and of their two count columns, and the whole weight and the three one-row arrays; it writes back
  the same rows of the result: the centre row plus each pooled row divided by its count, through the weight, plus the bias
  row, scaled and shifted column by column. The blocks tile the 20000 rows and every stage is row-local, so after the region
  the result array is the output layer of the pooled sum of the whole input arrays as the region found them.
-/
import proofs.«150507_j36661840838787_2_alg».proof.Proof.Gen.KernelIdeal.Frame
import Idealize.ShloMosaic.Lib.Pipeline.Value
import proofs.«150507_j36661840838787_2_alg».proof.Proof.Layers

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Dense Cert.LayerForms Cert.Layers

variable (V : (c : Dev nD) → (b : Ref sig .tc) → Buf (Elt Ideal) ((c : Thread nD τ).loc b))

theorem hz5 : (![0, 0] : Fin 2 → Nat) = fun _ => 0 := funext fun a => by fin_cases a <;> rfl

/-- The body's stored value is the output layer of the pooled sum of its loaded blocks. -/
theorem pay5_eq (x0 x1 : Vec Ideal S4000x64 .f32) (x2 : Vec Ideal S4000x1 .f32) (x3 : Vec Ideal S4000x64 .f32)
    (x4 : Vec Ideal S4000x1 .f32) (x5 : Vec Ideal S64x64 .f32) (x6 x7 x8 : Vec Ideal S1x64 .f32) :
    k5_pay1 x0 x1 x2 x3 x4 x5 x6 x7 x8 = outLayer (pooled x0 x1 x2 x3 x4) x5 x6 x7 x8 := by
  unfold k5_pay1
  dsimp only
  rw [shapeCast_self, shapeCast_self, shapeCast_self, shapeCast_self, shapeCast_self, shapeCast_self, shapeCast_self,
    shapeCast_self, vecDivCol, vecDivCol, Cert.Dense.matmul_zero_eq_mm _ rfl rfl rfl rfl rfl rfl, Cert.BiasRow.vecAddRow,
    vecScaleCols, Cert.BiasRow.vecAddRow]
  rfl

/-- The five row-blocked inputs and the result move together: block `t` is rows `4000 t …`, all columns; the weight
    and the three one-row arrays are read whole at every point. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = t.val ∧ win5_9.index t (1 : Fin 2) = 0 :=
  (by decide +kernel : ∀ t : Fin grid5.N, _)

/-! ## What each window's block holds

A window whose block is its whole array holds that array at every point; a row-blocked window's block `t` holds, at its
row `p'`, row `4000 t + p'` of the array. -/

/-- The weight's block is the whole weight. -/
theorem iblk5_5 (c : Dev nD) (t : Fin cfg5.N) : (iblk5 V c 5 t : S64x64.Idx → EReal) = V c main_arg25 := by
  obtain ⟨e00, e01, e10, e11, e20, e21, e30, e31, e40, e41, e50, e51, e60, e61, e70, e71, e80, e81, e90, e91⟩ := idx_facts5 t
  funext y
  show (V c main_arg25 : S64x64.Idx → EReal) (((cfg5.win 5).blk t).view.emb y) = V c main_arg25 y
  refine congrArg _ ?_
  funext a; apply Fin.ext
  match a with
  | ⟨0, _⟩ => show win5_5.index t (0 : Fin 2) * 64 + 1 * (y 0).val = (y 0).val; omega
  | ⟨1, _⟩ => show win5_5.index t (1 : Fin 2) * 64 + 1 * (y 1).val = (y 1).val; omega

/-- The bias row's block is the whole row. -/
theorem iblk5_6 (c : Dev nD) (t : Fin cfg5.N) : (iblk5 V c 6 t : S1x64.Idx → EReal) = V c main_v90 := by
  obtain ⟨e00, e01, e10, e11, e20, e21, e30, e31, e40, e41, e50, e51, e60, e61, e70, e71, e80, e81, e90, e91⟩ := idx_facts5 t
  funext y
  show (V c main_v90 : S1x64.Idx → EReal) (((cfg5.win 6).blk t).view.emb y) = V c main_v90 y
  refine congrArg _ ?_
  funext a; apply Fin.ext
  match a with
  | ⟨0, _⟩ => show win5_6.index t (0 : Fin 2) * 1 + 1 * (y 0).val = (y 0).val; omega
  | ⟨1, _⟩ => show win5_6.index t (1 : Fin 2) * 64 + 1 * (y 1).val = (y 1).val; omega

/-- The scale row's block is the whole row. -/
theorem iblk5_7 (c : Dev nD) (t : Fin cfg5.N) : (iblk5 V c 7 t : S1x64.Idx → EReal) = V c main_v91 := by
  obtain ⟨e00, e01, e10, e11, e20, e21, e30, e31, e40, e41, e50, e51, e60, e61, e70, e71, e80, e81, e90, e91⟩ := idx_facts5 t
  funext y
  show (V c main_v91 : S1x64.Idx → EReal) (((cfg5.win 7).blk t).view.emb y) = V c main_v91 y
  refine congrArg _ ?_
  funext a; apply Fin.ext
  match a with
  | ⟨0, _⟩ => show win5_7.index t (0 : Fin 2) * 1 + 1 * (y 0).val = (y 0).val; omega
  | ⟨1, _⟩ => show win5_7.index t (1 : Fin 2) * 64 + 1 * (y 1).val = (y 1).val; omega

/-- The shift row's block is the whole row. -/
theorem iblk5_8 (c : Dev nD) (t : Fin cfg5.N) : (iblk5 V c 8 t : S1x64.Idx → EReal) = V c main_v92 := by
  obtain ⟨e00, e01, e10, e11, e20, e21, e30, e31, e40, e41, e50, e51, e60, e61, e70, e71, e80, e81, e90, e91⟩ := idx_facts5 t
  funext y
  show (V c main_v92 : S1x64.Idx → EReal) (((cfg5.win 8).blk t).view.emb y) = V c main_v92 y
  refine congrArg _ ?_
  funext a; apply Fin.ext
  match a with
  | ⟨0, _⟩ => show win5_8.index t (0 : Fin 2) * 1 + 1 * (y 0).val = (y 0).val; omega
  | ⟨1, _⟩ => show win5_8.index t (1 : Fin 2) * 64 + 1 * (y 1).val = (y 1).val; omega

/-- Row `p'` of the centre rows' block `t` is row `4000 t + p'` of the array. -/
theorem iblk5_0_at (c : Dev nD) (t : Fin cfg5.N) (p' : Fin 4000) (k : Fin 64) (h : t.val * 4000 + p'.val < 20000) :
    (iblk5 V c 0 t : S4000x64.Idx → EReal) (ix2 p' k) = (V c main_v72 : S20000x64.Idx → EReal) (ix2 (⟨t.val * 4000 + p'.val, h⟩ : Fin 20000) k) := by
  obtain ⟨e00, e01, e10, e11, e20, e21, e30, e31, e40, e41, e50, e51, e60, e61, e70, e71, e80, e81, e90, e91⟩ := idx_facts5 t
  show (V c main_v72 : S20000x64.Idx → EReal) (((cfg5.win 0).blk t).view.emb (ix2 p' k)) = _
  refine congrArg _ ?_
  funext a; apply Fin.ext
  match a with
  | ⟨0, _⟩ => show win5_0.index t (0 : Fin 2) * 4000 + 1 * p'.val = t.val * 4000 + p'.val; omega
  | ⟨1, _⟩ => show win5_0.index t (1 : Fin 2) * 64 + 1 * k.val = k.val; omega

/-- Row `p'` of the first pooled sum's block `t` is row `4000 t + p'` of the array. -/
theorem iblk5_1_at (c : Dev nD) (t : Fin cfg5.N) (p' : Fin 4000) (k : Fin 64) (h : t.val * 4000 + p'.val < 20000) :
    (iblk5 V c 1 t : S4000x64.Idx → EReal) (ix2 p' k) = (V c main_v84 : S20000x64.Idx → EReal) (ix2 (⟨t.val * 4000 + p'.val, h⟩ : Fin 20000) k) := by
  obtain ⟨e00, e01, e10, e11, e20, e21, e30, e31, e40, e41, e50, e51, e60, e61, e70, e71, e80, e81, e90, e91⟩ := idx_facts5 t
  show (V c main_v84 : S20000x64.Idx → EReal) (((cfg5.win 1).blk t).view.emb (ix2 p' k)) = _
  refine congrArg _ ?_
  funext a; apply Fin.ext
  match a with
  | ⟨0, _⟩ => show win5_1.index t (0 : Fin 2) * 4000 + 1 * p'.val = t.val * 4000 + p'.val; omega
  | ⟨1, _⟩ => show win5_1.index t (1 : Fin 2) * 64 + 1 * k.val = k.val; omega

/-- Entry `p'` of the first count column's block `t` is entry `4000 t + p'` of the column. -/
theorem iblk5_2_at (c : Dev nD) (t : Fin cfg5.N) (p' : Fin 4000) (h : t.val * 4000 + p'.val < 20000) :
    (iblk5 V c 2 t : S4000x1.Idx → EReal) (ix2 p' (0 : Fin 1)) = (V c main_v88 : S20000x1.Idx → EReal) (ix2 (⟨t.val * 4000 + p'.val, h⟩ : Fin 20000) (0 : Fin 1)) := by
  obtain ⟨e00, e01, e10, e11, e20, e21, e30, e31, e40, e41, e50, e51, e60, e61, e70, e71, e80, e81, e90, e91⟩ := idx_facts5 t
  show (V c main_v88 : S20000x1.Idx → EReal) (((cfg5.win 2).blk t).view.emb (ix2 p' (0 : Fin 1))) = _
  refine congrArg _ ?_
  funext a; apply Fin.ext
  match a with
  | ⟨0, _⟩ => show win5_2.index t (0 : Fin 2) * 4000 + 1 * p'.val = t.val * 4000 + p'.val; omega
  | ⟨1, _⟩ => show win5_2.index t (1 : Fin 2) * 1 + 1 * 0 = 0; omega

/-- Row `p'` of the second pooled sum's block `t` is row `4000 t + p'` of the array. -/
theorem iblk5_3_at (c : Dev nD) (t : Fin cfg5.N) (p' : Fin 4000) (k : Fin 64) (h : t.val * 4000 + p'.val < 20000) :
    (iblk5 V c 3 t : S4000x64.Idx → EReal) (ix2 p' k) = (V c main_v87 : S20000x64.Idx → EReal) (ix2 (⟨t.val * 4000 + p'.val, h⟩ : Fin 20000) k) := by
  obtain ⟨e00, e01, e10, e11, e20, e21, e30, e31, e40, e41, e50, e51, e60, e61, e70, e71, e80, e81, e90, e91⟩ := idx_facts5 t
  show (V c main_v87 : S20000x64.Idx → EReal) (((cfg5.win 3).blk t).view.emb (ix2 p' k)) = _
  refine congrArg _ ?_
  funext a; apply Fin.ext
  match a with
  | ⟨0, _⟩ => show win5_3.index t (0 : Fin 2) * 4000 + 1 * p'.val = t.val * 4000 + p'.val; omega
  | ⟨1, _⟩ => show win5_3.index t (1 : Fin 2) * 64 + 1 * k.val = k.val; omega

/-- Entry `p'` of the second count column's block `t` is entry `4000 t + p'` of the column. -/
theorem iblk5_4_at (c : Dev nD) (t : Fin cfg5.N) (p' : Fin 4000) (h : t.val * 4000 + p'.val < 20000) :
    (iblk5 V c 4 t : S4000x1.Idx → EReal) (ix2 p' (0 : Fin 1)) = (V c main_v89 : S20000x1.Idx → EReal) (ix2 (⟨t.val * 4000 + p'.val, h⟩ : Fin 20000) (0 : Fin 1)) := by
  obtain ⟨e00, e01, e10, e11, e20, e21, e30, e31, e40, e41, e50, e51, e60, e61, e70, e71, e80, e81, e90, e91⟩ := idx_facts5 t
  show (V c main_v89 : S20000x1.Idx → EReal) (((cfg5.win 4).blk t).view.emb (ix2 p' (0 : Fin 1))) = _
  refine congrArg _ ?_
  funext a; apply Fin.ext
  match a with
  | ⟨0, _⟩ => show win5_4.index t (0 : Fin 2) * 4000 + 1 * p'.val = t.val * 4000 + p'.val; omega
  | ⟨1, _⟩ => show win5_4.index t (1 : Fin 2) * 1 + 1 * 0 = 0; omega

/-- What point `t` writes back is block `t` of the output layer of the pooled sum of the whole input arrays: the pooled rows
    of the block agree with the same rows of the whole pooled sum, and the output layer is row-local. -/
theorem flushed5_eq (c : Dev nD) (t : Fin cfg5.N) :
    (dat5 V c).flushed 9 t = ((cfg5.win 9).blk t).view.read (Elt Ideal)
      (outLayer (pooled (V c main_v72) (V c main_v84) (V c main_v88) (V c main_v87) (V c main_v89)) (V c main_arg25) (V c main_v90) (V c main_v91) (V c main_v92)) := by
  show (cfg5.win 9).cut (grid5.coords t) ((dat5 V c).after 9 t) = _
  rw [after5_9]
  unfold out5_9
  rw [View.canon_unit_zero hz5]
  simp only [View.ld_unit_zero (S := S4000x64) hz5, View.ld_unit_zero (S := S4000x1) hz5, View.ld_unit_zero (S := S64x64) hz5,
    View.ld_unit_zero (S := S1x64) hz5]
  rw [pay5_eq]
  have hN : grid5.N = 5 := N_5
  have ht : t.val < grid5.N := t.isLt
  obtain ⟨e00, e01, e10, e11, e20, e21, e30, e31, e40, e41, e50, e51, e60, e61, e70, e71, e80, e81, e90, e91⟩ := idx_facts5 t
  funext j
  obtain ⟨p', q, rfl⟩ : ∃ (p' : Fin 4000) (q : Fin 64), j = ix2 p' q := ⟨j 0, j 1, eq_ix2 j⟩
  have hp : t.val * 4000 + p'.val < 20000 := by have := p'.isLt; omega
  show outLayer (pooled (iblk5 V c 0 t) (iblk5 V c 1 t) (iblk5 V c 2 t) (iblk5 V c 3 t) (iblk5 V c 4 t)) (iblk5 V c 5 t)
      (iblk5 V c 6 t) (iblk5 V c 7 t) (iblk5 V c 8 t) (ix2 p' q)
    = (outLayer (pooled (V c main_v72) (V c main_v84) (V c main_v88) (V c main_v87) (V c main_v89)) (V c main_arg25) (V c main_v90) (V c main_v91) (V c main_v92)) (((cfg5.win 9).blk t).view.emb (ix2 p' q))
  have hemb : ((cfg5.win 9).blk t).view.emb (ix2 p' q) = (ix2 (⟨t.val * 4000 + p'.val, hp⟩ : Fin 20000) q : S20000x64.Idx) := by
    funext a; apply Fin.ext
    match a with
    | ⟨0, _⟩ => show win5_9.index t (0 : Fin 2) * 4000 + 1 * p'.val = t.val * 4000 + p'.val; omega
    | ⟨1, _⟩ => show win5_9.index t (1 : Fin 2) * 64 + 1 * q.val = q.val; omega
  rw [hemb, iblk5_5, iblk5_6, iblk5_7, iblk5_8]
  refine outLayer_at _ _ _ _ _ _ _ _ _ (fun k => ?_)
  rw [pooled_apply, pooled_apply, iblk5_0_at V c t p' k hp, iblk5_1_at V c t p' k hp, iblk5_2_at V c t p' hp,
    iblk5_3_at V c t p' k hp, iblk5_4_at V c t p' hp]

/-- An index of the result array is in point `t`'s block iff each coordinate is in the block's range on its axis. -/
theorem mem_blk5 (t : Fin cfg5.N) (i : S20000x64.Idx) :
    i ∈ ((cfg5.win 9).blk t).view.set ↔ ∀ a : Fin 2, win5_9.index t a * S4000x64.size a ≤ (i a).val ∧ (i a).val < win5_9.index t a * S4000x64.size a + S4000x64.size a := by
  show i ∈ ((View.whole main_v93).slice (win5_9.rect t)).set ↔ _
  rw [View.set_slice_whole, Rect.mem_set_unit]
  exact Iff.rfl

/-- Row `r` is in the block of point `r / 4000`. -/
theorem cover5 (i : S20000x64.Idx) : ∃ t : Fin cfg5.N, (cfg5.win 9).flush t = true ∧ i ∈ ((cfg5.win 9).blk t).view.set := by
  have hi0 : (i 0).val < 20000 := idx2_lt0 i
  have hi1 : (i 1).val < 64 := idx2_lt1 i
  have hN : grid5.N = 5 := N_5
  let t : Fin cfg5.N := ⟨(i 0).val / 4000, by show _ < grid5.N; omega⟩
  obtain ⟨e00, e01, e10, e11, e20, e21, e30, e31, e40, e41, e50, e51, e60, e61, e70, e71, e80, e81, e90, e91⟩ := idx_facts5 t
  have ht : t.val = (i 0).val / 4000 := rfl
  refine ⟨t, flush5_9 t, ?_⟩
  rw [mem_blk5]
  intro a
  match a with
  | ⟨0, _⟩ => show win5_9.index t (0 : Fin 2) * 4000 ≤ (i 0).val ∧ (i 0).val < win5_9.index t (0 : Fin 2) * 4000 + 4000; omega
  | ⟨1, _⟩ => show win5_9.index t (1 : Fin 2) * 64 ≤ (i 1).val ∧ (i 1).val < win5_9.index t (1 : Fin 2) * 64 + 64; omega

/-- After region 5 the result array is the output layer of the pooled sum of the input arrays as the region found them. -/
theorem final5 (c : Dev nD) : (dat5 V c).arrAt 9 cfg5.N
    = outLayer (pooled (V c main_v72) (V c main_v84) (V c main_v88) (V c main_v87) (V c main_v89)) (V c main_arg25) (V c main_v90)
        (V c main_v91) (V c main_v92) :=
  (dat5 V c).arrAt_eq_of_cover 9 _ (fun t _ => flushed5_eq V c t) cover5

end Cert.KernelIdeal.Val

end
-- ==== Proof.KTail.lean ====
/-
  The last part of the kernel program's value: from the exit of the fifth region to the result.

  Between that region and the last one the host forms three segment sums (of the centre's share by centre, and of the two
  heads' rows by centre and by source), the two segment counts clipped below by one, as columns, and three vectors reshaped
  to one-row arrays. Each is, term for term, the reference's corresponding stage once the three arrays it starts from are.
  The last region then applies the output layer to the pooled sum, which is how the reference's result reads too.
-/
import proofs.«150507_j36661840838787_2_alg».proof.Proof.Gen.KernelIdeal.Frame
import proofs.«150507_j36661840838787_2_alg».proof.Proof.Gen.ReferenceIdeal.Read
import proofs.«150507_j36661840838787_2_alg».proof.Proof.Layers
import proofs.«150507_j36661840838787_2_alg».proof.Proof.RefSide
import proofs.«150507_j36661840838787_2_alg».proof.Proof.HostKeep
import proofs.«150507_j36661840838787_2_alg».proof.Proof.Reg5

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo
open Idealize.SL Idealize.SL.Sem
open Cert.Dense Cert.LayerForms Cert.Layers Cert.ReferenceIdeal.RefValue

variable (m : (ℓ : Loc nD τ sig) → Buf (Elt Ideal) ℓ) (ρ : Dev nD → PrngReg) (c : Dev nD)

/-! ## The arguments the last stretches read are as launched

No region up to the fifth and no host operation before it writes an argument's buffer. -/

theorem t_a10_25 : W10 m ρ c (Proc.devRef .tc main_arg25) = (m ((c : Thread nD τ).loc main_arg25)) :=
  Eq.trans (W10_of_ne m ρ c main_arg25 (by decide)) <| Eq.trans (by hk) <| Eq.trans (W8_of_ne m ρ c main_arg25 (by decide)) <|
    Eq.trans (by hk) <| Eq.trans (W6_of_ne m ρ c main_arg25 (by decide)) <| Eq.trans (by hk) <|
    Eq.trans (W4_of_ne m ρ c main_arg25 (by decide)) <| Eq.trans (by hk) <| Eq.trans (W2_of_ne m ρ c main_arg25 (by decide)) <|
    Eq.trans (by hk) (show W0 m ρ c (Proc.devRef .tc main_arg25) = (m ((c : Thread nD τ).loc main_arg25)) from rfl)
theorem t_a10_26 : W10 m ρ c (Proc.devRef .tc main_arg26) = (m ((c : Thread nD τ).loc main_arg26)) :=
  Eq.trans (W10_of_ne m ρ c main_arg26 (by decide)) <| Eq.trans (by hk) <| Eq.trans (W8_of_ne m ρ c main_arg26 (by decide)) <|
    Eq.trans (by hk) <| Eq.trans (W6_of_ne m ρ c main_arg26 (by decide)) <| Eq.trans (by hk) <|
    Eq.trans (W4_of_ne m ρ c main_arg26 (by decide)) <| Eq.trans (by hk) <| Eq.trans (W2_of_ne m ρ c main_arg26 (by decide)) <|
    Eq.trans (by hk) (show W0 m ρ c (Proc.devRef .tc main_arg26) = (m ((c : Thread nD τ).loc main_arg26)) from rfl)
theorem t_a10_27 : W10 m ρ c (Proc.devRef .tc main_arg27) = (m ((c : Thread nD τ).loc main_arg27)) :=
  Eq.trans (W10_of_ne m ρ c main_arg27 (by decide)) <| Eq.trans (by hk) <| Eq.trans (W8_of_ne m ρ c main_arg27 (by decide)) <|
    Eq.trans (by hk) <| Eq.trans (W6_of_ne m ρ c main_arg27 (by decide)) <| Eq.trans (by hk) <|
    Eq.trans (W4_of_ne m ρ c main_arg27 (by decide)) <| Eq.trans (by hk) <| Eq.trans (W2_of_ne m ρ c main_arg27 (by decide)) <|
    Eq.trans (by hk) (show W0 m ρ c (Proc.devRef .tc main_arg27) = (m ((c : Thread nD τ).loc main_arg27)) from rfl)
theorem t_a10_28 : W10 m ρ c (Proc.devRef .tc main_arg28) = (m ((c : Thread nD τ).loc main_arg28)) :=
  Eq.trans (W10_of_ne m ρ c main_arg28 (by decide)) <| Eq.trans (by hk) <| Eq.trans (W8_of_ne m ρ c main_arg28 (by decide)) <|
    Eq.trans (by hk) <| Eq.trans (W6_of_ne m ρ c main_arg28 (by decide)) <| Eq.trans (by hk) <|
    Eq.trans (W4_of_ne m ρ c main_arg28 (by decide)) <| Eq.trans (by hk) <| Eq.trans (W2_of_ne m ρ c main_arg28 (by decide)) <|
    Eq.trans (by hk) (show W0 m ρ c (Proc.devRef .tc main_arg28) = (m ((c : Thread nD τ).loc main_arg28)) from rfl)
theorem t_a10_29 : W10 m ρ c (Proc.devRef .tc main_arg29) = (m ((c : Thread nD τ).loc main_arg29)) :=
  Eq.trans (W10_of_ne m ρ c main_arg29 (by decide)) <| Eq.trans (by hk) <| Eq.trans (W8_of_ne m ρ c main_arg29 (by decide)) <|
    Eq.trans (by hk) <| Eq.trans (W6_of_ne m ρ c main_arg29 (by decide)) <| Eq.trans (by hk) <|
    Eq.trans (W4_of_ne m ρ c main_arg29 (by decide)) <| Eq.trans (by hk) <| Eq.trans (W2_of_ne m ρ c main_arg29 (by decide)) <|
    Eq.trans (by hk) (show W0 m ρ c (Proc.devRef .tc main_arg29) = (m ((c : Thread nD τ).loc main_arg29)) from rfl)
theorem t_a10_32 : W10 m ρ c (Proc.devRef .tc main_arg32) = (m ((c : Thread nD τ).loc main_arg32)) :=
  Eq.trans (W10_of_ne m ρ c main_arg32 (by decide)) <| Eq.trans (by hk) <| Eq.trans (W8_of_ne m ρ c main_arg32 (by decide)) <|
    Eq.trans (by hk) <| Eq.trans (W6_of_ne m ρ c main_arg32 (by decide)) <| Eq.trans (by hk) <|
    Eq.trans (W4_of_ne m ρ c main_arg32 (by decide)) <| Eq.trans (by hk) <| Eq.trans (W2_of_ne m ρ c main_arg32 (by decide)) <|
    Eq.trans (by hk) (show W0 m ρ c (Proc.devRef .tc main_arg32) = (m ((c : Thread nD τ).loc main_arg32)) from rfl)

/-! ## The first stretch: the centre sum, the ones, the first count -/

theorem t_k11_v72 (h0 : W10 m ρ c (Proc.devRef .tc main_v69_0) = Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg19)) (m ((c : Thread nD τ).loc main_arg20)) (m ((c : Thread nD τ).loc main_arg29)) (m ((c : Thread nD τ).loc main_arg30)) (m ((c : Thread nD τ).loc main_arg31)) (m ((c : Thread nD τ).loc main_arg32)) (m ((c : Thread nD τ).loc main_arg33))) : W11 m ρ c (Proc.devRef .tc main_v72) = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg19)) (m ((c : Thread nD τ).loc main_arg20)) (m ((c : Thread nD τ).loc main_arg29)) (m ((c : Thread nD τ).loc main_arg30)) (m ((c : Thread nD τ).loc main_arg31)) (m ((c : Thread nD τ).loc main_arg32)) (m ((c : Thread nD τ).loc main_arg33)) := by
  show StableHlo.after hostOps5 (W10 m ρ c) (Proc.devRef .tc _) = _
  after_results
  rw [h0, t_a10_32]
  rfl
theorem t_k11_v73 : W11 m ρ c (Proc.devRef .tc main_v73) = Cert.ReferenceIdeal.Read.val_main_v139 (F := Ideal) := by
  show StableHlo.after hostOps5 (W10 m ρ c) (Proc.devRef .tc _) = _
  after_results
  rfl
theorem t_k11_v76 : W11 m ρ c (Proc.devRef .tc main_v76) = Cert.ReferenceIdeal.Read.val_main_v142 (F := Ideal) (m ((c : Thread nD τ).loc main_arg32)) := by
  show StableHlo.after hostOps5 (W10 m ρ c) (Proc.devRef .tc _) = _
  after_results
  rw [t_a10_32]
  rfl
theorem t_k11_cst14 : W11 m ρ c (Proc.devRef .tc main_cst_14) = Cert.ReferenceIdeal.Read.val_main_cst_20 (F := Ideal) := by
  show StableHlo.after hostOps5 (W10 m ρ c) (Proc.devRef .tc _) = _
  after_results
  rfl

/-! ## The first clip: the first count, at least one

From here on each stretch is read over an arbitrary valuation holding the stretch's operands, and then applied to the
contents at the stretch's entry. -/

theorem t_k12_v77 : W12 m ρ c (Proc.devRef .tc main_v77) = Cert.ReferenceIdeal.Read.val_main_v143 (F := Ideal) (m ((c : Thread nD τ).loc main_arg32)) := by
  have key : ∀ V : Valuation τ sig (Elt Ideal), V (Proc.devRef .tc main_cst_14) = Cert.ReferenceIdeal.Read.val_main_cst_20 (F := Ideal) → V (Proc.devRef .tc main_v76) = Cert.ReferenceIdeal.Read.val_main_v142 (F := Ideal) (m ((c : Thread nD τ).loc main_arg32)) →
      StableHlo.after hostOps5_1 V (Proc.devRef .tc main_v77) = Cert.ReferenceIdeal.Read.val_main_v143 (F := Ideal) (m ((c : Thread nD τ).loc main_arg32)) := by
    intro V e1 e2
    after_results
    rw [e1, e2]
    rfl
  exact key (W11 m ρ c) (t_k11_cst14 m ρ c) (t_k11_v76 m ρ c)
theorem t_c12_v73 : W12 m ρ c (Proc.devRef .tc main_v73) = Cert.ReferenceIdeal.Read.val_main_v139 (F := Ideal) :=
  Eq.trans (show W12 m ρ c (Proc.devRef .tc main_v73) = W11 m ρ c (Proc.devRef .tc main_v73) from by hk) <| t_k11_v73 m ρ c
theorem t_a12_29 : W12 m ρ c (Proc.devRef .tc main_arg29) = (m ((c : Thread nD τ).loc main_arg29)) :=
  Eq.trans (show W12 m ρ c (Proc.devRef .tc main_arg29) = W11 m ρ c (Proc.devRef .tc main_arg29) from by hk) <| Eq.trans (show W11 m ρ c (Proc.devRef .tc main_arg29) = W10 m ρ c (Proc.devRef .tc main_arg29) from by hk) <| t_a10_29 m ρ c

/-! ## The second stretch: the second count -/

theorem t_k13_v80 : W13 m ρ c (Proc.devRef .tc main_v80) = Cert.ReferenceIdeal.Read.val_main_v146 (F := Ideal) (m ((c : Thread nD τ).loc main_arg29)) := by
  have key : ∀ V : Valuation τ sig (Elt Ideal), V (Proc.devRef .tc main_arg29) = (m ((c : Thread nD τ).loc main_arg29)) → V (Proc.devRef .tc main_v73) = Cert.ReferenceIdeal.Read.val_main_v139 (F := Ideal) →
      StableHlo.after hostOps5_2 V (Proc.devRef .tc main_v80) = Cert.ReferenceIdeal.Read.val_main_v146 (F := Ideal) (m ((c : Thread nD τ).loc main_arg29)) := by
    intro V e1 e2
    after_results
    rw [e1, e2]
    rfl
  exact key (W12 m ρ c) (t_a12_29 m ρ c) (t_c12_v73 m ρ c)
theorem t_k13_cst16 : W13 m ρ c (Proc.devRef .tc main_cst_16) = Cert.ReferenceIdeal.Read.val_main_cst_22 (F := Ideal) := by
  have key : ∀ V : Valuation τ sig (Elt Ideal),
      StableHlo.after hostOps5_2 V (Proc.devRef .tc main_cst_16) = Cert.ReferenceIdeal.Read.val_main_cst_22 (F := Ideal) := by
    intro V
    after_results
    rfl
  exact key (W12 m ρ c)

/-! ## The second clip: the second count, at least one -/

theorem t_k14_v81 : W14 m ρ c (Proc.devRef .tc main_v81) = Cert.ReferenceIdeal.Read.val_main_v147 (F := Ideal) (m ((c : Thread nD τ).loc main_arg29)) := by
  have key : ∀ V : Valuation τ sig (Elt Ideal), V (Proc.devRef .tc main_cst_16) = Cert.ReferenceIdeal.Read.val_main_cst_22 (F := Ideal) → V (Proc.devRef .tc main_v80) = Cert.ReferenceIdeal.Read.val_main_v146 (F := Ideal) (m ((c : Thread nD τ).loc main_arg29)) →
      StableHlo.after hostOps5_3 V (Proc.devRef .tc main_v81) = Cert.ReferenceIdeal.Read.val_main_v147 (F := Ideal) (m ((c : Thread nD τ).loc main_arg29)) := by
    intro V e1 e2
    after_results
    rw [e1, e2]
    rfl
  exact key (W13 m ρ c) (t_k13_cst16 m ρ c) (t_k13_v80 m ρ c)
theorem t_c14_v77 : W14 m ρ c (Proc.devRef .tc main_v77) = Cert.ReferenceIdeal.Read.val_main_v143 (F := Ideal) (m ((c : Thread nD τ).loc main_arg32)) :=
  Eq.trans (show W14 m ρ c (Proc.devRef .tc main_v77) = W13 m ρ c (Proc.devRef .tc main_v77) from by hk) <| Eq.trans (show W13 m ρ c (Proc.devRef .tc main_v77) = W12 m ρ c (Proc.devRef .tc main_v77) from by hk) <| t_k12_v77 m ρ c
theorem t_c14_v69_1 (h1 : W10 m ρ c (Proc.devRef .tc main_v69_1) = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg29)) (m ((c : Thread nD τ).loc main_arg30)) (m ((c : Thread nD τ).loc main_arg31)) (m ((c : Thread nD τ).loc main_arg33))) : W14 m ρ c (Proc.devRef .tc main_v69_1) = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg29)) (m ((c : Thread nD τ).loc main_arg30)) (m ((c : Thread nD τ).loc main_arg31)) (m ((c : Thread nD τ).loc main_arg33)) :=
  Eq.trans (show W14 m ρ c (Proc.devRef .tc main_v69_1) = W13 m ρ c (Proc.devRef .tc main_v69_1) from by hk) <| Eq.trans (show W13 m ρ c (Proc.devRef .tc main_v69_1) = W12 m ρ c (Proc.devRef .tc main_v69_1) from by hk) <| Eq.trans (show W12 m ρ c (Proc.devRef .tc main_v69_1) = W11 m ρ c (Proc.devRef .tc main_v69_1) from by hk) <| Eq.trans (show W11 m ρ c (Proc.devRef .tc main_v69_1) = W10 m ρ c (Proc.devRef .tc main_v69_1) from by hk) <| h1
theorem t_c14_v69_2 (h2 : W10 m ρ c (Proc.devRef .tc main_v69_2) = Cert.ReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) (m ((c : Thread nD τ).loc main_arg29)) (m ((c : Thread nD τ).loc main_arg30)) (m ((c : Thread nD τ).loc main_arg31)) (m ((c : Thread nD τ).loc main_arg33))) : W14 m ρ c (Proc.devRef .tc main_v69_2) = Cert.ReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) (m ((c : Thread nD τ).loc main_arg29)) (m ((c : Thread nD τ).loc main_arg30)) (m ((c : Thread nD τ).loc main_arg31)) (m ((c : Thread nD τ).loc main_arg33)) :=
  Eq.trans (show W14 m ρ c (Proc.devRef .tc main_v69_2) = W13 m ρ c (Proc.devRef .tc main_v69_2) from by hk) <| Eq.trans (show W13 m ρ c (Proc.devRef .tc main_v69_2) = W12 m ρ c (Proc.devRef .tc main_v69_2) from by hk) <| Eq.trans (show W12 m ρ c (Proc.devRef .tc main_v69_2) = W11 m ρ c (Proc.devRef .tc main_v69_2) from by hk) <| Eq.trans (show W11 m ρ c (Proc.devRef .tc main_v69_2) = W10 m ρ c (Proc.devRef .tc main_v69_2) from by hk) <| h2
theorem t_a14_26 : W14 m ρ c (Proc.devRef .tc main_arg26) = (m ((c : Thread nD τ).loc main_arg26)) :=
  Eq.trans (show W14 m ρ c (Proc.devRef .tc main_arg26) = W13 m ρ c (Proc.devRef .tc main_arg26) from by hk) <| Eq.trans (show W13 m ρ c (Proc.devRef .tc main_arg26) = W12 m ρ c (Proc.devRef .tc main_arg26) from by hk) <| Eq.trans (show W12 m ρ c (Proc.devRef .tc main_arg26) = W11 m ρ c (Proc.devRef .tc main_arg26) from by hk) <| Eq.trans (show W11 m ρ c (Proc.devRef .tc main_arg26) = W10 m ρ c (Proc.devRef .tc main_arg26) from by hk) <| t_a10_26 m ρ c
theorem t_a14_27 : W14 m ρ c (Proc.devRef .tc main_arg27) = (m ((c : Thread nD τ).loc main_arg27)) :=
  Eq.trans (show W14 m ρ c (Proc.devRef .tc main_arg27) = W13 m ρ c (Proc.devRef .tc main_arg27) from by hk) <| Eq.trans (show W13 m ρ c (Proc.devRef .tc main_arg27) = W12 m ρ c (Proc.devRef .tc main_arg27) from by hk) <| Eq.trans (show W12 m ρ c (Proc.devRef .tc main_arg27) = W11 m ρ c (Proc.devRef .tc main_arg27) from by hk) <| Eq.trans (show W11 m ρ c (Proc.devRef .tc main_arg27) = W10 m ρ c (Proc.devRef .tc main_arg27) from by hk) <| t_a10_27 m ρ c
theorem t_a14_28 : W14 m ρ c (Proc.devRef .tc main_arg28) = (m ((c : Thread nD τ).loc main_arg28)) :=
  Eq.trans (show W14 m ρ c (Proc.devRef .tc main_arg28) = W13 m ρ c (Proc.devRef .tc main_arg28) from by hk) <| Eq.trans (show W13 m ρ c (Proc.devRef .tc main_arg28) = W12 m ρ c (Proc.devRef .tc main_arg28) from by hk) <| Eq.trans (show W12 m ρ c (Proc.devRef .tc main_arg28) = W11 m ρ c (Proc.devRef .tc main_arg28) from by hk) <| Eq.trans (show W11 m ρ c (Proc.devRef .tc main_arg28) = W10 m ρ c (Proc.devRef .tc main_arg28) from by hk) <| t_a10_28 m ρ c
theorem t_a14_29 : W14 m ρ c (Proc.devRef .tc main_arg29) = (m ((c : Thread nD τ).loc main_arg29)) :=
  Eq.trans (show W14 m ρ c (Proc.devRef .tc main_arg29) = W13 m ρ c (Proc.devRef .tc main_arg29) from by hk) <| Eq.trans (show W13 m ρ c (Proc.devRef .tc main_arg29) = W12 m ρ c (Proc.devRef .tc main_arg29) from by hk) <| Eq.trans (show W12 m ρ c (Proc.devRef .tc main_arg29) = W11 m ρ c (Proc.devRef .tc main_arg29) from by hk) <| Eq.trans (show W11 m ρ c (Proc.devRef .tc main_arg29) = W10 m ρ c (Proc.devRef .tc main_arg29) from by hk) <| t_a10_29 m ρ c
theorem t_a14_32 : W14 m ρ c (Proc.devRef .tc main_arg32) = (m ((c : Thread nD τ).loc main_arg32)) :=
  Eq.trans (show W14 m ρ c (Proc.devRef .tc main_arg32) = W13 m ρ c (Proc.devRef .tc main_arg32) from by hk) <| Eq.trans (show W13 m ρ c (Proc.devRef .tc main_arg32) = W12 m ρ c (Proc.devRef .tc main_arg32) from by hk) <| Eq.trans (show W12 m ρ c (Proc.devRef .tc main_arg32) = W11 m ρ c (Proc.devRef .tc main_arg32) from by hk) <| Eq.trans (show W11 m ρ c (Proc.devRef .tc main_arg32) = W10 m ρ c (Proc.devRef .tc main_arg32) from by hk) <| t_a10_32 m ρ c

/-! ## The last stretch: the two pooled sums, the two count columns, the three one-row arrays -/

theorem t_k15_v84 (h1 : W10 m ρ c (Proc.devRef .tc main_v69_1) = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg29)) (m ((c : Thread nD τ).loc main_arg30)) (m ((c : Thread nD τ).loc main_arg31)) (m ((c : Thread nD τ).loc main_arg33))) : W15 m ρ c (Proc.devRef .tc main_v84) = Cert.ReferenceIdeal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg29)) (m ((c : Thread nD τ).loc main_arg30)) (m ((c : Thread nD τ).loc main_arg31)) (m ((c : Thread nD τ).loc main_arg32)) (m ((c : Thread nD τ).loc main_arg33)) := by
  have key : ∀ V : Valuation τ sig (Elt Ideal), V (Proc.devRef .tc main_v69_1) = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg29)) (m ((c : Thread nD τ).loc main_arg30)) (m ((c : Thread nD τ).loc main_arg31)) (m ((c : Thread nD τ).loc main_arg33)) → V (Proc.devRef .tc main_arg32) = (m ((c : Thread nD τ).loc main_arg32)) →
      StableHlo.after hostOps5_4 V (Proc.devRef .tc main_v84) = Cert.ReferenceIdeal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg29)) (m ((c : Thread nD τ).loc main_arg30)) (m ((c : Thread nD τ).loc main_arg31)) (m ((c : Thread nD τ).loc main_arg32)) (m ((c : Thread nD τ).loc main_arg33)) := by
    intro V e1 e2
    after_results
    rw [e1, e2]
    rfl
  exact key (W14 m ρ c) (t_c14_v69_1 m ρ c h1) (t_a14_32 m ρ c)
theorem t_k15_v87 (h2 : W10 m ρ c (Proc.devRef .tc main_v69_2) = Cert.ReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) (m ((c : Thread nD τ).loc main_arg29)) (m ((c : Thread nD τ).loc main_arg30)) (m ((c : Thread nD τ).loc main_arg31)) (m ((c : Thread nD τ).loc main_arg33))) : W15 m ρ c (Proc.devRef .tc main_v87) = Cert.ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) (m ((c : Thread nD τ).loc main_arg29)) (m ((c : Thread nD τ).loc main_arg30)) (m ((c : Thread nD τ).loc main_arg31)) (m ((c : Thread nD τ).loc main_arg33)) := by
  have key : ∀ V : Valuation τ sig (Elt Ideal), V (Proc.devRef .tc main_v69_2) = Cert.ReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) (m ((c : Thread nD τ).loc main_arg29)) (m ((c : Thread nD τ).loc main_arg30)) (m ((c : Thread nD τ).loc main_arg31)) (m ((c : Thread nD τ).loc main_arg33)) → V (Proc.devRef .tc main_arg29) = (m ((c : Thread nD τ).loc main_arg29)) →
      StableHlo.after hostOps5_4 V (Proc.devRef .tc main_v87) = Cert.ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) (m ((c : Thread nD τ).loc main_arg29)) (m ((c : Thread nD τ).loc main_arg30)) (m ((c : Thread nD τ).loc main_arg31)) (m ((c : Thread nD τ).loc main_arg33)) := by
    intro V e1 e2
    after_results
    rw [e1, e2]
    rfl
  exact key (W14 m ρ c) (t_c14_v69_2 m ρ c h2) (t_a14_29 m ρ c)
theorem t_k15_v88 : W15 m ρ c (Proc.devRef .tc main_v88) = Cert.ReferenceIdeal.Read.val_main_v151 (F := Ideal) (m ((c : Thread nD τ).loc main_arg32)) := by
  have key : ∀ V : Valuation τ sig (Elt Ideal), V (Proc.devRef .tc main_v77) = Cert.ReferenceIdeal.Read.val_main_v143 (F := Ideal) (m ((c : Thread nD τ).loc main_arg32)) →
      StableHlo.after hostOps5_4 V (Proc.devRef .tc main_v88) = Cert.ReferenceIdeal.Read.val_main_v151 (F := Ideal) (m ((c : Thread nD τ).loc main_arg32)) := by
    intro V e1
    after_results
    rw [e1]
    rfl
  exact key (W14 m ρ c) (t_c14_v77 m ρ c)
theorem t_k15_v89 : W15 m ρ c (Proc.devRef .tc main_v89) = Cert.ReferenceIdeal.Read.val_main_v157 (F := Ideal) (m ((c : Thread nD τ).loc main_arg29)) := by
  have key : ∀ V : Valuation τ sig (Elt Ideal), V (Proc.devRef .tc main_v81) = Cert.ReferenceIdeal.Read.val_main_v147 (F := Ideal) (m ((c : Thread nD τ).loc main_arg29)) →
      StableHlo.after hostOps5_4 V (Proc.devRef .tc main_v89) = Cert.ReferenceIdeal.Read.val_main_v157 (F := Ideal) (m ((c : Thread nD τ).loc main_arg29)) := by
    intro V e1
    after_results
    rw [e1]
    rfl
  exact key (W14 m ρ c) (t_k14_v81 m ρ c)
theorem t_k15_v90 : W15 m ρ c (Proc.devRef .tc main_v90) = row (m ((c : Thread nD τ).loc main_arg26)) := by
  have key : ∀ V : Valuation τ sig (Elt Ideal), V (Proc.devRef .tc main_arg26) = (m ((c : Thread nD τ).loc main_arg26)) →
      StableHlo.after hostOps5_4 V (Proc.devRef .tc main_v90) = row (m ((c : Thread nD τ).loc main_arg26)) := by
    intro V e1
    after_results
    rw [e1]
    exact shapeCast_row _ _
  exact key (W14 m ρ c) (t_a14_26 m ρ c)
theorem t_k15_v91 : W15 m ρ c (Proc.devRef .tc main_v91) = row (m ((c : Thread nD τ).loc main_arg27)) := by
  have key : ∀ V : Valuation τ sig (Elt Ideal), V (Proc.devRef .tc main_arg27) = (m ((c : Thread nD τ).loc main_arg27)) →
      StableHlo.after hostOps5_4 V (Proc.devRef .tc main_v91) = row (m ((c : Thread nD τ).loc main_arg27)) := by
    intro V e1
    after_results
    rw [e1]
    exact shapeCast_row _ _
  exact key (W14 m ρ c) (t_a14_27 m ρ c)
theorem t_k15_v92 : W15 m ρ c (Proc.devRef .tc main_v92) = row (m ((c : Thread nD τ).loc main_arg28)) := by
  have key : ∀ V : Valuation τ sig (Elt Ideal), V (Proc.devRef .tc main_arg28) = (m ((c : Thread nD τ).loc main_arg28)) →
      StableHlo.after hostOps5_4 V (Proc.devRef .tc main_v92) = row (m ((c : Thread nD τ).loc main_arg28)) := by
    intro V e1
    after_results
    rw [e1]
    exact shapeCast_row _ _
  exact key (W14 m ρ c) (t_a14_28 m ρ c)
theorem t_c15_v72 (h0 : W10 m ρ c (Proc.devRef .tc main_v69_0) = Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg19)) (m ((c : Thread nD τ).loc main_arg20)) (m ((c : Thread nD τ).loc main_arg29)) (m ((c : Thread nD τ).loc main_arg30)) (m ((c : Thread nD τ).loc main_arg31)) (m ((c : Thread nD τ).loc main_arg32)) (m ((c : Thread nD τ).loc main_arg33))) : W15 m ρ c (Proc.devRef .tc main_v72) = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg19)) (m ((c : Thread nD τ).loc main_arg20)) (m ((c : Thread nD τ).loc main_arg29)) (m ((c : Thread nD τ).loc main_arg30)) (m ((c : Thread nD τ).loc main_arg31)) (m ((c : Thread nD τ).loc main_arg32)) (m ((c : Thread nD τ).loc main_arg33)) :=
  Eq.trans (show W15 m ρ c (Proc.devRef .tc main_v72) = W14 m ρ c (Proc.devRef .tc main_v72) from by hk) <| Eq.trans (show W14 m ρ c (Proc.devRef .tc main_v72) = W13 m ρ c (Proc.devRef .tc main_v72) from by hk) <| Eq.trans (show W13 m ρ c (Proc.devRef .tc main_v72) = W12 m ρ c (Proc.devRef .tc main_v72) from by hk) <| Eq.trans (show W12 m ρ c (Proc.devRef .tc main_v72) = W11 m ρ c (Proc.devRef .tc main_v72) from by hk) <| t_k11_v72 m ρ c h0
theorem t_a15_25 : W15 m ρ c (Proc.devRef .tc main_arg25) = (m ((c : Thread nD τ).loc main_arg25)) :=
  Eq.trans (show W15 m ρ c (Proc.devRef .tc main_arg25) = W14 m ρ c (Proc.devRef .tc main_arg25) from by hk) <| Eq.trans (show W14 m ρ c (Proc.devRef .tc main_arg25) = W13 m ρ c (Proc.devRef .tc main_arg25) from by hk) <| Eq.trans (show W13 m ρ c (Proc.devRef .tc main_arg25) = W12 m ρ c (Proc.devRef .tc main_arg25) from by hk) <| Eq.trans (show W12 m ρ c (Proc.devRef .tc main_arg25) = W11 m ρ c (Proc.devRef .tc main_arg25) from by hk) <| Eq.trans (show W11 m ρ c (Proc.devRef .tc main_arg25) = W10 m ρ c (Proc.devRef .tc main_arg25) from by hk) <| t_a10_25 m ρ c

/-! ## The last region, and the result -/

/-- The program's result is the reference's once the three arrays the last stretches start from are the reference's. -/
theorem k16_v93 (h0 : W10 m ρ c (Proc.devRef .tc main_v69_0) = Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg19)) (m ((c : Thread nD τ).loc main_arg20)) (m ((c : Thread nD τ).loc main_arg29)) (m ((c : Thread nD τ).loc main_arg30)) (m ((c : Thread nD τ).loc main_arg31)) (m ((c : Thread nD τ).loc main_arg32)) (m ((c : Thread nD τ).loc main_arg33)))
    (h1 : W10 m ρ c (Proc.devRef .tc main_v69_1) = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg21)) (m ((c : Thread nD τ).loc main_arg22)) (m ((c : Thread nD τ).loc main_arg29)) (m ((c : Thread nD τ).loc main_arg30)) (m ((c : Thread nD τ).loc main_arg31)) (m ((c : Thread nD τ).loc main_arg33)))
    (h2 : W10 m ρ c (Proc.devRef .tc main_v69_2) = Cert.ReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg17)) (m ((c : Thread nD τ).loc main_arg18)) (m ((c : Thread nD τ).loc main_arg23)) (m ((c : Thread nD τ).loc main_arg24)) (m ((c : Thread nD τ).loc main_arg29)) (m ((c : Thread nD τ).loc main_arg30)) (m ((c : Thread nD τ).loc main_arg31)) (m ((c : Thread nD τ).loc main_arg33))) :
    W16 m ρ c (Proc.devRef .tc main_v93) = Cert.ReferenceIdeal.Read.val_main_v171 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) := by
  refine (W16_arr m ρ c 9).trans ((final5 (V15 m ρ) c).trans ?_)
  rw [ref_out]
  show outLayer (pooled (W15 m ρ c (Proc.devRef .tc main_v72)) (W15 m ρ c (Proc.devRef .tc main_v84)) (W15 m ρ c (Proc.devRef .tc main_v88))
      (W15 m ρ c (Proc.devRef .tc main_v87)) (W15 m ρ c (Proc.devRef .tc main_v89))) (W15 m ρ c (Proc.devRef .tc main_arg25)) (W15 m ρ c (Proc.devRef .tc main_v90))
      (W15 m ρ c (Proc.devRef .tc main_v91)) (W15 m ρ c (Proc.devRef .tc main_v92)) = _
  rw [t_c15_v72 m ρ c h0, t_k15_v84 m ρ c h1, t_k15_v88, t_k15_v87 m ρ c h2, t_k15_v89, t_a15_25, t_k15_v90, t_k15_v91, t_k15_v92]

end Cert.KernelIdeal.Val

end
-- ==== Proof.lean ====
/-
  The certificate: the kernel program, its idealization and the reference, and that the two idealized programs compute the
  same result on the extended reals.

  The frames of the two kernel programs are the generated frame certificates; the reference's frame is its generated run
  with the result dropped. The ideal pass rewrote nothing, so `preserves` asks nothing.

  The value claim. The kernel program is six pipelined regions among host stretches. Each region computes, block of rows by
  block of rows, a dense stage whose rows depend on the same rows of its inputs only, so each region's output is one
  whole-array function of its input arrays (Reg0 … Reg5); the host stretches between the regions are the reference's own
  gathers, segment sums and layout operations. Walking the program's buffers from the launch memory forward (KValue, KHeads,
  KTail), every buffer a later segment reads holds the corresponding stage of the reference, and the result array holds the
  reference's result, as functions of the argument arrays. The two programs run from memories that agree on the arguments,
  hence end with equal results. No law of the extended reals beyond the identity of the two spellings of each stage is
  used: the two programs apply the same operations in the same order, and the precondition is never opened.
-/
import proofs.«150507_j36661840838787_2_alg».proof.Defs
import proofs.«150507_j36661840838787_2_alg».proof.Proof.Gen.Kernel
import proofs.«150507_j36661840838787_2_alg».proof.Proof.Gen.Kernel.Frame
import proofs.«150507_j36661840838787_2_alg».proof.Proof.Gen.KernelIdeal
import proofs.«150507_j36661840838787_2_alg».proof.Proof.Gen.KernelIdeal.Frame
import proofs.«150507_j36661840838787_2_alg».proof.Proof.Gen.ReferenceIdeal
import proofs.«150507_j36661840838787_2_alg».proof.Proof.Gen.ReferenceIdeal.Run
import proofs.«150507_j36661840838787_2_alg».proof.Proof.Gen.ReferenceIdeal.Read
import proofs.«150507_j36661840838787_2_alg».proof.Proof.Gen.Pre_finite_inputs
import proofs.«150507_j36661840838787_2_alg».proof.Proof.KRun
import proofs.«150507_j36661840838787_2_alg».proof.Proof.KValue
import proofs.«150507_j36661840838787_2_alg».proof.Proof.KHeads
import proofs.«150507_j36661840838787_2_alg».proof.Proof.KTail
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

open Cert.KernelIdeal Cert.KernelIdeal.Gen in
/-- Both idealized programs end, and their results are the same function of arguments that agree. -/
theorem algebraic : Cert.algebraic_KernelIdeal_ReferenceIdeal := by
  intro m ρ m' ρ' _ hagree
  refine ⟨fun c => Cert.KernelIdeal.Gen.W16 m ρ c (Proc.devRef .tc Cert.KernelIdeal.main_v93), ?_, ?_⟩
  · refine (θ_run Cert.KernelIdeal.defs _ _).mono (fun r h c => ⟨h c _ (mem_uc main_v93 (by decide)),
      (h c _ (mem_uc main_arg0 (by decide))).trans (W16_main_arg0 m ρ c),
      (h c _ (mem_uc main_arg1 (by decide))).trans (W16_main_arg1 m ρ c),
      (h c _ (mem_uc main_arg2 (by decide))).trans (W16_main_arg2 m ρ c),
      (h c _ (mem_uc main_arg3 (by decide))).trans (W16_main_arg3 m ρ c),
      (h c _ (mem_uc main_arg4 (by decide))).trans (W16_main_arg4 m ρ c),
      (h c _ (mem_uc main_arg5 (by decide))).trans (W16_main_arg5 m ρ c),
      (h c _ (mem_uc main_arg6 (by decide))).trans (W16_main_arg6 m ρ c),
      (h c _ (mem_uc main_arg7 (by decide))).trans (W16_main_arg7 m ρ c),
      (h c _ (mem_uc main_arg8 (by decide))).trans (W16_main_arg8 m ρ c),
      (h c _ (mem_uc main_arg9 (by decide))).trans (W16_main_arg9 m ρ c),
      (h c _ (mem_uc main_arg10 (by decide))).trans (W16_main_arg10 m ρ c),
      (h c _ (mem_uc main_arg11 (by decide))).trans (W16_main_arg11 m ρ c),
      (h c _ (mem_uc main_arg12 (by decide))).trans (W16_main_arg12 m ρ c),
      (h c _ (mem_uc main_arg13 (by decide))).trans (W16_main_arg13 m ρ c),
      (h c _ (mem_uc main_arg14 (by decide))).trans (W16_main_arg14 m ρ c),
      (h c _ (mem_uc main_arg15 (by decide))).trans (W16_main_arg15 m ρ c),
      (h c _ (mem_uc main_arg16 (by decide))).trans (W16_main_arg16 m ρ c),
      (h c _ (mem_uc main_arg17 (by decide))).trans (W16_main_arg17 m ρ c),
      (h c _ (mem_uc main_arg18 (by decide))).trans (W16_main_arg18 m ρ c),
      (h c _ (mem_uc main_arg19 (by decide))).trans (W16_main_arg19 m ρ c),
      (h c _ (mem_uc main_arg20 (by decide))).trans (W16_main_arg20 m ρ c),
      (h c _ (mem_uc main_arg21 (by decide))).trans (W16_main_arg21 m ρ c),
      (h c _ (mem_uc main_arg22 (by decide))).trans (W16_main_arg22 m ρ c),
      (h c _ (mem_uc main_arg23 (by decide))).trans (W16_main_arg23 m ρ c),
      (h c _ (mem_uc main_arg24 (by decide))).trans (W16_main_arg24 m ρ c),
      (h c _ (mem_uc main_arg25 (by decide))).trans (W16_main_arg25 m ρ c),
      (h c _ (mem_uc main_arg26 (by decide))).trans (W16_main_arg26 m ρ c),
      (h c _ (mem_uc main_arg27 (by decide))).trans (W16_main_arg27 m ρ c),
      (h c _ (mem_uc main_arg28 (by decide))).trans (W16_main_arg28 m ρ c),
      (h c _ (mem_uc main_arg29 (by decide))).trans (W16_main_arg29 m ρ c),
      (h c _ (mem_uc main_arg30 (by decide))).trans (W16_main_arg30 m ρ c),
      (h c _ (mem_uc main_arg31 (by decide))).trans (W16_main_arg31 m ρ c),
      (h c _ (mem_uc main_arg32 (by decide))).trans (W16_main_arg32 m ρ c),
      (h c _ (mem_uc main_arg33 (by decide))).trans (W16_main_arg33 m ρ c)⟩)
      (Cert.KernelIdeal.Val.run_all m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22, e23, e24, e25, e26, e27, e28, e29, e30, e31, e32, e33⟩ := hagree c
    rw [Cert.ReferenceIdeal.Read.val_main_v171_eq, e0, e1, e2, e3, e4, e5, e6, e7, e8, e9, e10, e11, e12, e13, e14, e15, e16, e17, e18, e19, e20, e21, e22, e23, e24, e25, e26, e27, e28, e29, e30, e31, e32, e33]
    exact (Cert.KernelIdeal.Val.k16_v93 m ρ c (Cert.KernelIdeal.Val.k10_v69_0 m ρ c) (Cert.KernelIdeal.Val.k10_v69_1 m ρ c)
      (Cert.KernelIdeal.Val.k10_v69_2 m ρ c)).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
